-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S700000x128 : Shape := ⟨2, ![700000, 128]⟩
abbrev S768000 : Shape := ⟨1, ![768000]⟩
abbrev S51200 : Shape := ⟨1, ![51200]⟩
abbrev S5120 : Shape := ⟨1, ![5120]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩

class Facts : Prop where
  bcast_S_S700000x128 : S_.BroadcastsInDim S700000x128 (![] : Fin 0 → Fin S700000x128.rank)
  reducesTo_S700000x128_S_d0_1 : S700000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_
  bcast_S_S768000 : S_.BroadcastsInDim S768000 (![] : Fin 0 → Fin S768000.rank)
  reducesTo_S768000_S_d0 : S768000.ReducesTo [0] S_
  bcast_S_S51200 : S_.BroadcastsInDim S51200 (![] : Fin 0 → Fin S51200.rank)
  reducesTo_S51200_S_d0 : S51200.ReducesTo [0] S_
  bcast_S_S5120 : S_.BroadcastsInDim S5120 (![] : Fin 0 → Fin S5120.rank)
  reducesTo_S5120_S_d0 : S5120.ReducesTo [0] S_

variable [Facts]

def fn_part3 {F : FTy → Type} [FloatOps F] (main_arg4 : IVec S51200 32) (main_arg6 : IVec S5120 32) (main_v48 : IVec S_ 1) (main_v50 : IVec S768000 1) : IVec S_ 1 :=
  let main_c_19 : IVec S_ 1 := constantI S_ 1 1#1
  let main_v51 : IVec S_ 1 := (fun x v => Host.reduce IntOp.andi x v reducesTo_S768000_S_d0 h_S_) main_v50 main_c_19
  let main_v52 : IVec S_ 1 := andi main_v48 main_v51
  let main_c_20 : IVec S_ 32 := constantI S_ 32 0#32
  let main_v53 : IVec S51200 32 := broadcastInDim S51200 ![] bcast_S_S51200 main_c_20
  let main_v54 : IVec S51200 1 := cmpi .sge main_arg4 main_v53
  let main_c_21 : IVec S_ 1 := constantI S_ 1 1#1
  let main_v55 : IVec S_ 1 := (fun x v => Host.reduce IntOp.andi x v reducesTo_S51200_S_d0 h_S_) main_v54 main_c_21
  let main_v56 : IVec S_ 1 := andi main_v52 main_v55
  let main_c_22 : IVec S_ 32 := constantI S_ 32 0#32
  let main_v57 : IVec S5120 32 := broadcastInDim S5120 ![] bcast_S_S5120 main_c_22
  let main_v58 : IVec S5120 1 := cmpi .sge main_arg6 main_v57
  let main_c_23 : IVec S_ 1 := constantI S_ 1 1#1
  let main_v59 : IVec S_ 1 := (fun x v => Host.reduce IntOp.andi x v reducesTo_S5120_S_d0 h_S_) main_v58 main_c_23
  let main_v60 : IVec S_ 1 := andi main_v56 main_v59
  main_v60

def fn_part2 {F : FTy → Type} [FloatOps F] (main_arg2 : IVec S768000 32) (main_arg4 : IVec S51200 32) (main_arg6 : IVec S5120 32) (main_arg13 : FVec F S256x47 .f32) (main_arg14 : FVec F S256x47 .f32) (main_arg15 : FVec F S47 .f32) (main_v33 : IVec S_ 1) : IVec S_ 1 :=
  let main_v34 : FVec F S256x47 .f32 := Host.absf main_arg13
  let main_cst_12 : FVec F S_ .f32 := constant S_ .f32 0x7F800000#32
  let main_v35 : FVec F S256x47 .f32 := broadcastInDim S256x47 ![] bcast_S_S256x47 main_cst_12
  let main_v36 : IVec S256x47 1 := cmpf .olt main_v34 main_v35
  let main_c_13 : IVec S_ 1 := constantI S_ 1 1#1
  let main_v37 : IVec S_ 1 := (fun x v => Host.reduce IntOp.andi x v reducesTo_S256x47_S_d0_1 h_S_) main_v36 main_c_13
  let main_v38 : IVec S_ 1 := andi main_v33 main_v37
  let main_v39 : FVec F S256x47 .f32 := Host.absf main_arg14
  let main_cst_14 : FVec F S_ .f32 := constant S_ .f32 0x7F800000#32
  let main_v40 : FVec F S256x47 .f32 := broadcastInDim S256x47 ![] bcast_S_S256x47 main_cst_14
  let main_v41 : IVec S256x47 1 := cmpf .olt main_v39 main_v40
  let main_c_15 : IVec S_ 1 := constantI S_ 1 1#1
  let main_v42 : IVec S_ 1 := (fun x v => Host.reduce IntOp.andi x v reducesTo_S256x47_S_d0_1 h_S_) main_v41 main_c_15
  let main_v43 : IVec S_ 1 := andi main_v38 main_v42
  let main_v44 : FVec F S47 .f32 := Host.absf main_arg15
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  let main_c_18 : IVec S_ 32 := constantI S_ 32 0#32
  let main_v49 : IVec S768000 32 := broadcastInDim S768000 ![] bcast_S_S768000 main_c_18
  let main_v50 : IVec S768000 1 := cmpi .sge main_arg2 main_v49
  fn_part3 (F := F) main_arg4 main_arg6 main_v48 main_v50

def fn_part1 {F : FTy → Type} [FloatOps F] (main_arg2 : IVec S768000 32) (main_arg4 : IVec S51200 32) (main_arg6 : IVec S5120 32) (main_arg10 : FVec F S256x256 .f32) (main_arg11 : FVec F S256x256 .f32) (main_arg12 : FVec F S256 .f32) (main_arg13 : FVec F S256x47 .f32) (main_arg14 : FVec F S256x47 .f32) (main_arg15 : FVec F S47 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg11
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg12
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_arg4 main_arg6 main_arg13 main_arg14 main_arg15 main_v33

def fn {F : FTy → Type} [FloatOps F] (main_arg0 : FVec F S700000x128 .f32) (main_arg1 : IVec S768000 32) (main_arg2 : IVec S768000 32) (main_arg3 : IVec S51200 32) (main_arg4 : IVec S51200 32) (main_arg5 : IVec S5120 32) (main_arg6 : IVec S5120 32) (main_arg7 : FVec F S128x256 .f32) (main_arg8 : FVec F S128x256 .f32) (main_arg9 : FVec F S256 .f32) (main_arg10 : FVec F S256x256 .f32) (main_arg11 : FVec F S256x256 .f32) (main_arg12 : FVec F S256 .f32) (main_arg13 : FVec F S256x47 .f32) (main_arg14 : FVec F S256x47 .f32) (main_arg15 : FVec F S47 .f32) : IVec S_ 1 :=
  let main_v0 : FVec F S700000x128 .f32 := Host.absf main_arg0
  let main_cst : FVec F S_ .f32 := constant S_ .f32 0x7F800000#32
  let main_v1 : FVec F S700000x128 .f32 := broadcastInDim S700000x128 ![] bcast_S_S700000x128 main_cst
  let main_v2 : IVec S700000x128 1 := cmpf .olt main_v0 main_v1
  let main_c : IVec S_ 1 := constantI S_ 1 1#1
  let main_v3 : IVec S_ 1 := (fun x v => Host.reduce IntOp.andi x v reducesTo_S700000x128_S_d0_1 h_S_) main_v2 main_c
  let main_v4 : FVec F S128x256 .f32 := Host.absf main_arg7
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg8
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg4 main_arg6 main_arg10 main_arg11 main_arg12 main_arg13 main_arg14 main_arg15 main_v13 main_v16
-- ==== Kernel.lean ====
abbrev S700000x128 : Shape := ⟨2, ![700000, 128]⟩
abbrev S768000 : Shape := ⟨1, ![768000]⟩
abbrev S51200 : Shape := ⟨1, ![51200]⟩
abbrev S5120 : Shape := ⟨1, ![5120]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S51200x128 : Shape := ⟨2, ![51200, 128]⟩
abbrev S_ : Shape := ⟨0, ![]⟩
abbrev S768000x1 : Shape := ⟨2, ![768000, 1]⟩
abbrev S768000x128 : Shape := ⟨2, ![768000, 128]⟩
abbrev S768000x129 : Shape := ⟨2, ![768000, 129]⟩
abbrev S51200x129 : Shape := ⟨2, ![51200, 129]⟩
abbrev S51200x1 : Shape := ⟨2, ![51200, 1]⟩
abbrev S51200x256 : Shape := ⟨2, ![51200, 256]⟩
abbrev S5120x256 : Shape := ⟨2, ![5120, 256]⟩
abbrev S51200x257 : Shape := ⟨2, ![51200, 257]⟩
abbrev S5120x257 : Shape := ⟨2, ![5120, 257]⟩
abbrev S5120x1 : Shape := ⟨2, ![5120, 1]⟩
abbrev S1024x256 : Shape := ⟨2, ![1024, 256]⟩
abbrev S1024x257 : Shape := ⟨2, ![1024, 257]⟩
abbrev S1024x1 : Shape := ⟨2, ![1024, 1]⟩
abbrev S1024x47 : Shape := ⟨2, ![1024, 47]⟩
abbrev S1024x128 : Shape := ⟨2, ![1024, 128]⟩
abbrev S1x256 : Shape := ⟨2, ![1, 256]⟩
abbrev S512x256 : Shape := ⟨2, ![512, 256]⟩
abbrev S512x1 : Shape := ⟨2, ![512, 1]⟩
abbrev S512x47 : Shape := ⟨2, ![512, 47]⟩
abbrev S1x47 : Shape := ⟨2, ![1, 47]⟩

abbrev nBuf : Space → Nat
  | .hbm => 103
  | .vmem => 33
  | .smem => 0
  | _ => 0

abbrev bufTy : (tb : Table) → Fin (tcTables nBuf tb) → BufTy
  | .hbm, ⟨0, _⟩ => ⟨S700000x128, .f32⟩
  | .hbm, ⟨1, _⟩ => ⟨S768000, .i32⟩
  | .hbm, ⟨2, _⟩ => ⟨S768000, .i32⟩
  | .hbm, ⟨3, _⟩ => ⟨S51200, .i32⟩
  | .hbm, ⟨4, _⟩ => ⟨S51200, .i32⟩
  | .hbm, ⟨5, _⟩ => ⟨S5120, .i32⟩
  | .hbm, ⟨6, _⟩ => ⟨S5120, .i32⟩
  | .hbm, ⟨7, _⟩ => ⟨S128x256, .f32⟩
  | .hbm, ⟨8, _⟩ => ⟨S128x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x47, .f32⟩
  | .hbm, ⟨14, _⟩ => ⟨S256x47, .f32⟩
  | .hbm, ⟨15, _⟩ => ⟨S47, .f32⟩
  | .hbm, ⟨16, _⟩ => ⟨S51200x128, .f32⟩
  | .hbm, ⟨17, _⟩ => ⟨S_, .i32⟩
  | .hbm, ⟨18, _⟩ => ⟨S768000, .i32⟩
  | .hbm, ⟨19, _⟩ => ⟨S768000, .i1⟩
  | .hbm, ⟨20, _⟩ => ⟨S_, .i32⟩
  | .hbm, ⟨21, _⟩ => ⟨S768000, .i32⟩
  | .hbm, ⟨22, _⟩ => ⟨S768000, .i32⟩
  | .hbm, ⟨23, _⟩ => ⟨S768000, .i32⟩
  | .hbm, ⟨24, _⟩ => ⟨S768000x1, .i32⟩
  | .hbm, ⟨25, _⟩ => ⟨S768000x128, .f32⟩
  | .hbm, ⟨26, _⟩ => ⟨S_, .f32⟩
  | .hbm, ⟨27, _⟩ => ⟨S768000x1, .f32⟩
  | .hbm, ⟨28, _⟩ => ⟨S768000x129, .f32⟩
  | .hbm, ⟨29, _⟩ => ⟨S_, .f32⟩
  | .hbm, ⟨30, _⟩ => ⟨S51200x129, .f32⟩
  | .hbm, ⟨31, _⟩ => ⟨S_, .i32⟩
  | .hbm, ⟨32, _⟩ => ⟨S768000, .i32⟩
  | .hbm, ⟨33, _⟩ => ⟨S768000, .i1⟩
  | .hbm, ⟨34, _⟩ => ⟨S_, .i32⟩
  | .hbm, ⟨35, _⟩ => ⟨S768000, .i32⟩
  | .hbm, ⟨36, _⟩ => ⟨S768000, .i32⟩
  | .hbm, ⟨37, _⟩ => ⟨S768000, .i32⟩
  | .hbm, ⟨38, _⟩ => ⟨S768000x1, .i32⟩
  | .hbm, ⟨39, _⟩ => ⟨S51200x129, .f32⟩
  | .hbm, ⟨40, _⟩ => ⟨S51200x128, .f32⟩
  | .hbm, ⟨41, _⟩ => ⟨S51200x1, .f32⟩
  | .hbm, ⟨42, _⟩ => ⟨S128x256, .bf16⟩
  | .hbm, ⟨43, _⟩ => ⟨S128x256, .bf16⟩
  | .hbm, ⟨44, _⟩ => ⟨S51200x256, .f32⟩
  | .hbm, ⟨45, _⟩ => ⟨S5120x256, .f32⟩
  | .hbm, ⟨46, _⟩ => ⟨S_, .i32⟩
  | .hbm, ⟨47, _⟩ => ⟨S51200, .i32⟩
  | .hbm, ⟨48, _⟩ => ⟨S51200, .i1⟩
  | .hbm, ⟨49, _⟩ => ⟨S_, .i32⟩
  | .hbm, ⟨50, _⟩ => ⟨S51200, .i32⟩
  | .hbm, ⟨51, _⟩ => ⟨S51200, .i32⟩
  | .hbm, ⟨52, _⟩ => ⟨S51200, .i32⟩
  | .hbm, ⟨53, _⟩ => ⟨S51200x1, .i32⟩
  | .hbm, ⟨54, _⟩ => ⟨S51200x256, .f32⟩
  | .hbm, ⟨55, _⟩ => ⟨S_, .f32⟩
  | .hbm, ⟨56, _⟩ => ⟨S51200x1, .f32⟩
  | .hbm, ⟨57, _⟩ => ⟨S51200x257, .f32⟩
  | .hbm, ⟨58, _⟩ => ⟨S_, .f32⟩
  | .hbm, ⟨59, _⟩ => ⟨S5120x257, .f32⟩
  | .hbm, ⟨60, _⟩ => ⟨S_, .i32⟩
  | .hbm, ⟨61, _⟩ => ⟨S51200, .i32⟩
  | .hbm, ⟨62, _⟩ => ⟨S51200, .i1⟩
  | .hbm, ⟨63, _⟩ => ⟨S_, .i32⟩
  | .hbm, ⟨64, _⟩ => ⟨S51200, .i32⟩
  | .hbm, ⟨65, _⟩ => ⟨S51200, .i32⟩
  | .hbm, ⟨66, _⟩ => ⟨S51200, .i32⟩
  | .hbm, ⟨67, _⟩ => ⟨S51200x1, .i32⟩
  | .hbm, ⟨68, _⟩ => ⟨S5120x257, .f32⟩
  | .hbm, ⟨69, _⟩ => ⟨S5120x256, .f32⟩
  | .hbm, ⟨70, _⟩ => ⟨S5120x1, .f32⟩
  | .hbm, ⟨71, _⟩ => ⟨S256x256, .bf16⟩
  | .hbm, ⟨72, _⟩ => ⟨S256x256, .bf16⟩
  | .hbm, ⟨73, _⟩ => ⟨S5120x256, .f32⟩
  | .hbm, ⟨74, _⟩ => ⟨S1024x256, .f32⟩
  | .hbm, ⟨75, _⟩ => ⟨S_, .i32⟩
  | .hbm, ⟨76, _⟩ => ⟨S5120, .i32⟩
  | .hbm, ⟨77, _⟩ => ⟨S5120, .i1⟩
  | .hbm, ⟨78, _⟩ => ⟨S_, .i32⟩
  | .hbm, ⟨79, _⟩ => ⟨S5120, .i32⟩
  | .hbm, ⟨80, _⟩ => ⟨S5120, .i32⟩
  | .hbm, ⟨81, _⟩ => ⟨S5120, .i32⟩
  | .hbm, ⟨82, _⟩ => ⟨S5120x1, .i32⟩
  | .hbm, ⟨83, _⟩ => ⟨S5120x256, .f32⟩
  | .hbm, ⟨84, _⟩ => ⟨S_, .f32⟩
  | .hbm, ⟨85, _⟩ => ⟨S5120x1, .f32⟩
  | .hbm, ⟨86, _⟩ => ⟨S5120x257, .f32⟩
  | .hbm, ⟨87, _⟩ => ⟨S_, .f32⟩
  | .hbm, ⟨88, _⟩ => ⟨S1024x257, .f32⟩
  | .hbm, ⟨89, _⟩ => ⟨S_, .i32⟩
  | .hbm, ⟨90, _⟩ => ⟨S5120, .i32⟩
  | .hbm, ⟨91, _⟩ => ⟨S5120, .i1⟩
  | .hbm, ⟨92, _⟩ => ⟨S_, .i32⟩
  | .hbm, ⟨93, _⟩ => ⟨S5120, .i32⟩
  | .hbm, ⟨94, _⟩ => ⟨S5120, .i32⟩
  | .hbm, ⟨95, _⟩ => ⟨S5120, .i32⟩
  | .hbm, ⟨96, _⟩ => ⟨S5120x1, .i32⟩
  | .hbm, ⟨97, _⟩ => ⟨S1024x257, .f32⟩
  | .hbm, ⟨98, _⟩ => ⟨S1024x256, .f32⟩
  | .hbm, ⟨99, _⟩ => ⟨S1024x1, .f32⟩
  | .hbm, ⟨100, _⟩ => ⟨S256x47, .bf16⟩
  | .hbm, ⟨101, _⟩ => ⟨S256x47, .bf16⟩
  | .hbm, ⟨102, _⟩ => ⟨S1024x47, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S128x256, .bf16⟩
  | .local _ .vmem, ⟨7, _⟩ => ⟨S128x256, .bf16⟩
  | .local _ .vmem, ⟨8, _⟩ => ⟨S256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x1, .f32⟩
  | .local _ .vmem, ⟨16, _⟩ => ⟨S1024x1, .f32⟩
  | .local _ .vmem, ⟨17, _⟩ => ⟨S256x256, .bf16⟩
  | .local _ .vmem, ⟨18, _⟩ => ⟨S256x256, .bf16⟩
  | .local _ .vmem, ⟨19, _⟩ => ⟨S256, .f32⟩
  | .local _ .vmem, ⟨20, _⟩ => ⟨S1024x256, .f32⟩
  | .local _ .vmem, ⟨21, _⟩ => ⟨S1024x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x1, .f32⟩
  | .local _ .vmem, ⟨27, _⟩ => ⟨S512x1, .f32⟩
  | .local _ .vmem, ⟨28, _⟩ => ⟨S256x47, .bf16⟩
  | .local _ .vmem, ⟨29, _⟩ => ⟨S256x47, .bf16⟩
  | .local _ .vmem, ⟨30, _⟩ => ⟨S47, .f32⟩
  | .local _ .vmem, ⟨31, _⟩ => ⟨S512x47, .f32⟩
  | .local _ .vmem, ⟨32, _⟩ => ⟨S512x47, .f32⟩
  | _, _ => ⟨S700000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_c_0 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst : Ref sig .tc := ⟨.hbm, 26, rfl⟩
abbrev main_call0_v8 : Ref sig .tc := ⟨.hbm, 27, rfl⟩
abbrev main_call0_v9 : Ref sig .tc := ⟨.hbm, 28, rfl⟩
abbrev main_call0_cst_1 : Ref sig .tc := ⟨.hbm, 29, rfl⟩
abbrev main_call0_v10 : Ref sig .tc := ⟨.hbm, 30, rfl⟩
abbrev main_call0_c_2 : Ref sig .tc := ⟨.hbm, 31, rfl⟩
abbrev main_call0_v11 : Ref sig .tc := ⟨.hbm, 32, rfl⟩
abbrev main_call0_v12 : Ref sig .tc := ⟨.hbm, 33, rfl⟩
abbrev main_call0_c_3 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_call0_v21 : Ref sig .tc := ⟨.hbm, 43, rfl⟩
abbrev main_call0_v22 : Ref sig .tc := ⟨.hbm, 44, rfl⟩
abbrev main_call0_v23 : Ref sig .tc := ⟨.hbm, 45, rfl⟩
abbrev main_call0_c_4 : Ref sig .tc := ⟨.hbm, 46, rfl⟩
abbrev main_call0_v24 : Ref sig .tc := ⟨.hbm, 47, rfl⟩
abbrev main_call0_v25 : Ref sig .tc := ⟨.hbm, 48, rfl⟩
abbrev main_call0_c_5 : Ref sig .tc := ⟨.hbm, 49, rfl⟩
abbrev main_call0_v26 : Ref sig .tc := ⟨.hbm, 50, rfl⟩
abbrev main_call0_v27 : Ref sig .tc := ⟨.hbm, 51, rfl⟩
abbrev main_call0_v28 : Ref sig .tc := ⟨.hbm, 52, rfl⟩
abbrev main_call0_v29 : Ref sig .tc := ⟨.hbm, 53, rfl⟩
abbrev main_call0_v30 : Ref sig .tc := ⟨.hbm, 54, rfl⟩
abbrev main_call0_cst_6 : Ref sig .tc := ⟨.hbm, 55, rfl⟩
abbrev main_call0_v31 : Ref sig .tc := ⟨.hbm, 56, rfl⟩
abbrev main_call0_v32 : Ref sig .tc := ⟨.hbm, 57, rfl⟩
abbrev main_call0_cst_7 : Ref sig .tc := ⟨.hbm, 58, rfl⟩
abbrev main_call0_v33 : Ref sig .tc := ⟨.hbm, 59, rfl⟩
abbrev main_call0_c_8 : Ref sig .tc := ⟨.hbm, 60, rfl⟩
abbrev main_call0_v34 : Ref sig .tc := ⟨.hbm, 61, rfl⟩
abbrev main_call0_v35 : Ref sig .tc := ⟨.hbm, 62, rfl⟩
abbrev main_call0_c_9 : Ref sig .tc := ⟨.hbm, 63, rfl⟩
abbrev main_call0_v36 : Ref sig .tc := ⟨.hbm, 64, rfl⟩
abbrev main_call0_v37 : Ref sig .tc := ⟨.hbm, 65, rfl⟩
abbrev main_call0_v38 : Ref sig .tc := ⟨.hbm, 66, rfl⟩
abbrev main_call0_v39 : Ref sig .tc := ⟨.hbm, 67, rfl⟩
abbrev main_call0_v40 : Ref sig .tc := ⟨.hbm, 68, rfl⟩
abbrev main_call0_v41 : Ref sig .tc := ⟨.hbm, 69, rfl⟩
abbrev main_call0_v42 : Ref sig .tc := ⟨.hbm, 70, rfl⟩
abbrev main_call0_v43 : Ref sig .tc := ⟨.hbm, 71, rfl⟩
abbrev main_call0_v44 : Ref sig .tc := ⟨.hbm, 72, rfl⟩
abbrev main_call0_v45 : Ref sig .tc := ⟨.hbm, 73, rfl⟩
abbrev main_call0_v46 : Ref sig .tc := ⟨.hbm, 74, rfl⟩
abbrev main_call0_c_10 : Ref sig .tc := ⟨.hbm, 75, rfl⟩
abbrev main_call0_v47 : Ref sig .tc := ⟨.hbm, 76, rfl⟩
abbrev main_call0_v48 : Ref sig .tc := ⟨.hbm, 77, rfl⟩
abbrev main_call0_c_11 : Ref sig .tc := ⟨.hbm, 78, rfl⟩
abbrev main_call0_v49 : Ref sig .tc := ⟨.hbm, 79, rfl⟩
abbrev main_call0_v50 : Ref sig .tc := ⟨.hbm, 80, rfl⟩
abbrev main_call0_v51 : Ref sig .tc := ⟨.hbm, 81, rfl⟩
abbrev main_call0_v52 : Ref sig .tc := ⟨.hbm, 82, rfl⟩
abbrev main_call0_v53 : Ref sig .tc := ⟨.hbm, 83, rfl⟩
abbrev main_call0_cst_12 : Ref sig .tc := ⟨.hbm, 84, rfl⟩
abbrev main_call0_v54 : Ref sig .tc := ⟨.hbm, 85, rfl⟩
abbrev main_call0_v55 : Ref sig .tc := ⟨.hbm, 86, rfl⟩
abbrev main_call0_cst_13 : Ref sig .tc := ⟨.hbm, 87, rfl⟩
abbrev main_call0_v56 : Ref sig .tc := ⟨.hbm, 88, rfl⟩
abbrev main_call0_c_14 : Ref sig .tc := ⟨.hbm, 89, rfl⟩
abbrev main_call0_v57 : Ref sig .tc := ⟨.hbm, 90, rfl⟩
abbrev main_call0_v58 : Ref sig .tc := ⟨.hbm, 91, rfl⟩
abbrev main_call0_c_15 : Ref sig .tc := ⟨.hbm, 92, rfl⟩
abbrev main_call0_v59 : Ref sig .tc := ⟨.hbm, 93, rfl⟩
abbrev main_call0_v60 : Ref sig .tc := ⟨.hbm, 94, rfl⟩
abbrev main_call0_v61 : Ref sig .tc := ⟨.hbm, 95, rfl⟩
abbrev main_call0_v62 : Ref sig .tc := ⟨.hbm, 96, rfl⟩
abbrev main_call0_v63 : Ref sig .tc := ⟨.hbm, 97, rfl⟩
abbrev main_call0_v64 : Ref sig .tc := ⟨.hbm, 98, rfl⟩
abbrev main_call0_v65 : Ref sig .tc := ⟨.hbm, 99, rfl⟩
abbrev main_call0_v66 : Ref sig .tc := ⟨.hbm, 100, rfl⟩
abbrev main_call0_v67 : Ref sig .tc := ⟨.hbm, 101, rfl⟩
abbrev main_v0 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x47 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x47 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S47 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x47 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S700000x128_S51200x128_0_0 : S700000x128.Slices ![0, 0] S51200x128
  bcast_S_S768000 : S_.BroadcastsInDim S768000 (![] : Fin 0 → Fin S768000.rank)
  bcast_S768000_S768000x1_0 : S768000.BroadcastsInDim S768000x1 (![0] : Fin 1 → Fin S768000x1.rank)
  bcast_S_S768000x1 : S_.BroadcastsInDim S768000x1 (![] : Fin 0 → Fin S768000x1.rank)
  concatenates_S768000x128_S768000x1_S768000x129_d1 : Shape.Concatenates [S768000x128, S768000x1] S768000x129 1
  bcast_S_S51200x129 : S_.BroadcastsInDim S51200x129 (![] : Fin 0 → Fin S51200x129.rank)
  slices_S51200x129_S51200x128_0_0 : S51200x129.Slices ![0, 0] S51200x128
  slices_S51200x129_S51200x1_0_128 : S51200x129.Slices ![0, 128] S51200x1
  bitsLt_bf16_f32 : FTy.bits .bf16 < FTy.bits .f32
  slices_S51200x256_S5120x256_0_0 : S51200x256.Slices ![0, 0] S5120x256
  bcast_S_S51200 : S_.BroadcastsInDim S51200 (![] : Fin 0 → Fin S51200.rank)
  bcast_S51200_S51200x1_0 : S51200.BroadcastsInDim S51200x1 (![0] : Fin 1 → Fin S51200x1.rank)
  bcast_S_S51200x1 : S_.BroadcastsInDim S51200x1 (![] : Fin 0 → Fin S51200x1.rank)
  concatenates_S51200x256_S51200x1_S51200x257_d1 : Shape.Concatenates [S51200x256, S51200x1] S51200x257 1
  bcast_S_S5120x257 : S_.BroadcastsInDim S5120x257 (![] : Fin 0 → Fin S5120x257.rank)
  slices_S5120x257_S5120x256_0_0 : S5120x257.Slices ![0, 0] S5120x256
  slices_S5120x257_S5120x1_0_256 : S5120x257.Slices ![0, 256] S5120x1
  slices_S5120x256_S1024x256_0_0 : S5120x256.Slices ![0, 0] S1024x256
  bcast_S_S5120 : S_.BroadcastsInDim S5120 (![] : Fin 0 → Fin S5120.rank)
  bcast_S5120_S5120x1_0 : S5120.BroadcastsInDim S5120x1 (![0] : Fin 1 → Fin S5120x1.rank)
  bcast_S_S5120x1 : S_.BroadcastsInDim S5120x1 (![] : Fin 0 → Fin S5120x1.rank)
  concatenates_S5120x256_S5120x1_S5120x257_d1 : Shape.Concatenates [S5120x256, S5120x1] S5120x257 1
  bcast_S_S1024x257 : S_.BroadcastsInDim S1024x257 (![] : Fin 0 → Fin S1024x257.rank)
  slices_S1024x257_S1024x256_0_0 : S1024x257.Slices ![0, 0] S1024x256
  slices_S1024x257_S1024x1_0_256 : S1024x257.Slices ![0, 256] S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  inb_S256x47_S256x47_0_0 : ∀ a, (![0, 0] : Fin 2 → Nat) a + S256x47.size a ≤ S256x47.size a
  h_S256x47 : 0 < S256x47.numel
  shapeCasts_S256x47_S256x47 : S256x47.ShapeCasts S256x47
  inb_S47_S47_0 : ∀ a, (![0] : Fin 1 → Nat) a + S47.size a ≤ S47.size a
  h_S47 : 0 < S47.numel
  shapeCasts_S47_S1x47 : S47.ShapeCasts S1x47
  broadcasts_S1x47_S512x47 : S1x47.Broadcasts S512x47
  inb_S512x47_S512x47_0_0 : ∀ a, (![0, 0] : Fin 2 → Nat) a + S512x47.size a ≤ S512x47.size a
  h_S512x47 : 0 < S512x47.numel
  gather_S700000x128_S768000x1_S768000x128_1_0_n_n_0_1_1128_wf : GatherDims.WF S700000x128 S768000x1 S768000x128 [1] [0] [] [0] [] 1 ![1, 128]
  scatter_S51200x129_S768000x1_S768000x129_1_0_0_1_wf : ScatterDims.WF S51200x129 S768000x1 S768000x129 [1] [0] [0] 1
  gather_S51200x256_S51200x1_S51200x256_1_0_n_n_0_1_1256_wf : GatherDims.WF S51200x256 S51200x1 S51200x256 [1] [0] [] [0] [] 1 ![1, 256]
  scatter_S5120x257_S51200x1_S51200x257_1_0_0_1_wf : ScatterDims.WF S5120x257 S51200x1 S51200x257 [1] [0] [0] 1
  gather_S5120x256_S5120x1_S5120x256_1_0_n_n_0_1_1256_wf : GatherDims.WF S5120x256 S5120x1 S5120x256 [1] [0] [] [0] [] 1 ![1, 256]
  scatter_S1024x257_S5120x1_S5120x257_1_0_0_1_wf : ScatterDims.WF S1024x257 S5120x1 S5120x257 [1] [0] [0] 1
  dot_S1024x128_S128x256_S1024x256_1_0_0_1_n_n_wf : DotDims.WF S1024x128 S128x256 S1024x256 [1] [0] [0] [1] [] []
  dot_S1024x256_S256x256_S1024x256_1_0_0_1_n_n_wf : DotDims.WF S1024x256 S256x256 S1024x256 [1] [0] [0] [1] [] []
  dot_S512x256_S256x47_S512x47_1_0_0_1_n_n_wf : DotDims.WF S512x256 S256x47 S512x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S51200x128.size a
  hwx0_0 : ∀ i : grid0.Coords, EltTy.bits .f32 = 32 ∨ (Rect.block (s := S51200x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S51200x128.size a
  hwx0_1 : ∀ i : grid0.Coords, EltTy.bits .f32 = 32 ∨ (Rect.block (s := S51200x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S51200x1.size a
  hwx0_2 : ∀ i : grid0.Coords, EltTy.bits .f32 = 32 ∨ (Rect.block (s := S51200x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S51200x256.size a
  hwx0_6 : ∀ i : grid0.Coords, EltTy.bits .f32 = 32 ∨ (Rect.block (s := S51200x256) S1024x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S5120x256.size a
  hwx1_0 : ∀ i : grid1.Coords, EltTy.bits .f32 = 32 ∨ (Rect.block (s := S5120x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S5120x256.size a
  hwx1_1 : ∀ i : grid1.Coords, EltTy.bits .f32 = 32 ∨ (Rect.block (s := S5120x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S5120x1.size a
  hwx1_2 : ∀ i : grid1.Coords, EltTy.bits .f32 = 32 ∨ (Rect.block (s := S5120x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S5120x256.size a
  hwx1_6 : ∀ i : grid1.Coords, EltTy.bits .f32 = 32 ∨ (Rect.block (s := S5120x256) S1024x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S1024x256.size a
  hwx2_0 : ∀ i : grid2.Coords, EltTy.bits .f32 = 32 ∨ (Rect.block (s := S1024x256) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S1024x256.size a
  hwx2_1 : ∀ i : grid2.Coords, EltTy.bits .f32 = 32 ∨ (Rect.block (s := S1024x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S1024x1.size a
  hwx2_2 : ∀ i : grid2.Coords, EltTy.bits .f32 = 32 ∨ (Rect.block (s := S1024x1) S512x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x47.size a ≤ S256x47.size a
  hwx2_3 : ∀ i : grid2.Coords, EltTy.bits .bf16 = 32 ∨ (Rect.block (s := S256x47) S256x47.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x47.size a ≤ S256x47.size a
  hwx2_4 : ∀ i : grid2.Coords, EltTy.bits .bf16 = 32 ∨ (Rect.block (s := S256x47) S256x47.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S47.size a ≤ S47.size a
  hwx2_5 : ∀ i : grid2.Coords, EltTy.bits .f32 = 32 ∨ (Rect.block (s := S47) S47.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x47.size a ≤ S1024x47.size a
  hwx2_6 : ∀ i : grid2.Coords, EltTy.bits .f32 = 32 ∨ (Rect.block (s := S1024x47) S512x47.size (cc2_transform_6 i) (hinb2_6 i)).WholeWords (EltTy.packing .f32)

variable [Facts₀]

def gather_S700000x128_S768000x1_S768000x128_1_0_n_n_0_1_1128 : GatherDims S700000x128 S768000x1 S768000x128 where
  offsetDims := [1]
  collapsedSliceDims := [0]
  operandBatchingDims := []
  startIndicesBatchingDims := []
  startIndexMap := [0]
  indexVectorDim := 1
  sliceSizes := ![1, 128]
  wf := gather_S700000x128_S768000x1_S768000x128_1_0_n_n_0_1_1128_wf
def scatter_S51200x129_S768000x1_S768000x129_1_0_0_1 : ScatterDims S51200x129 S768000x1 S768000x129 where
  updateWindowDims := [1]
  insertedWindowDims := [0]
  scatterDimsToOperandDims := [0]
  indexVectorDim := 1
  wf := scatter_S51200x129_S768000x1_S768000x129_1_0_0_1_wf
def gather_S51200x256_S51200x1_S51200x256_1_0_n_n_0_1_1256 : GatherDims S51200x256 S51200x1 S51200x256 where
  offsetDims := [1]
  collapsedSliceDims := [0]
  operandBatchingDims := []
  startIndicesBatchingDims := []
  startIndexMap := [0]
  indexVectorDim := 1
  sliceSizes := ![1, 256]
  wf := gather_S51200x256_S51200x1_S51200x256_1_0_n_n_0_1_1256_wf
def scatter_S5120x257_S51200x1_S51200x257_1_0_0_1 : ScatterDims S5120x257 S51200x1 S51200x257 where
  updateWindowDims := [1]
  insertedWindowDims := [0]
  scatterDimsToOperandDims := [0]
  indexVectorDim := 1
  wf := scatter_S5120x257_S51200x1_S51200x257_1_0_0_1_wf
def gather_S5120x256_S5120x1_S5120x256_1_0_n_n_0_1_1256 : GatherDims S5120x256 S5120x1 S5120x256 where
  offsetDims := [1]
  collapsedSliceDims := [0]
  operandBatchingDims := []
  startIndicesBatchingDims := []
  startIndexMap := [0]
  indexVectorDim := 1
  sliceSizes := ![1, 256]
  wf := gather_S5120x256_S5120x1_S5120x256_1_0_n_n_0_1_1256_wf
def scatter_S1024x257_S5120x1_S5120x257_1_0_0_1 : ScatterDims S1024x257 S5120x1 S5120x257 where
  updateWindowDims := [1]
  insertedWindowDims := [0]
  scatterDimsToOperandDims := [0]
  indexVectorDim := 1
  wf := scatter_S1024x257_S5120x1_S5120x257_1_0_0_1_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S512x256_S256x47_S512x47_1_0_0_1_n_n : DotDims S512x256 S256x47 S512x47 where
  lhsContracting := [1]
  rhsContracting := [0]
  lhsNonContracting := [0]
  rhsNonContracting := [1]
  lhsBatch := []
  rhsBatch := []
  wf := dot_S512x256_S256x47_S512x47_1_0_0_1_n_n_wf

abbrev win0_0 : Pipeline.Window sig grid0 :=
  Pipeline.Window.ofSpec (Memref.whole main_call0_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v18) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v19) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v20) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v21) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v22) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v23) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v41) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v42) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v43) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v44) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v45) S1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v46) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v64) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v65) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v66) S256x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v67) S256x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S47.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v0) S512x47.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S700000x128 : Shape := ⟨2, ![700000, 128]⟩
abbrev S768000 : Shape := ⟨1, ![768000]⟩
abbrev S51200 : Shape := ⟨1, ![51200]⟩
abbrev S5120 : Shape := ⟨1, ![5120]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S51200x128 : Shape := ⟨2, ![51200, 128]⟩
abbrev S_ : Shape := ⟨0, ![]⟩
abbrev S768000x1 : Shape := ⟨2, ![768000, 1]⟩
abbrev S768000x128 : Shape := ⟨2, ![768000, 128]⟩
abbrev S51200x1 : Shape := ⟨2, ![51200, 1]⟩
abbrev S51200x256 : Shape := ⟨2, ![51200, 256]⟩
abbrev S1x256 : Shape := ⟨2, ![1, 256]⟩
abbrev S5120x256 : Shape := ⟨2, ![5120, 256]⟩
abbrev S5120x1 : Shape := ⟨2, ![5120, 1]⟩
abbrev S1024x256 : Shape := ⟨2, ![1024, 256]⟩
abbrev S1024x1 : Shape := ⟨2, ![1024, 1]⟩
abbrev S1024x47 : Shape := ⟨2, ![1024, 47]⟩
abbrev S1x47 : Shape := ⟨2, ![1, 47]⟩

abbrev nBuf : Space → Nat
  | .hbm => 115
  | .vmem => 0
  | .smem => 0
  | _ => 0

abbrev bufTy : (tb : Table) → Fin (tcTables nBuf tb) → BufTy
  | .hbm, ⟨0, _⟩ => ⟨S700000x128, .f32⟩
  | .hbm, ⟨1, _⟩ => ⟨S768000, .i32⟩
  | .hbm, ⟨2, _⟩ => ⟨S768000, .i32⟩
  | .hbm, ⟨3, _⟩ => ⟨S51200, .i32⟩
  | .hbm, ⟨4, _⟩ => ⟨S51200, .i32⟩
  | .hbm, ⟨5, _⟩ => ⟨S5120, .i32⟩
  | .hbm, ⟨6, _⟩ => ⟨S5120, .i32⟩
  | .hbm, ⟨7, _⟩ => ⟨S128x256, .f32⟩
  | .hbm, ⟨8, _⟩ => ⟨S128x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x47, .f32⟩
  | .hbm, ⟨14, _⟩ => ⟨S256x47, .f32⟩
  | .hbm, ⟨15, _⟩ => ⟨S47, .f32⟩
  | .hbm, ⟨16, _⟩ => ⟨S51200x128, .f32⟩
  | .hbm, ⟨17, _⟩ => ⟨S_, .i32⟩
  | .hbm, ⟨18, _⟩ => ⟨S768000, .i32⟩
  | .hbm, ⟨19, _⟩ => ⟨S768000, .i1⟩
  | .hbm, ⟨20, _⟩ => ⟨S_, .i32⟩
  | .hbm, ⟨21, _⟩ => ⟨S768000, .i32⟩
  | .hbm, ⟨22, _⟩ => ⟨S768000, .i32⟩
  | .hbm, ⟨23, _⟩ => ⟨S768000, .i32⟩
  | .hbm, ⟨24, _⟩ => ⟨S768000x1, .i32⟩
  | .hbm, ⟨25, _⟩ => ⟨S768000x128, .f32⟩
  | .hbm, ⟨26, _⟩ => ⟨S_, .f32⟩
  | .hbm, ⟨27, _⟩ => ⟨S51200x128, .f32⟩
  | .hbm, ⟨28, _⟩ => ⟨S768000x1, .i32⟩
  | .hbm, ⟨29, _⟩ => ⟨S51200x128, .f32⟩
  | .hbm, ⟨30, _⟩ => ⟨S_, .f32⟩
  | .hbm, ⟨31, _⟩ => ⟨S768000x1, .f32⟩
  | .hbm, ⟨32, _⟩ => ⟨S_, .f32⟩
  | .hbm, ⟨33, _⟩ => ⟨S51200x1, .f32⟩
  | .hbm, ⟨34, _⟩ => ⟨S768000x1, .i32⟩
  | .hbm, ⟨35, _⟩ => ⟨S51200x1, .f32⟩
  | .hbm, ⟨36, _⟩ => ⟨S_, .f32⟩
  | .hbm, ⟨37, _⟩ => ⟨S51200x1, .f32⟩
  | .hbm, ⟨38, _⟩ => ⟨S51200x1, .f32⟩
  | .hbm, ⟨39, _⟩ => ⟨S51200x128, .f32⟩
  | .hbm, ⟨40, _⟩ => ⟨S51200x128, .f32⟩
  | .hbm, ⟨41, _⟩ => ⟨S51200x256, .f32⟩
  | .hbm, ⟨42, _⟩ => ⟨S51200x256, .f32⟩
  | .hbm, ⟨43, _⟩ => ⟨S51200x256, .f32⟩
  | .hbm, ⟨44, _⟩ => ⟨S1x256, .f32⟩
  | .hbm, ⟨45, _⟩ => ⟨S51200x256, .f32⟩
  | .hbm, ⟨46, _⟩ => ⟨S51200x256, .f32⟩
  | .hbm, ⟨47, _⟩ => ⟨S_, .f32⟩
  | .hbm, ⟨48, _⟩ => ⟨S51200x256, .f32⟩
  | .hbm, ⟨49, _⟩ => ⟨S51200x256, .f32⟩
  | .hbm, ⟨50, _⟩ => ⟨S5120x256, .f32⟩
  | .hbm, ⟨51, _⟩ => ⟨S_, .i32⟩
  | .hbm, ⟨52, _⟩ => ⟨S51200, .i32⟩
  | .hbm, ⟨53, _⟩ => ⟨S51200, .i1⟩
  | .hbm, ⟨54, _⟩ => ⟨S_, .i32⟩
  | .hbm, ⟨55, _⟩ => ⟨S51200, .i32⟩
  | .hbm, ⟨56, _⟩ => ⟨S51200, .i32⟩
  | .hbm, ⟨57, _⟩ => ⟨S51200, .i32⟩
  | .hbm, ⟨58, _⟩ => ⟨S51200x1, .i32⟩
  | .hbm, ⟨59, _⟩ => ⟨S51200x256, .f32⟩
  | .hbm, ⟨60, _⟩ => ⟨S_, .f32⟩
  | .hbm, ⟨61, _⟩ => ⟨S5120x256, .f32⟩
  | .hbm, ⟨62, _⟩ => ⟨S51200x1, .i32⟩
  | .hbm, ⟨63, _⟩ => ⟨S5120x256, .f32⟩
  | .hbm, ⟨64, _⟩ => ⟨S_, .f32⟩
  | .hbm, ⟨65, _⟩ => ⟨S51200x1, .f32⟩
  | .hbm, ⟨66, _⟩ => ⟨S_, .f32⟩
  | .hbm, ⟨67, _⟩ => ⟨S5120x1, .f32⟩
  | .hbm, ⟨68, _⟩ => ⟨S51200x1, .i32⟩
  | .hbm, ⟨69, _⟩ => ⟨S5120x1, .f32⟩
  | .hbm, ⟨70, _⟩ => ⟨S_, .f32⟩
  | .hbm, ⟨71, _⟩ => ⟨S5120x1, .f32⟩
  | .hbm, ⟨72, _⟩ => ⟨S5120x1, .f32⟩
  | .hbm, ⟨73, _⟩ => ⟨S5120x256, .f32⟩
  | .hbm, ⟨74, _⟩ => ⟨S5120x256, .f32⟩
  | .hbm, ⟨75, _⟩ => ⟨S5120x256, .f32⟩
  | .hbm, ⟨76, _⟩ => ⟨S5120x256, .f32⟩
  | .hbm, ⟨77, _⟩ => ⟨S5120x256, .f32⟩
  | .hbm, ⟨78, _⟩ => ⟨S1x256, .f32⟩
  | .hbm, ⟨79, _⟩ => ⟨S5120x256, .f32⟩
  | .hbm, ⟨80, _⟩ => ⟨S5120x256, .f32⟩
  | .hbm, ⟨81, _⟩ => ⟨S_, .f32⟩
  | .hbm, ⟨82, _⟩ => ⟨S5120x256, .f32⟩
  | .hbm, ⟨83, _⟩ => ⟨S5120x256, .f32⟩
  | .hbm, ⟨84, _⟩ => ⟨S1024x256, .f32⟩
  | .hbm, ⟨85, _⟩ => ⟨S_, .i32⟩
  | .hbm, ⟨86, _⟩ => ⟨S5120, .i32⟩
  | .hbm, ⟨87, _⟩ => ⟨S5120, .i1⟩
  | .hbm, ⟨88, _⟩ => ⟨S_, .i32⟩
  | .hbm, ⟨89, _⟩ => ⟨S5120, .i32⟩
  | .hbm, ⟨90, _⟩ => ⟨S5120, .i32⟩
  | .hbm, ⟨91, _⟩ => ⟨S5120, .i32⟩
  | .hbm, ⟨92, _⟩ => ⟨S5120x1, .i32⟩
  | .hbm, ⟨93, _⟩ => ⟨S5120x256, .f32⟩
  | .hbm, ⟨94, _⟩ => ⟨S_, .f32⟩
  | .hbm, ⟨95, _⟩ => ⟨S1024x256, .f32⟩
  | .hbm, ⟨96, _⟩ => ⟨S5120x1, .i32⟩
  | .hbm, ⟨97, _⟩ => ⟨S1024x256, .f32⟩
  | .hbm, ⟨98, _⟩ => ⟨S_, .f32⟩
  | .hbm, ⟨99, _⟩ => ⟨S5120x1, .f32⟩
  | .hbm, ⟨100, _⟩ => ⟨S_, .f32⟩
  | .hbm, ⟨101, _⟩ => ⟨S1024x1, .f32⟩
  | .hbm, ⟨102, _⟩ => ⟨S5120x1, .i32⟩
  | .hbm, ⟨103, _⟩ => ⟨S1024x1, .f32⟩
  | .hbm, ⟨104, _⟩ => ⟨S_, .f32⟩
  | .hbm, ⟨105, _⟩ => ⟨S1024x1, .f32⟩
  | .hbm, ⟨106, _⟩ => ⟨S1024x1, .f32⟩
  | .hbm, ⟨107, _⟩ => ⟨S1024x256, .f32⟩
  | .hbm, ⟨108, _⟩ => ⟨S1024x256, .f32⟩
  | .hbm, ⟨109, _⟩ => ⟨S1024x47, .f32⟩
  | .hbm, ⟨110, _⟩ => ⟨S1024x47, .f32⟩
  | .hbm, ⟨111, _⟩ => ⟨S1024x47, .f32⟩
  | .hbm, ⟨112, _⟩ => ⟨S1x47, .f32⟩
  | .hbm, ⟨113, _⟩ => ⟨S1024x47, .f32⟩
  | .hbm, ⟨114, _⟩ => ⟨S1024x47, .f32⟩
  | _, _ => ⟨S700000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call0_cst : Ref sig .tc := ⟨.hbm, 47, rfl⟩
abbrev main_call0_v0 : Ref sig .tc := ⟨.hbm, 48, rfl⟩
abbrev main_v25 : Ref sig .tc := ⟨.hbm, 49, rfl⟩
abbrev main_v26 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call1_cst : Ref sig .tc := ⟨.hbm, 81, rfl⟩
abbrev main_call1_v0 : Ref sig .tc := ⟨.hbm, 82, rfl⟩
abbrev main_v51 : Ref sig .tc := ⟨.hbm, 83, rfl⟩
abbrev main_v52 : Ref sig .tc := ⟨.hbm, 84, rfl⟩
abbrev main_c_10 : Ref sig .tc := ⟨.hbm, 85, rfl⟩
abbrev main_v53 : Ref sig .tc := ⟨.hbm, 86, rfl⟩
abbrev main_v54 : Ref sig .tc := ⟨.hbm, 87, rfl⟩
abbrev main_c_11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_cst_14 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_15 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩

abbrev nD : Nat := 1
abbrev τ : Topo := Topo.v7x

variable {F : FTy → Type} [FloatOps F]

class Facts₀ : Prop where
  slices_S700000x128_S51200x128_0_0 : S700000x128.Slices ![0, 0] S51200x128
  bcast_S_S768000 : S_.BroadcastsInDim S768000 (![] : Fin 0 → Fin S768000.rank)
  bcast_S768000_S768000x1_0 : S768000.BroadcastsInDim S768000x1 (![0] : Fin 1 → Fin S768000x1.rank)
  bcast_S_S51200x128 : S_.BroadcastsInDim S51200x128 (![] : Fin 0 → Fin S51200x128.rank)
  bcast_S_S768000x1 : S_.BroadcastsInDim S768000x1 (![] : Fin 0 → Fin S768000x1.rank)
  bcast_S_S51200x1 : S_.BroadcastsInDim S51200x1 (![] : Fin 0 → Fin S51200x1.rank)
  bcast_S51200x1_S51200x128_0_1 : S51200x1.BroadcastsInDim S51200x128 (![0, 1] : Fin 2 → Fin S51200x128.rank)
  bcast_S256_S1x256_1 : S256.BroadcastsInDim S1x256 (![1] : Fin 1 → Fin S1x256.rank)
  bcast_S1x256_S51200x256_0_1 : S1x256.BroadcastsInDim S51200x256 (![0, 1] : Fin 2 → Fin S51200x256.rank)
  bcast_S_S51200x256 : S_.BroadcastsInDim S51200x256 (![] : Fin 0 → Fin S51200x256.rank)
  slices_S51200x256_S5120x256_0_0 : S51200x256.Slices ![0, 0] S5120x256
  bcast_S_S51200 : S_.BroadcastsInDim S51200 (![] : Fin 0 → Fin S51200.rank)
  bcast_S51200_S51200x1_0 : S51200.BroadcastsInDim S51200x1 (![0] : Fin 1 → Fin S51200x1.rank)
  bcast_S_S5120x256 : S_.BroadcastsInDim S5120x256 (![] : Fin 0 → Fin S5120x256.rank)
  bcast_S_S5120x1 : S_.BroadcastsInDim S5120x1 (![] : Fin 0 → Fin S5120x1.rank)
  bcast_S5120x1_S5120x256_0_1 : S5120x1.BroadcastsInDim S5120x256 (![0, 1] : Fin 2 → Fin S5120x256.rank)
  bcast_S1x256_S5120x256_0_1 : S1x256.BroadcastsInDim S5120x256 (![0, 1] : Fin 2 → Fin S5120x256.rank)
  slices_S5120x256_S1024x256_0_0 : S5120x256.Slices ![0, 0] S1024x256
  bcast_S_S5120 : S_.BroadcastsInDim S5120 (![] : Fin 0 → Fin S5120.rank)
  bcast_S5120_S5120x1_0 : S5120.BroadcastsInDim S5120x1 (![0] : Fin 1 → Fin S5120x1.rank)
  bcast_S_S1024x256 : S_.BroadcastsInDim S1024x256 (![] : Fin 0 → Fin S1024x256.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  bcast_S47_S1x47_1 : S47.BroadcastsInDim S1x47 (![1] : Fin 1 → Fin S1x47.rank)
  bcast_S1x47_S1024x47_0_1 : S1x47.BroadcastsInDim S1024x47 (![0, 1] : Fin 2 → Fin S1024x47.rank)
  gather_S700000x128_S768000x1_S768000x128_1_0_n_n_0_1_1128_wf : GatherDims.WF S700000x128 S768000x1 S768000x128 [1] [0] [] [0] [] 1 ![1, 128]
  scatter_S51200x128_S768000x1_S768000x128_1_0_0_1_wf : ScatterDims.WF S51200x128 S768000x1 S768000x128 [1] [0] [0] 1
  scatter_S51200x1_S768000x1_S768000x1_1_0_0_1_wf : ScatterDims.WF S51200x1 S768000x1 S768000x1 [1] [0] [0] 1
  dot_S51200x128_S128x256_S51200x256_1_0_0_1_n_n_wf : DotDims.WF S51200x128 S128x256 S51200x256 [1] [0] [0] [1] [] []
  gather_S51200x256_S51200x1_S51200x256_1_0_n_n_0_1_1256_wf : GatherDims.WF S51200x256 S51200x1 S51200x256 [1] [0] [] [0] [] 1 ![1, 256]
  scatter_S5120x256_S51200x1_S51200x256_1_0_0_1_wf : ScatterDims.WF S5120x256 S51200x1 S51200x256 [1] [0] [0] 1
  scatter_S5120x1_S51200x1_S51200x1_1_0_0_1_wf : ScatterDims.WF S5120x1 S51200x1 S51200x1 [1] [0] [0] 1
  dot_S5120x256_S256x256_S5120x256_1_0_0_1_n_n_wf : DotDims.WF S5120x256 S256x256 S5120x256 [1] [0] [0] [1] [] []
  gather_S5120x256_S5120x1_S5120x256_1_0_n_n_0_1_1256_wf : GatherDims.WF S5120x256 S5120x1 S5120x256 [1] [0] [] [0] [] 1 ![1, 256]
  scatter_S1024x256_S5120x1_S5120x256_1_0_0_1_wf : ScatterDims.WF S1024x256 S5120x1 S5120x256 [1] [0] [0] 1
  scatter_S1024x1_S5120x1_S5120x1_1_0_0_1_wf : ScatterDims.WF S1024x1 S5120x1 S5120x1 [1] [0] [0] 1
  dot_S1024x256_S256x47_S1024x47_1_0_0_1_n_n_wf : DotDims.WF S1024x256 S256x47 S1024x47 [1] [0] [0] [1] [] []

variable [Facts₀]

def gather_S700000x128_S768000x1_S768000x128_1_0_n_n_0_1_1128 : GatherDims S700000x128 S768000x1 S768000x128 where
  offsetDims := [1]
  collapsedSliceDims := [0]
  operandBatchingDims := []
  startIndicesBatchingDims := []
  startIndexMap := [0]
  indexVectorDim := 1
  sliceSizes := ![1, 128]
  wf := gather_S700000x128_S768000x1_S768000x128_1_0_n_n_0_1_1128_wf
def scatter_S51200x128_S768000x1_S768000x128_1_0_0_1 : ScatterDims S51200x128 S768000x1 S768000x128 where
  updateWindowDims := [1]
  insertedWindowDims := [0]
  scatterDimsToOperandDims := [0]
  indexVectorDim := 1
  wf := scatter_S51200x128_S768000x1_S768000x128_1_0_0_1_wf
def scatter_S51200x1_S768000x1_S768000x1_1_0_0_1 : ScatterDims S51200x1 S768000x1 S768000x1 where
  updateWindowDims := [1]
  insertedWindowDims := [0]
  scatterDimsToOperandDims := [0]
  indexVectorDim := 1
  wf := scatter_S51200x1_S768000x1_S768000x1_1_0_0_1_wf
def dot_S51200x128_S128x256_S51200x256_1_0_0_1_n_n : DotDims S51200x128 S128x256 S51200x256 where
  lhsContracting := [1]
  rhsContracting := [0]
  lhsNonContracting := [0]
  rhsNonContracting := [1]
  lhsBatch := []
  rhsBatch := []
  wf := dot_S51200x128_S128x256_S51200x256_1_0_0_1_n_n_wf
def gather_S51200x256_S51200x1_S51200x256_1_0_n_n_0_1_1256 : GatherDims S51200x256 S51200x1 S51200x256 where
  offsetDims := [1]
  collapsedSliceDims := [0]
  operandBatchingDims := []
  startIndicesBatchingDims := []
  startIndexMap := [0]
  indexVectorDim := 1
  sliceSizes := ![1, 256]
  wf := gather_S51200x256_S51200x1_S51200x256_1_0_n_n_0_1_1256_wf
def scatter_S5120x256_S51200x1_S51200x256_1_0_0_1 : ScatterDims S5120x256 S51200x1 S51200x256 where
  updateWindowDims := [1]
  insertedWindowDims := [0]
  scatterDimsToOperandDims := [0]
  indexVectorDim := 1
  wf := scatter_S5120x256_S51200x1_S51200x256_1_0_0_1_wf
def scatter_S5120x1_S51200x1_S51200x1_1_0_0_1 : ScatterDims S5120x1 S51200x1 S51200x1 where
  updateWindowDims := [1]
  insertedWindowDims := [0]
  scatterDimsToOperandDims := [0]
  indexVectorDim := 1
  wf := scatter_S5120x1_S51200x1_S51200x1_1_0_0_1_wf
def dot_S5120x256_S256x256_S5120x256_1_0_0_1_n_n : DotDims S5120x256 S256x256 S5120x256 where
  lhsContracting := [1]
  rhsContracting := [0]
  lhsNonContracting := [0]
  rhsNonContracting := [1]
  lhsBatch := []
  rhsBatch := []
  wf := dot_S5120x256_S256x256_S5120x256_1_0_0_1_n_n_wf
def gather_S5120x256_S5120x1_S5120x256_1_0_n_n_0_1_1256 : GatherDims S5120x256 S5120x1 S5120x256 where
  offsetDims := [1]
  collapsedSliceDims := [0]
  operandBatchingDims := []
  startIndicesBatchingDims := []
  startIndexMap := [0]
  indexVectorDim := 1
  sliceSizes := ![1, 256]
  wf := gather_S5120x256_S5120x1_S5120x256_1_0_n_n_0_1_1256_wf
def scatter_S1024x256_S5120x1_S5120x256_1_0_0_1 : ScatterDims S1024x256 S5120x1 S5120x256 where
  updateWindowDims := [1]
  insertedWindowDims := [0]
  scatterDimsToOperandDims := [0]
  indexVectorDim := 1
  wf := scatter_S1024x256_S5120x1_S5120x256_1_0_0_1_wf
def scatter_S1024x1_S5120x1_S5120x1_1_0_0_1 : ScatterDims S1024x1 S5120x1 S5120x1 where
  updateWindowDims := [1]
  insertedWindowDims := [0]
  scatterDimsToOperandDims := [0]
  indexVectorDim := 1
  wf := scatter_S1024x1_S5120x1_S5120x1_1_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

class Facts : Prop extends Facts₀ where

variable [Facts]
-- ==== Proof.Spec.lean ====
/-
  The dense stage of a neighbourhood-mean graph layer, entry by entry, over the extended reals.

  A layer takes, for every destination node p, the node's own feature row hd[p, ·], the sum msg[p, ·] of its
  neighbours' feature rows and the number deg[p] of its neighbours, and returns

      out[p, q] = Σ_k hd[p, k] · ws[k, q]  +  Σ_k (msg[p, k] / max(deg[p], 1)) · wn[k, q]  +  b[q],

  rectified (max with zero) in every layer but the last. The number one and the number zero are kept as the float
  words the programs carry, so that no literal is ever evaluated: both programs carry the same words.
-/
import Idealize.ShloMosaic.PureOps.Ideal
import Idealize.ShloMosaic.Lib.ValueIdx

noncomputable section

namespace Cert.Sage

open Idealize.ShloMosaic Idealize.ShloMosaic.ValueIdx

/-- The float word of 1.0 read as an extended real. -/
abbrev ONE : EReal := Ideal.ofBits .f32 0x3F800000#32
/-- The float word of 0.0 read as an extended real. -/
abbrev ZERO : EReal := Ideal.ofBits .f32 0x00000000#32

/-- A row number as jax's indexing wraps it: a negative row number v counts from the end of a table of n rows (v + n),
    any other is kept. Spelt with the programs' own integer operations on the 32-bit words. -/
def wrapRow (n v : BitVec 32) : BitVec 32 := Scalar.select (IntOp.cmpi .slt v 0#32) (IntOp.addi v n) v

/-- The rectifier of the inner layers (max with zero); the identity in the last layer. -/
def act (relu : Bool) (v : EReal) : EReal := if relu then max v ZERO else v

/-- Entry (p, q) of the dense stage. -/
def denseAt (relu : Bool) {n fi fo : Nat}
    (hd msg : (⟨2, ![n, fi]⟩ : Shape).Idx → EReal) (deg : (⟨2, ![n, 1]⟩ : Shape).Idx → EReal)
    (ws wn : (⟨2, ![fi, fo]⟩ : Shape).Idx → EReal) (b : (⟨1, ![fo]⟩ : Shape).Idx → EReal)
    (p : Fin n) (q : Fin fo) : EReal :=
  act relu ((∑ k : Fin fi, hd (ix2 p k) * ws (ix2 k q))
    + (∑ k : Fin fi, Ideal.div (msg (ix2 p k)) (max (deg (ix2 p (0 : Fin 1))) ONE) * wn (ix2 k q))
    + b (ix1 q))

/-- The dense stage as one array [n, fo]. -/
def dense (relu : Bool) {n fi fo : Nat}
    (hd msg : (⟨2, ![n, fi]⟩ : Shape).Idx → EReal) (deg : (⟨2, ![n, 1]⟩ : Shape).Idx → EReal)
    (ws wn : (⟨2, ![fi, fo]⟩ : Shape).Idx → EReal) (b : (⟨1, ![fo]⟩ : Shape).Idx → EReal) :
    (⟨2, ![n, fo]⟩ : Shape).Idx → EReal :=
  fun i => denseAt relu hd msg deg ws wn b ⟨(i 0).val, idx2_lt0 i⟩ ⟨(i 1).val, idx2_lt1 i⟩

/-- The array at (p, q) is the entry. -/
theorem dense_apply (relu : Bool) {n fi fo : Nat}
    (hd msg : (⟨2, ![n, fi]⟩ : Shape).Idx → EReal) (deg : (⟨2, ![n, 1]⟩ : Shape).Idx → EReal)
    (ws wn : (⟨2, ![fi, fo]⟩ : Shape).Idx → EReal) (b : (⟨1, ![fo]⟩ : Shape).Idx → EReal) (p : Fin n) (q : Fin fo) :
    dense relu hd msg deg ws wn b (ix2 p q) = denseAt relu hd msg deg ws wn b p q := rfl

/-! ## The aggregation and the whole layer

An edge e carries a source row number g e and a destination row number s e (integers, as the programs read their index
columns). The neighbour sum of destination p adds, over the edges whose destination is p, the source's feature row (the
row number clamped into the table, as a row gather clamps it); the neighbour count adds a one per such edge. Both start
from the float word of zero, as a scatter-add into a zero array does. -/

/-- msg[p, k] = 0 + Σ_{e : s e = p} x[clamp (g e), k]. -/
def msgArr {Ns Nd E Fi : Nat} (hNs : 0 < Ns) (x : (⟨2, ![Ns, Fi]⟩ : Shape).Idx → EReal) (g s : Fin E → Int) :
    (⟨2, ![Nd, Fi]⟩ : Shape).Idx → EReal :=
  fun i => ZERO + ∑ e ∈ Finset.univ.filter (fun e : Fin E => s e = ((i 0).val : Int)),
    x (ix2 ⟨min (g e).toNat (Ns - 1), by omega⟩ ⟨(i 1).val, idx2_lt1 i⟩)

/-- deg[p] = 0 + Σ_{e : s e = p} 1. -/
def degArr {Nd E : Nat} (s : Fin E → Int) : (⟨2, ![Nd, 1]⟩ : Shape).Idx → EReal :=
  fun i => ZERO + ∑ _e ∈ Finset.univ.filter (fun e : Fin E => s e = ((i 0).val : Int)), ONE

/-- The destination nodes are the first Nd source nodes: their own rows are the head of the table. -/
def headRows {Ns Nd Fi : Nat} (hle : Nd ≤ Ns) (x : (⟨2, ![Ns, Fi]⟩ : Shape).Idx → EReal) :
    (⟨2, ![Nd, Fi]⟩ : Shape).Idx → EReal :=
  fun i => x (ix2 ⟨(i 0).val, lt_of_lt_of_le (idx2_lt0 i) hle⟩ ⟨(i 1).val, idx2_lt1 i⟩)

/-- One layer: the dense stage of the head rows, the neighbour sums and the neighbour counts. -/
def layer (relu : Bool) {Ns Nd E Fi Fo : Nat} (hle : Nd ≤ Ns) (hNs : 0 < Ns)
    (x : (⟨2, ![Ns, Fi]⟩ : Shape).Idx → EReal) (g s : Fin E → Int)
    (ws wn : (⟨2, ![Fi, Fo]⟩ : Shape).Idx → EReal) (b : (⟨1, ![Fo]⟩ : Shape).Idx → EReal) :
    (⟨2, ![Nd, Fo]⟩ : Shape).Idx → EReal :=
  dense relu (headRows hle x) (msgArr hNs x g s) (degArr s) ws wn b

end Cert.Sage

end
-- ==== Proof.Net.lean ====
/-
  The whole network: three neighbourhood-mean layers composed.

  Layer l gathers source rows by the wrapped source row numbers of its edge list, adds them into the destination rows
  the edge list names, and applies the dense stage; the first two layers are rectified. The destination nodes of a
  layer are the first rows of its input. The result is the [1024, 47] array of the last layer.
-/
import proofs.«181663_j61572651155594_2_alg».proof.Proof.Spec

noncomputable section

namespace Cert.Sage

open Idealize.ShloMosaic Idealize.ShloMosaic.ValueIdx

/-- The network's result as one function of the sixteen argument arrays. -/
def net (x0 : (⟨2, ![700000, 128]⟩ : Shape).Idx → EReal)
    (s0 d0 : (⟨1, ![768000]⟩ : Shape).Idx → BitVec 32) (s1 d1 : (⟨1, ![51200]⟩ : Shape).Idx → BitVec 32)
    (s2 d2 : (⟨1, ![5120]⟩ : Shape).Idx → BitVec 32)
    (ws0 wn0 : (⟨2, ![128, 256]⟩ : Shape).Idx → EReal) (b0 : (⟨1, ![256]⟩ : Shape).Idx → EReal)
    (ws1 wn1 : (⟨2, ![256, 256]⟩ : Shape).Idx → EReal) (b1 : (⟨1, ![256]⟩ : Shape).Idx → EReal)
    (ws2 wn2 : (⟨2, ![256, 47]⟩ : Shape).Idx → EReal) (b2 : (⟨1, ![47]⟩ : Shape).Idx → EReal) :
    (⟨2, ![1024, 47]⟩ : Shape).Idx → EReal :=
  layer false (Ns := 5120) (Nd := 1024) (by omega) (by omega)
    (layer true (Ns := 51200) (Nd := 5120) (by omega) (by omega)
      (layer true (Ns := 700000) (Nd := 51200) (by omega) (by omega) x0
        (fun e : Fin 768000 => (wrapRow 700000#32 (s0 (ix1 e))).toInt) (fun e : Fin 768000 => (d0 (ix1 e)).toInt) ws0 wn0 b0)
      (fun e : Fin 51200 => (wrapRow 51200#32 (s1 (ix1 e))).toInt) (fun e : Fin 51200 => (d1 (ix1 e)).toInt) ws1 wn1 b1)
    (fun e : Fin 5120 => (wrapRow 5120#32 (s2 (ix1 e))).toInt) (fun e : Fin 5120 => (d2 (ix1 e)).toInt) ws2 wn2 b2

end Cert.Sage

end
-- ==== Proof.KernelRun.lean ====
/-
  The kernel program's run with its result named.

  The program is three kernel regions among stretches of host operations. Every weakly fair execution from a memory
  with zero counters terminates without a fault; at the end the result array holds what the fold of the program's
  segments over the launch memory leaves in it (the contents after the last region, `W6`), and every argument array is
  as launched. The segments, the thread states between them and the launch are those of the frame certificate; only the
  final reading differs: it keeps the result buffer's contents beside the arguments'.
-/
import proofs.«181663_j61572651155594_2_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result buffer at the last boundary's contents, the arguments as launched. -/
theorem run_result : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.RunResult

end
-- ==== Proof.LibSegmentSum.lean ====
/-
  A segment sum read at an index.

  jax's segment_sum of rows (a scatter-add of an array of E rows of width C into an array of N rows, row e going to the
  row that the e-th entry of an integer index column names) is, on the extended reals, the exact sum: entry (n, c) of
  the result is entry (n, c) of the array scattered into, plus the sum over the rows e whose index, read as a signed
  integer, is n, of entry (e, c) of the updates. A row whose index is negative or at least N contributes nothing.
  The lemmas below read the scatter's dimension numbers (window axis 1 of the updates onto axis 1 of the operand,
  axis 0 of the operand inserted and addressed by the one component of the index vector) down to that statement.
-/
import Idealize.ShloMosaic.PureOps.Ideal
import Idealize.ShloMosaic.Lib.ValueIdx

noncomputable section

namespace Cert.Lib.SegmentSum

open Idealize.ShloMosaic Idealize.ShloMosaic.ValueIdx

/-- The dimension numbers of a row scatter: operand [N, C], scatter indices [E, 1], updates [E, C]. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update (e, c') starts at the e-th index read signed. -/
theorem start_row (e : Fin E) (c' : Fin C) (idx : IVec ⟨2, ![E, 1]⟩ w) :
    (rowDims N E C wf).start (ix2 e c') idx 0 = (idx (ix2 e (0 : Fin 1))).toInt := by
  unfold ScatterDims.start
  rw [dif_pos (show (0 : Fin 2) ∈ (rowDims N E C wf).scatterDimsToOperandDims from List.mem_singleton.mpr rfl)]
  congr 2
  funext b; refine Fin.ext ?_
  match b with
  | ⟨0, _⟩ => rfl
  | ⟨1, _⟩ => rfl

/-- On the column axis the window starts at zero. -/
theorem start_col (e : Fin E) (c' : Fin C) (idx : IVec ⟨2, ![E, 1]⟩ w) :
    (rowDims N E C wf).start (ix2 e c') idx 1 = 0 := by
  unfold ScatterDims.start
  rw [dif_neg (show ¬ (1 : Fin 2) ∈ (rowDims N E C wf).scatterDimsToOperandDims by
    show (1 : Fin 2) ∉ ([0] : List (Fin 2)); decide)]

/-- The row axis is inserted: no window coordinate there. -/
theorem window_row (e : Fin E) (c' : Fin C) : (rowDims N E C wf).window (ix2 e c') 0 = 0 := by
  unfold ScatterDims.window
  rw [dif_neg (show ¬ (0 : Fin 2) ∈ (rowDims N E C wf).sKept by
    show (0 : Fin 2) ∉ (List.finRange 2).filter (fun a => a ∉ ([0] : List (Fin 2))); decide)]

/-- The column axis carries the update's column. -/
theorem window_col (e : Fin E) (c' : Fin C) : (rowDims N E C wf).window (ix2 e c') 1 = c'.val := by
  unfold ScatterDims.window
  rw [dif_pos (show (1 : Fin 2) ∈ (rowDims N E C wf).sKept by
    show (1 : Fin 2) ∈ (List.finRange 2).filter (fun a => a ∉ ([0] : List (Fin 2))); decide)]
  rfl

/-- WHERE AN UPDATE LANDS: update (e, c') lands on entry (n, c) exactly when the e-th index, read signed, is n
    and c' is c. -/
theorem resultIdx?_eq_some_iff (e : Fin E) (c' : Fin C) (idx : IVec ⟨2, ![E, 1]⟩ w) (n : Fin N) (c : Fin C) :
    (rowDims N E C wf).resultIdx? (ix2 e c') idx = some (ix2 n c)
      ↔ (idx (ix2 e (0 : Fin 1))).toInt = (n.val : Int) ∧ c' = c := by
  unfold ScatterDims.resultIdx?
  have hc := c'.isLt
  have hnlt := n.isLt
  constructor
  · intro h
    split at h
    · rename_i hall
      have h' := Option.some.inj h
      have h0 : ((rowDims N E C wf).start (ix2 e c') idx 0 + ((rowDims N E C wf).window (ix2 e c') 0 : Int)).toNat = n.val :=
        congrArg (fun f => (f 0).val) h'
      have h1 : ((rowDims N E C wf).start (ix2 e c') idx 1 + ((rowDims N E C wf).window (ix2 e c') 1 : Int)).toNat = c.val :=
        congrArg (fun f => (f 1).val) h'
      have hr : 0 ≤ (rowDims N E C wf).start (ix2 e c') idx 0 + ((rowDims N E C wf).window (ix2 e c') 0 : Int) := (hall 0).1
      rw [start_row, window_row] at h0 hr
      rw [start_col, window_col] at h1
      exact ⟨by omega, Fin.ext (by omega)⟩
    · exact absurd h (by simp)
  · rintro ⟨hn, rfl⟩
    have h0 : 0 ≤ (rowDims N E C wf).start (ix2 e c') idx 0 + ((rowDims N E C wf).window (ix2 e c') 0 : Int) ∧
        (rowDims N E C wf).start (ix2 e c') idx 0 + ((rowDims N E C wf).window (ix2 e c') 0 : Int) < (N : Int) := by
      rw [start_row, window_row, hn]; constructor <;> omega
    have h1 : 0 ≤ (rowDims N E C wf).start (ix2 e c') idx 1 + ((rowDims N E C wf).window (ix2 e c') 1 : Int) ∧
        (rowDims N E C wf).start (ix2 e c') idx 1 + ((rowDims N E C wf).window (ix2 e c') 1 : Int) < (C : Int) := by
      rw [start_col, window_col]; constructor <;> omega
    have hall : ∀ a, 0 ≤ (rowDims N E C wf).start (ix2 e c') idx a + (rowDims N E C wf).window (ix2 e c') a ∧
        (rowDims N E C wf).start (ix2 e c') idx a + (rowDims N E C wf).window (ix2 e c') a < (⟨2, ![N, C]⟩ : Shape).size a :=
      fun a => match a with
        | ⟨0, _⟩ => h0
        | ⟨1, _⟩ => h1
    rw [dif_pos hall]
    congr 1
    funext a; refine Fin.ext ?_
    match a with
    | ⟨0, _⟩ =>
      show ((rowDims N E C wf).start (ix2 e c') idx 0 + ((rowDims N E C wf).window (ix2 e c') 0 : Int)).toNat = n.val
      rw [start_row, window_row, hn]; omega
    | ⟨1, _⟩ =>
      show ((rowDims N E C wf).start (ix2 e c') idx 1 + ((rowDims N E C wf).window (ix2 e c') 1 : Int)).toNat = c'.val
      rw [start_col, window_col]; omega

/-- THE SEGMENT SUM READ AT (n, c): the entry scattered into, plus the updates' column c summed over the rows whose
    index is n. -/
theorem scatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  refine Finset.sum_bij' (fun j _ => (⟨(j 0).val, idx2_lt0 j⟩ : Fin E)) (fun e _ => ix2 e c) ?_ ?_ ?_ ?_ ?_
  · intro j hj
    obtain ⟨e, c', rfl⟩ : ∃ (e : Fin E) (c' : Fin C), j = ix2 e c' := ⟨⟨(j 0).val, idx2_lt0 j⟩, ⟨(j 1).val, idx2_lt1 j⟩, eq_ix2 j⟩
    exact Finset.mem_filter.mpr ⟨Finset.mem_univ _, ((resultIdx?_eq_some_iff wf e c' idx n c).mp (Finset.mem_filter.mp hj).2).1⟩
  · intro e he
    exact Finset.mem_filter.mpr ⟨Finset.mem_univ _,
      (resultIdx?_eq_some_iff wf e c idx n c).mpr ⟨(Finset.mem_filter.mp he).2, rfl⟩⟩
  · intro j hj
    obtain ⟨e, c', rfl⟩ : ∃ (e : Fin E) (c' : Fin C), j = ix2 e c' := ⟨⟨(j 0).val, idx2_lt0 j⟩, ⟨(j 1).val, idx2_lt1 j⟩, eq_ix2 j⟩
    obtain rfl := ((resultIdx?_eq_some_iff wf e c' idx n c).mp (Finset.mem_filter.mp hj).2).2
    rfl
  · intro e _
    rfl
  · intro j hj
    obtain ⟨e, c', rfl⟩ : ∃ (e : Fin E) (c' : Fin C), j = ix2 e c' := ⟨⟨(j 0).val, idx2_lt0 j⟩, ⟨(j 1).val, idx2_lt1 j⟩, eq_ix2 j⟩
    obtain rfl := ((resultIdx?_eq_some_iff wf e c' idx n c).mp (Finset.mem_filter.mp hj).2).2
    rfl

/-! ## The rank-1 form: a segment sum of numbers

The scatter-add of a vector of E numbers into a vector of N numbers, entry e going to the place the e-th index names
(jax's segment_sum of a vector: node degrees, group sizes). The updates have no window axis. -/

/-- The dimension numbers of a scatter of numbers: operand [N], scatter indices [E, 1], updates [E]. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec

variable {N E w : Nat} (wf1 : ScatterDims.WF ⟨1, ![N]⟩ ⟨2, ![E, 1]⟩ ⟨1, ![E]⟩ [] [0] [0] 1)

/-- The window of update e starts at the e-th index read signed. -/
theorem vstart (e : Fin E) (idx : IVec ⟨2, ![E, 1]⟩ w) :
    (vecDims N E wf1).start (ix1 e) idx 0 = (idx (ix2 e (0 : Fin 1))).toInt := by
  unfold ScatterDims.start
  rw [dif_pos (show (0 : Fin 1) ∈ (vecDims N E wf1).scatterDimsToOperandDims from List.mem_singleton.mpr rfl)]
  congr 2
  funext b; refine Fin.ext ?_
  match b with
  | ⟨0, _⟩ => rfl
  | ⟨1, _⟩ => rfl

/-- The one operand axis is inserted: no window coordinate. -/
theorem vwindow (e : Fin E) : (vecDims N E wf1).window (ix1 e) 0 = 0 := by
  unfold ScatterDims.window
  rw [dif_neg (show ¬ (0 : Fin 1) ∈ (vecDims N E wf1).sKept by
    show (0 : Fin 1) ∉ (List.finRange 1).filter (fun a => a ∉ ([0] : List (Fin 1))); decide)]

/-- Update e lands on entry n exactly when the e-th index, read signed, is n. -/
theorem vresultIdx?_eq_some_iff (e : Fin E) (idx : IVec ⟨2, ![E, 1]⟩ w) (n : Fin N) :
    (vecDims N E wf1).resultIdx? (ix1 e) idx = some (ix1 n) ↔ (idx (ix2 e (0 : Fin 1))).toInt = (n.val : Int) := by
  unfold ScatterDims.resultIdx?
  have hnlt := n.isLt
  constructor
  · intro h
    split at h
    · rename_i hall
      have h' := Option.some.inj h
      have h0 : ((vecDims N E wf1).start (ix1 e) idx 0 + ((vecDims N E wf1).window (ix1 e) 0 : Int)).toNat = n.val :=
        congrArg (fun f => (f 0).val) h'
      have hr : 0 ≤ (vecDims N E wf1).start (ix1 e) idx 0 + ((vecDims N E wf1).window (ix1 e) 0 : Int) := (hall 0).1
      rw [vstart, vwindow] at h0 hr
      omega
    · exact absurd h (by simp)
  · intro hn
    have h0 : 0 ≤ (vecDims N E wf1).start (ix1 e) idx 0 + ((vecDims N E wf1).window (ix1 e) 0 : Int) ∧
        (vecDims N E wf1).start (ix1 e) idx 0 + ((vecDims N E wf1).window (ix1 e) 0 : Int) < (N : Int) := by
      rw [vstart, vwindow, hn]; constructor <;> omega
    have hall : ∀ a, 0 ≤ (vecDims N E wf1).start (ix1 e) idx a + (vecDims N E wf1).window (ix1 e) a ∧
        (vecDims N E wf1).start (ix1 e) idx a + (vecDims N E wf1).window (ix1 e) a < (⟨1, ![N]⟩ : Shape).size a :=
      fun a => match a with
        | ⟨0, _⟩ => h0
    rw [dif_pos hall]
    congr 1
    funext a; refine Fin.ext ?_
    match a with
    | ⟨0, _⟩ =>
      show ((vecDims N E wf1).start (ix1 e) idx 0 + ((vecDims N E wf1).window (ix1 e) 0 : Int)).toNat = n.val
      rw [vstart, vwindow, hn]; omega

/-- THE SEGMENT SUM OF NUMBERS READ AT n: the entry scattered into, plus the updates summed over the places whose
    index is n. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf1) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  refine Finset.sum_bij' (fun j _ => (⟨(j 0).val, (j 0).isLt⟩ : Fin E)) (fun e _ => ix1 e) ?_ ?_ ?_ ?_ ?_
  · intro j hj
    obtain ⟨e, rfl⟩ : ∃ e : Fin E, j = ix1 e := ⟨⟨(j 0).val, (j 0).isLt⟩, eq_ix1 j⟩
    exact Finset.mem_filter.mpr ⟨Finset.mem_univ _, (vresultIdx?_eq_some_iff wf1 e idx n).mp (Finset.mem_filter.mp hj).2⟩
  · intro e he
    exact Finset.mem_filter.mpr ⟨Finset.mem_univ _, (vresultIdx?_eq_some_iff wf1 e idx n).mpr (Finset.mem_filter.mp he).2⟩
  · intro j _
    obtain ⟨e, rfl⟩ : ∃ e : Fin E, j = ix1 e := ⟨⟨(j 0).val, (j 0).isLt⟩, eq_ix1 j⟩
    rfl
  · intro e _
    rfl
  · intro j _
    obtain ⟨e, rfl⟩ : ∃ e : Fin E, j = ix1 e := ⟨⟨(j 0).val, (j 0).isLt⟩, eq_ix1 j⟩
    rfl

end Vec

end Cert.Lib.SegmentSum

end
-- ==== Proof.LibGatherRows.lean ====
/-
  A gather of rows read at an index.

  Indexing an array of N rows of width C with an integer column of E row numbers (jax's x[idx], a stablehlo.gather
  along axis 0 with whole-row slices) gives an array of E rows: row e is row idx[e] of x, the row number read as a
  signed integer and clamped into [0, N - 1], as StableHLO clamps every start index so that the slice fits. The lemma
  reads the gather's dimension numbers (offset axis 1, axis 0 collapsed and addressed by the one component of the
  index vector, slices of one row) down to that statement.
-/
import Idealize.ShloMosaic.PureOps.ShapeOps
import Idealize.ShloMosaic.Lib.ValueIdx

noncomputable section

namespace Cert.Lib.GatherRows

open Idealize.ShloMosaic Idealize.ShloMosaic.ValueIdx

/-- The dimension numbers of a gather of rows: operand [N, C], start indices [E, 1], result [E, C]. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable {α : Type} {N E C w : Nat}
  (wf : GatherDims.WF ⟨2, ![N, C]⟩ ⟨2, ![E, 1]⟩ ⟨2, ![E, C]⟩ [1] [0] [] [0] [] 1 ![1, C])

/-- THE GATHER READ AT (e, c): the operand at the row the e-th index names (read signed, clamped into [0, N - 1])
    and at column c. -/
theorem gather_rows_apply (hN : 0 < N) (x : (⟨2, ![N, C]⟩ : Shape).Idx → α) (idx : IVec ⟨2, ![E, 1]⟩ w)
    (e : Fin E) (c : Fin C) :
    Host.gather (rowsDims N E C wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowsDims N E C wf).start (ix2 e c) idx 0 + (rowsDims N E C wf).batchCoord (ix2 e c) 0
      + (rowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e c) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e c) idx 1 + (rowsDims N E C wf).batchCoord (ix2 e c) 1
      + (rowsDims N E C wf).offCoord (ix2 e c) 1 = c.val
    rw [GatherDims.batchCoord_eq_zero _ _ _ List.not_mem_nil]
    have hs : (rowsDims N E C wf).start (ix2 e c) idx 1 = 0 := by
      unfold GatherDims.start
      rw [dif_neg (show ¬ (1 : Fin 2) ∈ (rowsDims N E C wf).startIndexMap by
        show (1 : Fin 2) ∉ ([0] : List (Fin 2)); decide)]
    have ho : (rowsDims N E C wf).offCoord (ix2 e c) 1 = c.val := by
      unfold GatherDims.offCoord
      rw [dif_pos (show (1 : Fin 2) ∈ (rowsDims N E C wf).sKept by
        show (1 : Fin 2) ∈ (List.finRange 2).filter (fun a => a ∉ (([0] : List (Fin 2)) ++ [])); decide)]
      rfl
    rw [hs, ho]; omega

end Cert.Lib.GatherRows

end
-- ==== Proof.AggValue.lean ====
/-
  The neighbour sums and neighbour counts as one scatter-add, read entry by entry.

  The rows x[g e] of a table of Ns rows are gathered for every edge e, a column of ones is appended on the right, and the
  E rows of width F + 1 are scatter-added into a zero array of Nd rows at the rows s e. Columns [0, F) of the result are
  the neighbour sums: entry (p, k) is zero plus the sum, over the edges e with s e = p, of x[clamp (g e), k]. Column F
  is the neighbour count: zero plus a one for each such edge. The number zero and the number one stay the float words
  the constants carry. The last part reads the index columns: a row number v is replaced by v + n when it is negative.
-/
import proofs.«181663_j61572651155594_2_alg».proof.Proof.Spec
import proofs.«181663_j61572651155594_2_alg».proof.KernelIdeal
import proofs.«181663_j61572651155594_2_alg».proof.Proof.LibSegmentSum
import proofs.«181663_j61572651155594_2_alg».proof.Proof.LibGatherRows
import Idealize.ShloMosaic.Lib.Pipeline.Value
import Idealize.ShloMosaic.Lib.ValueLayout

noncomputable section

namespace Cert.Sage.Agg

open Cert.KernelIdeal Cert.Sage Idealize.ShloMosaic Idealize.ShloMosaic.ValueIdx
open Cert.Lib.SegmentSum Cert.Lib.GatherRows

/-! ## The generic statements, over the extents -/

section Generic

variable {Ns Nd E F F1 : Nat}

/-- THE NEIGHBOUR SUMS: columns [0, F) of the scatter-add of the gathered rows with a ones column appended. -/
theorem agg_msg (hNs : 0 < Ns) (hF1 : F1 = F + 1)
    (wfG : GatherDims.WF ⟨2, ![Ns, F]⟩ ⟨2, ![E, 1]⟩ ⟨2, ![E, F]⟩ [1] [0] [] [0] [] 1 ![1, F])
    (wfS : ScatterDims.WF ⟨2, ![Nd, F1]⟩ ⟨2, ![E, 1]⟩ ⟨2, ![E, F1]⟩ [1] [0] [0] 1)
    (dG : GatherDims ⟨2, ![Ns, F]⟩ ⟨2, ![E, 1]⟩ ⟨2, ![E, F]⟩) (hG : dG = rowsDims Ns E F wfG)
    (dS : ScatterDims ⟨2, ![Nd, F1]⟩ ⟨2, ![E, 1]⟩ ⟨2, ![E, F1]⟩) (hS : dS = rowDims Nd E F1 wfS)
    (hb0 : (⟨0, ![]⟩ : Shape).BroadcastsInDim ⟨2, ![Nd, F1]⟩ ![])
    (hb1 : (⟨0, ![]⟩ : Shape).BroadcastsInDim ⟨2, ![E, 1]⟩ ![])
    (hcat : Shape.Concatenates [⟨2, ![E, F]⟩, ⟨2, ![E, 1]⟩] ⟨2, ![E, F1]⟩ 1)
    (hsl : (⟨2, ![Nd, F1]⟩ : Shape).Slices ![0, 0] ⟨2, ![Nd, F]⟩)
    (x : FVec Ideal ⟨2, ![Ns, F]⟩ .f32) (G S : IVec ⟨2, ![E, 1]⟩ 32) :
    extractStridedSlice ⟨2, ![Nd, F]⟩ ![0, 0]
        (Host.scatterAdd dS (broadcastInDim ⟨2, ![Nd, F1]⟩ ![] hb0 (constant (F := Ideal) ⟨0, ![]⟩ .f32 0x00000000#32)) S
          (concatenate ⟨2, ![E, F1]⟩ 1 [⟨⟨2, ![E, F]⟩, Host.gather dG x G⟩,
            ⟨⟨2, ![E, 1]⟩, broadcastInDim ⟨2, ![E, 1]⟩ ![] hb1 (constant (F := Ideal) ⟨0, ![]⟩ .f32 0x3F800000#32)⟩] hcat)) hsl
      = msgArr (Ns := Ns) (Nd := Nd) hNs x (fun e : Fin E => (G (ix2 e (0 : Fin 1))).toInt)
          (fun e : Fin E => (S (ix2 e (0 : Fin 1))).toInt) := by
  subst hF1 hG hS
  funext i
  obtain ⟨n, c, rfl⟩ : ∃ (n : Fin Nd) (c : Fin F), i = ix2 n c :=
    ⟨⟨(i 0).val, idx2_lt0 i⟩, ⟨(i 1).val, idx2_lt1 i⟩, eq_ix2 i⟩
  have hc : c.val < F + 1 := by have := c.isLt; omega
  -- the slice reads the scatter-add at (n, c)
  refine (extractStridedSlice_apply ![0, 0] _ hsl (ix2 n c) (ix2 n (⟨c.val, hc⟩ : Fin (F + 1))) ?_).trans ?_
  · intro a
    match a with
    | ⟨0, _⟩ => show n.val = 0 + n.val; omega
    | ⟨1, _⟩ => show c.val = 0 + c.val; omega
  -- the scatter-add there is the zero entry plus the sum over the edges whose destination is n
  refine (scatterAdd_apply wfS _ S _ n (⟨c.val, hc⟩ : Fin (F + 1))).trans ?_
  show ZERO + _ = ZERO + _
  congr 1
  refine Finset.sum_congr rfl (fun e _ => ?_)
  -- column c < F of the appended array is the gathered row's column c
  refine (concatenate_pair_apply_left 1 _ _ hcat (ix2 e (⟨c.val, hc⟩ : Fin (F + 1))) rfl (ix2 e c) ?_).trans ?_
  · intro b
    match b with
    | ⟨0, _⟩ => rfl
    | ⟨1, _⟩ => rfl
  exact gather_rows_apply wfG hNs x G e c

/-- THE NEIGHBOUR COUNTS: column F of the same scatter-add. -/
theorem agg_deg {Ns' : Nat} (hF1 : F1 = F + 1)
    (wfS : ScatterDims.WF ⟨2, ![Nd, F1]⟩ ⟨2, ![E, 1]⟩ ⟨2, ![E, F1]⟩ [1] [0] [0] 1)
    (dG : GatherDims ⟨2, ![Ns', F]⟩ ⟨2, ![E, 1]⟩ ⟨2, ![E, F]⟩)
    (dS : ScatterDims ⟨2, ![Nd, F1]⟩ ⟨2, ![E, 1]⟩ ⟨2, ![E, F1]⟩) (hS : dS = rowDims Nd E F1 wfS)
    (hb0 : (⟨0, ![]⟩ : Shape).BroadcastsInDim ⟨2, ![Nd, F1]⟩ ![])
    (hb1 : (⟨0, ![]⟩ : Shape).BroadcastsInDim ⟨2, ![E, 1]⟩ ![])
    (hcat : Shape.Concatenates [⟨2, ![E, F]⟩, ⟨2, ![E, 1]⟩] ⟨2, ![E, F1]⟩ 1)
    (hsl : (⟨2, ![Nd, F1]⟩ : Shape).Slices ![0, F] ⟨2, ![Nd, 1]⟩)
    (x : FVec Ideal ⟨2, ![Ns', F]⟩ .f32) (G S : IVec ⟨2, ![E, 1]⟩ 32) :
    extractStridedSlice ⟨2, ![Nd, 1]⟩ ![0, F]
        (Host.scatterAdd dS (broadcastInDim ⟨2, ![Nd, F1]⟩ ![] hb0 (constant (F := Ideal) ⟨0, ![]⟩ .f32 0x00000000#32)) S
          (concatenate ⟨2, ![E, F1]⟩ 1 [⟨⟨2, ![E, F]⟩, Host.gather dG x G⟩,
            ⟨⟨2, ![E, 1]⟩, broadcastInDim ⟨2, ![E, 1]⟩ ![] hb1 (constant (F := Ideal) ⟨0, ![]⟩ .f32 0x3F800000#32)⟩] hcat)) hsl
      = degArr (Nd := Nd) (fun e : Fin E => (S (ix2 e (0 : Fin 1))).toInt) := by
  subst hF1 hS
  funext i
  obtain ⟨n, z, rfl⟩ : ∃ (n : Fin Nd) (z : Fin 1), i = ix2 n z :=
    ⟨⟨(i 0).val, idx2_lt0 i⟩, ⟨(i 1).val, idx2_lt1 i⟩, eq_ix2 i⟩
  have hz : z.val = 0 := by have := z.isLt; omega
  -- the slice reads the scatter-add at (n, F)
  refine (extractStridedSlice_apply ![0, F] _ hsl (ix2 n z) (ix2 n (⟨F, Nat.lt_succ_self F⟩ : Fin (F + 1))) ?_).trans ?_
  · intro a
    match a with
    | ⟨0, _⟩ => show n.val = 0 + n.val; omega
    | ⟨1, _⟩ => show F = F + z.val; omega
  -- the scatter-add there is the zero entry plus the sum over the edges whose destination is n
  refine (scatterAdd_apply wfS _ S _ n (⟨F, Nat.lt_succ_self F⟩ : Fin (F + 1))).trans ?_
  show ZERO + _ = ZERO + _
  congr 1
  refine Finset.sum_congr rfl (fun e _ => ?_)
  -- column F of the appended array is the ones column
  refine (concatenate_pair_apply_right 1 _ _ hcat (ix2 e (⟨F, Nat.lt_succ_self F⟩ : Fin (F + 1))) rfl rfl
    (ix2 e (0 : Fin 1)) ?_ ?_).trans ?_
  · intro b hb
    match b with
    | ⟨0, _⟩ => rfl
    | ⟨1, _⟩ => exact absurd rfl hb
  · show 0 + F = F; omega
  rfl

/-- AN INDEX COLUMN: the row numbers, the negative ones counted from the end of a table of nn rows, as a column. -/
theorem idx_wrap {E : Nat} (hb : (⟨1, ![E]⟩ : Shape).BroadcastsInDim ⟨2, ![E, 1]⟩ ![0])
    (hb0 : (⟨0, ![]⟩ : Shape).BroadcastsInDim ⟨1, ![E]⟩ ![]) (nn : BitVec 32) (s : IVec ⟨1, ![E]⟩ 32) (e : Fin E) :
    broadcastInDim ⟨2, ![E, 1]⟩ ![0] hb
        (select (cmpi .slt s (broadcastInDim ⟨1, ![E]⟩ ![] hb0 (constantI ⟨0, ![]⟩ 32 0#32)))
          (addi s (broadcastInDim ⟨1, ![E]⟩ ![] hb0 (constantI ⟨0, ![]⟩ 32 nn))) s) (ix2 e (0 : Fin 1))
      = wrapRow nn (s (ix1 e)) := by
  refine (broadcastInDim_apply ![0] hb _ (ix2 e (0 : Fin 1)) (ix1 e) ?_).trans ?_
  · intro a
    match a with
    | ⟨0, _⟩ =>
      show e.val = if E = 1 then 0 else e.val
      split
      · have := e.isLt; omega
      · rfl
  rfl

end Generic

/-- A row number that is not negative is kept. -/
theorem wrap_of_nonneg (n v : BitVec 32) (hv : 0 ≤ v.toInt) : wrapRow n v = v := by
  have h : v.slt 0#32 = false := by
    unfold BitVec.slt
    rw [BitVec.toInt_zero]
    exact decide_eq_false (by omega)
  unfold wrapRow Scalar.select IntOp.cmpi
  show (if BitVec.ofBool (v.slt 0#32) = 1 then IntOp.addi v n else v) = v
  rw [h]
  exact if_neg (by decide)

/-! ## The three layers of the printed program -/

variable [Facts₀]
open Facts₀

/-- Layer 0 (768000 edges, 700000 source rows of width 128, 51200 destination rows): the neighbour sums. -/
theorem agg0_msg (x : FVec Ideal S700000x128 .f32) (G S : IVec S768000x1 32) :
    extractStridedSlice S51200x128 ![0, 0] (Host.scatterAdd scatter_S51200x129_S768000x1_S768000x129_1_0_0_1 (broadcastInDim S51200x129 ![] bcast_S_S51200x129 (constant (F := Ideal) S_ .f32 0x00000000#32)) S (concatenate S768000x129 1 [⟨S768000x128, Host.gather gather_S700000x128_S768000x1_S768000x128_1_0_n_n_0_1_1128 x G⟩, ⟨S768000x1, broadcastInDim S768000x1 ![] bcast_S_S768000x1 (constant (F := Ideal) S_ .f32 0x3F800000#32)⟩] concatenates_S768000x128_S768000x1_S768000x129_d1)) slices_S51200x129_S51200x128_0_0
      = msgArr (Ns := 700000) (Nd := 51200) (by omega) x (fun e : Fin 768000 => (G (ix2 e (0 : Fin 1))).toInt) (fun e : Fin 768000 => (S (ix2 e (0 : Fin 1))).toInt) :=
  agg_msg (F1 := 129) (by omega) rfl Facts₀.gather_S700000x128_S768000x1_S768000x128_1_0_n_n_0_1_1128_wf
    Facts₀.scatter_S51200x129_S768000x1_S768000x129_1_0_0_1_wf _ rfl _ rfl _ _ _ _ x G S

/-- Layer 0 (768000 edges, 700000 source rows of width 128, 51200 destination rows): the neighbour counts. -/
theorem agg0_deg (x : FVec Ideal S700000x128 .f32) (G S : IVec S768000x1 32) :
    extractStridedSlice S51200x1 ![0, 128] (Host.scatterAdd scatter_S51200x129_S768000x1_S768000x129_1_0_0_1 (broadcastInDim S51200x129 ![] bcast_S_S51200x129 (constant (F := Ideal) S_ .f32 0x00000000#32)) S (concatenate S768000x129 1 [⟨S768000x128, Host.gather gather_S700000x128_S768000x1_S768000x128_1_0_n_n_0_1_1128 x G⟩, ⟨S768000x1, broadcastInDim S768000x1 ![] bcast_S_S768000x1 (constant (F := Ideal) S_ .f32 0x3F800000#32)⟩] concatenates_S768000x128_S768000x1_S768000x129_d1)) slices_S51200x129_S51200x1_0_128
      = degArr (Nd := 51200) (fun e : Fin 768000 => (S (ix2 e (0 : Fin 1))).toInt) :=
  agg_deg (F := 128) (F1 := 129) rfl Facts₀.scatter_S51200x129_S768000x1_S768000x129_1_0_0_1_wf _ _ rfl _ _ _ _ x G S

/-- Layer 0 (768000 edges, 700000 source rows of width 128, 51200 destination rows): the source index column. -/
theorem idx0_src (s : IVec S768000 32) (e : Fin 768000) : broadcastInDim S768000x1 ![0] bcast_S768000_S768000x1_0 (select (cmpi .slt s (broadcastInDim S768000 ![] bcast_S_S768000 (constantI S_ 32 0#32))) (addi s (broadcastInDim S768000 ![] bcast_S_S768000 (constantI S_ 32 700000#32))) s) (ix2 e (0 : Fin 1)) = wrapRow 700000#32 (s (ix1 e)) :=
  idx_wrap _ _ _ s e

/-- Layer 0 (768000 edges, 700000 source rows of width 128, 51200 destination rows): the destination index column. -/
theorem idx0_dst (d : IVec S768000 32) (e : Fin 768000) : broadcastInDim S768000x1 ![0] bcast_S768000_S768000x1_0 (select (cmpi .slt d (broadcastInDim S768000 ![] bcast_S_S768000 (constantI S_ 32 0#32))) (addi d (broadcastInDim S768000 ![] bcast_S_S768000 (constantI S_ 32 51200#32))) d) (ix2 e (0 : Fin 1)) = wrapRow 51200#32 (d (ix1 e)) :=
  idx_wrap _ _ _ d e

/-- Layer 1 (51200 edges, 51200 source rows of width 256, 5120 destination rows): the neighbour sums. -/
theorem agg1_msg (x : FVec Ideal S51200x256 .f32) (G S : IVec S51200x1 32) :
    extractStridedSlice S5120x256 ![0, 0] (Host.scatterAdd scatter_S5120x257_S51200x1_S51200x257_1_0_0_1 (broadcastInDim S5120x257 ![] bcast_S_S5120x257 (constant (F := Ideal) S_ .f32 0x00000000#32)) S (concatenate S51200x257 1 [⟨S51200x256, Host.gather gather_S51200x256_S51200x1_S51200x256_1_0_n_n_0_1_1256 x G⟩, ⟨S51200x1, broadcastInDim S51200x1 ![] bcast_S_S51200x1 (constant (F := Ideal) S_ .f32 0x3F800000#32)⟩] concatenates_S51200x256_S51200x1_S51200x257_d1)) slices_S5120x257_S5120x256_0_0
      = msgArr (Ns := 51200) (Nd := 5120) (by omega) x (fun e : Fin 51200 => (G (ix2 e (0 : Fin 1))).toInt) (fun e : Fin 51200 => (S (ix2 e (0 : Fin 1))).toInt) :=
  agg_msg (F1 := 257) (by omega) rfl Facts₀.gather_S51200x256_S51200x1_S51200x256_1_0_n_n_0_1_1256_wf
    Facts₀.scatter_S5120x257_S51200x1_S51200x257_1_0_0_1_wf _ rfl _ rfl _ _ _ _ x G S

/-- Layer 1 (51200 edges, 51200 source rows of width 256, 5120 destination rows): the neighbour counts. -/
theorem agg1_deg (x : FVec Ideal S51200x256 .f32) (G S : IVec S51200x1 32) :
    extractStridedSlice S5120x1 ![0, 256] (Host.scatterAdd scatter_S5120x257_S51200x1_S51200x257_1_0_0_1 (broadcastInDim S5120x257 ![] bcast_S_S5120x257 (constant (F := Ideal) S_ .f32 0x00000000#32)) S (concatenate S51200x257 1 [⟨S51200x256, Host.gather gather_S51200x256_S51200x1_S51200x256_1_0_n_n_0_1_1256 x G⟩, ⟨S51200x1, broadcastInDim S51200x1 ![] bcast_S_S51200x1 (constant (F := Ideal) S_ .f32 0x3F800000#32)⟩] concatenates_S51200x256_S51200x1_S51200x257_d1)) slices_S5120x257_S5120x1_0_256
      = degArr (Nd := 5120) (fun e : Fin 51200 => (S (ix2 e (0 : Fin 1))).toInt) :=
  agg_deg (F := 256) (F1 := 257) rfl Facts₀.scatter_S5120x257_S51200x1_S51200x257_1_0_0_1_wf _ _ rfl _ _ _ _ x G S

/-- Layer 1 (51200 edges, 51200 source rows of width 256, 5120 destination rows): the source index column. -/
theorem idx1_src (s : IVec S51200 32) (e : Fin 51200) : broadcastInDim S51200x1 ![0] bcast_S51200_S51200x1_0 (select (cmpi .slt s (broadcastInDim S51200 ![] bcast_S_S51200 (constantI S_ 32 0#32))) (addi s (broadcastInDim S51200 ![] bcast_S_S51200 (constantI S_ 32 51200#32))) s) (ix2 e (0 : Fin 1)) = wrapRow 51200#32 (s (ix1 e)) :=
  idx_wrap _ _ _ s e

/-- Layer 1 (51200 edges, 51200 source rows of width 256, 5120 destination rows): the destination index column. -/
theorem idx1_dst (d : IVec S51200 32) (e : Fin 51200) : broadcastInDim S51200x1 ![0] bcast_S51200_S51200x1_0 (select (cmpi .slt d (broadcastInDim S51200 ![] bcast_S_S51200 (constantI S_ 32 0#32))) (addi d (broadcastInDim S51200 ![] bcast_S_S51200 (constantI S_ 32 5120#32))) d) (ix2 e (0 : Fin 1)) = wrapRow 5120#32 (d (ix1 e)) :=
  idx_wrap _ _ _ d e

/-- Layer 2 (5120 edges, 5120 source rows of width 256, 1024 destination rows): the neighbour sums. -/
theorem agg2_msg (x : FVec Ideal S5120x256 .f32) (G S : IVec S5120x1 32) :
    extractStridedSlice S1024x256 ![0, 0] (Host.scatterAdd scatter_S1024x257_S5120x1_S5120x257_1_0_0_1 (broadcastInDim S1024x257 ![] bcast_S_S1024x257 (constant (F := Ideal) S_ .f32 0x00000000#32)) S (concatenate S5120x257 1 [⟨S5120x256, Host.gather gather_S5120x256_S5120x1_S5120x256_1_0_n_n_0_1_1256 x G⟩, ⟨S5120x1, broadcastInDim S5120x1 ![] bcast_S_S5120x1 (constant (F := Ideal) S_ .f32 0x3F800000#32)⟩] concatenates_S5120x256_S5120x1_S5120x257_d1)) slices_S1024x257_S1024x256_0_0
      = msgArr (Ns := 5120) (Nd := 1024) (by omega) x (fun e : Fin 5120 => (G (ix2 e (0 : Fin 1))).toInt) (fun e : Fin 5120 => (S (ix2 e (0 : Fin 1))).toInt) :=
  agg_msg (F1 := 257) (by omega) rfl Facts₀.gather_S5120x256_S5120x1_S5120x256_1_0_n_n_0_1_1256_wf
    Facts₀.scatter_S1024x257_S5120x1_S5120x257_1_0_0_1_wf _ rfl _ rfl _ _ _ _ x G S

/-- Layer 2 (5120 edges, 5120 source rows of width 256, 1024 destination rows): the neighbour counts. -/
theorem agg2_deg (x : FVec Ideal S5120x256 .f32) (G S : IVec S5120x1 32) :
    extractStridedSlice S1024x1 ![0, 256] (Host.scatterAdd scatter_S1024x257_S5120x1_S5120x257_1_0_0_1 (broadcastInDim S1024x257 ![] bcast_S_S1024x257 (constant (F := Ideal) S_ .f32 0x00000000#32)) S (concatenate S5120x257 1 [⟨S5120x256, Host.gather gather_S5120x256_S5120x1_S5120x256_1_0_n_n_0_1_1256 x G⟩, ⟨S5120x1, broadcastInDim S5120x1 ![] bcast_S_S5120x1 (constant (F := Ideal) S_ .f32 0x3F800000#32)⟩] concatenates_S5120x256_S5120x1_S5120x257_d1)) slices_S1024x257_S1024x1_0_256
      = degArr (Nd := 1024) (fun e : Fin 5120 => (S (ix2 e (0 : Fin 1))).toInt) :=
  agg_deg (F := 256) (F1 := 257) rfl Facts₀.scatter_S1024x257_S5120x1_S5120x257_1_0_0_1_wf _ _ rfl _ _ _ _ x G S

/-- Layer 2 (5120 edges, 5120 source rows of width 256, 1024 destination rows): the source index column. -/
theorem idx2_src (s : IVec S5120 32) (e : Fin 5120) : broadcastInDim S5120x1 ![0] bcast_S5120_S5120x1_0 (select (cmpi .slt s (broadcastInDim S5120 ![] bcast_S_S5120 (constantI S_ 32 0#32))) (addi s (broadcastInDim S5120 ![] bcast_S_S5120 (constantI S_ 32 5120#32))) s) (ix2 e (0 : Fin 1)) = wrapRow 5120#32 (s (ix1 e)) :=
  idx_wrap _ _ _ s e

/-- Layer 2 (5120 edges, 5120 source rows of width 256, 1024 destination rows): the destination index column. -/
theorem idx2_dst (d : IVec S5120 32) (e : Fin 5120) : broadcastInDim S5120x1 ![0] bcast_S5120_S5120x1_0 (select (cmpi .slt d (broadcastInDim S5120 ![] bcast_S_S5120 (constantI S_ 32 0#32))) (addi d (broadcastInDim S5120 ![] bcast_S_S5120 (constantI S_ 32 1024#32))) d) (ix2 e (0 : Fin 1)) = wrapRow 1024#32 (d (ix1 e)) :=
  idx_wrap _ _ _ d e

end Cert.Sage.Agg

end
-- ==== Proof.EntryLemmas.lean ====
/-
  Region-independent lemmas for reading a host stretch's results: a congruence for two-piece concatenations, a value
  moved along a type equation and back, and the head rows of a table as a slice.
-/
import proofs.«181663_j61572651155594_2_alg».proof.Proof.Spec
import Idealize.ShloMosaic.Lib.Pipeline.Value

noncomputable section

namespace Cert.Sage.Entry

open Cert.Sage Idealize.ShloMosaic Idealize.ShloMosaic.ValueIdx

/-- Both pieces of a two-piece concatenation may be rewritten. -/
theorem concatenate_pair_congr {α : Type} {t s₁ s₂ : Shape} {a : Fin t.rank} {x₁ x₁' : s₁.Idx → α} {x₂ x₂' : s₂.Idx → α}
    (h₁ : x₁ = x₁') (h₂ : x₂ = x₂') (h : Shape.Concatenates [s₁, s₂] t a) :
    concatenate t a [⟨s₁, x₁⟩, ⟨s₂, x₂⟩] h = concatenate t a [⟨s₁, x₁'⟩, ⟨s₂, x₂'⟩] h := by
  subst h₁ h₂; rfl

/-- A value moved along a type equation and back is the value. -/
theorem cast_cast_self {α β : Type} (h₁ : α = β) (h₂ : β = α) (a : α) : cast h₂ (cast h₁ a) = a := by
  subst h₁; rfl

/-- The head rows of a table are its slice at offset (0, 0). -/
theorem head_slice {Ns Nd F : Nat} (hle : Nd ≤ Ns) (hsl : (⟨2, ![Ns, F]⟩ : Shape).Slices ![0, 0] ⟨2, ![Nd, F]⟩)
    (x : (⟨2, ![Ns, F]⟩ : Shape).Idx → EReal) :
    extractStridedSlice ⟨2, ![Nd, F]⟩ ![0, 0] x hsl = headRows hle x := by
  funext i
  obtain ⟨n, k, rfl⟩ : ∃ (n : Fin Nd) (k : Fin F), i = ix2 n k :=
    ⟨⟨(i 0).val, idx2_lt0 i⟩, ⟨(i 1).val, idx2_lt1 i⟩, eq_ix2 i⟩
  refine (extractStridedSlice_apply ![0, 0] x hsl (ix2 n k) (ix2 ⟨n.val, lt_of_lt_of_le n.isLt hle⟩ k) ?_).trans rfl
  intro a
  match a with
  | ⟨0, _⟩ => show n.val = 0 + n.val; omega
  | ⟨1, _⟩ => show k.val = 0 + k.val; omega

end Cert.Sage.Entry

end
-- ==== Proof.EntryValue0.lean ====
/-
  What region 0 finds in its windows' arrays: the host stretch before it, read at the launch memory.

  The stretch slices the head rows of the feature table, wraps the two index columns, gathers, appends the ones column,
  scatter-adds and slices the sums and the counts; it narrows the two weight matrices (the identity on the extended
  reals) and leaves the bias argument alone.
-/
import proofs.«181663_j61572651155594_2_alg».proof.Proof.Gen.KernelIdeal.Frame
import proofs.«181663_j61572651155594_2_alg».proof.Proof.Spec
import proofs.«181663_j61572651155594_2_alg».proof.Proof.AggValue
import proofs.«181663_j61572651155594_2_alg».proof.Proof.EntryLemmas
import Idealize.ShloMosaic.Lib.StableHlo.Run
import Idealize.ShloMosaic.Lib.Pipeline.Value

set_option maxRecDepth 16384

noncomputable section

namespace Cert.Sage.Entry

open Cert.KernelIdeal Cert.KernelIdeal.Gen Cert.Sage Cert.Sage.Agg Idealize.ShloMosaic Idealize.ShloMosaic.TcCoe
  Idealize.ShloMosaic.StableHlo Idealize.ShloMosaic.ValueIdx Idealize.SL Idealize.SL.Sem

variable (m : (ℓ : Loc nD τ sig) → Buf (Elt Ideal) ℓ) (ρ : Dev nD → PrngReg)

attribute [local congr] concatenate_pair_congr

/-- The node's own rows: the head of the feature table. -/
theorem V1_v0 (c : Dev nD) : (V1 m ρ c main_call0_v0 : S51200x128.Idx → EReal)
    = headRows (Ns := 700000) (Nd := 51200) (by omega) (m ((c : Thread nD τ).loc main_arg0)) := by
  dsimp only [V1, W1]
  simp only [hostOps0]
  after_results_simp
  exact head_slice (Ns := 700000) (Nd := 51200) (F := 128) (by omega) slices_S700000x128_S51200x128_0_0 (m ((c : Thread nD τ).loc main_arg0))

/-- The neighbour sums. -/
theorem V1_v18 (c : Dev nD) : (V1 m ρ c main_call0_v18 : S51200x128.Idx → EReal)
    = msgArr (Ns := 700000) (Nd := 51200) (by omega) (m ((c : Thread nD τ).loc main_arg0)) (fun e : Fin 768000 => (wrapRow 700000#32 ((m ((c : Thread nD τ).loc main_arg1)) (ix1 e))).toInt) (fun e : Fin 768000 => (wrapRow 51200#32 ((m ((c : Thread nD τ).loc main_arg2)) (ix1 e))).toInt) := by
  dsimp only [V1, W1]
  simp only [hostOps0]
  after_results_simp
  simp only [TRef.ofBuf, TRef.toBuf, cast_cast_self]
  refine (cast_eq _ _).trans ?_
  refine (agg0_msg _ _ _).trans ?_
  exact congrArg₂ (msgArr (Ns := 700000) (Nd := 51200) (E := 768000) (by omega) (m ((c : Thread nD τ).loc main_arg0)))
    (funext fun e => congrArg BitVec.toInt (idx0_src _ e)) (funext fun e => congrArg BitVec.toInt (idx0_dst _ e))

/-- The neighbour counts. -/
theorem V1_v19 (c : Dev nD) : (V1 m ρ c main_call0_v19 : S51200x1.Idx → EReal)
    = degArr (Nd := 51200) (fun e : Fin 768000 => (wrapRow 51200#32 ((m ((c : Thread nD τ).loc main_arg2)) (ix1 e))).toInt) := by
  dsimp only [V1, W1]
  simp only [hostOps0]
  after_results_simp
  simp only [TRef.ofBuf, TRef.toBuf, cast_cast_self]
  refine (cast_eq _ _).trans ?_
  refine (agg0_deg _ _ _).trans ?_
  exact congrArg (degArr (Nd := 51200) (E := 768000)) (funext fun e => congrArg BitVec.toInt (idx0_dst _ e))

/-- The self weights: narrowing is the identity on the extended reals. -/
theorem V1_v20 (c : Dev nD) : (V1 m ρ c main_call0_v20 : S128x256.Idx → EReal) = (m ((c : Thread nD τ).loc main_arg7)) := by
  dsimp only [V1, W1]
  simp only [hostOps0]
  after_results_simp
  rfl

/-- The neighbour weights. -/
theorem V1_v21 (c : Dev nD) : (V1 m ρ c main_call0_v21 : S128x256.Idx → EReal) = (m ((c : Thread nD τ).loc main_arg8)) := by
  dsimp only [V1, W1]
  simp only [hostOps0]
  after_results_simp
  rfl

/-- The bias: no operation of the stretch writes an argument. -/
theorem V1_arg9 (c : Dev nD) : (V1 m ρ c main_arg9 : S256.Idx → EReal) = (m ((c : Thread nD τ).loc main_arg9)) := by
  dsimp only [V1, W1]
  simp only [hostOps0]
  after_results_simp

end Cert.Sage.Entry

end
-- ==== Proof.EntryValue1.lean ====
/-
  What the second layer's region finds in its arrays when it is entered.

  Between the first and the second region a stretch of host operations prepares the second layer's inputs from the
  first region's output table (51200 rows of width 256) and from the arguments: the head 5120 rows, the neighbour sums
  and neighbour counts over the 51200 edges (one scatter-add of the gathered rows with a ones column appended, then
  sliced), and the two weight matrices narrowed to the shorter float format, which over the extended reals changes
  nothing. The arguments are as launched: neither the first host stretch nor the first region writes them. The first
  region's output table is left as it stands.
-/
import proofs.«181663_j61572651155594_2_alg».proof.Proof.Gen.KernelIdeal.Frame
import proofs.«181663_j61572651155594_2_alg».proof.Proof.Spec
import proofs.«181663_j61572651155594_2_alg».proof.Proof.AggValue
import proofs.«181663_j61572651155594_2_alg».proof.Proof.EntryLemmas
import Idealize.ShloMosaic.Lib.StableHlo.Run
import Idealize.ShloMosaic.Lib.Pipeline.Value

set_option maxRecDepth 16384

noncomputable section

namespace Cert.Sage.Entry

open Cert.KernelIdeal Cert.KernelIdeal.Gen Cert.Sage Cert.Sage.Agg Idealize.ShloMosaic Idealize.ShloMosaic.TcCoe
  Idealize.ShloMosaic.StableHlo Idealize.ShloMosaic.ValueIdx Idealize.SL Idealize.SL.Sem

variable (m : (ℓ : Loc nD τ sig) → Buf (Elt Ideal) ℓ) (ρ : Dev nD → PrngReg)

attribute [local congr] concatenate_pair_congr

/-- Argument 3 is as launched when region 1 is entered: neither the first host stretch nor region 0 writes it. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 4 is as launched when region 1 is entered: neither the first host stretch nor region 0 writes it. -/
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 10 is as launched when region 1 is entered: neither the first host stretch nor region 0 writes it. -/
theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- Argument 11 is as launched when region 1 is entered: neither the first host stretch nor region 0 writes it. -/
theorem W2_main_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- Argument 12 is as launched when region 1 is entered: neither the first host stretch nor region 0 writes it. -/
theorem W2_main_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-- The destination rows of layer 1: the head of region 0's output. -/
theorem V3_v23 (c : Dev nD) : (V3 m ρ c main_call0_v23 : S5120x256.Idx → EReal)
    = headRows (Ns := 51200) (Nd := 5120) (by omega) (W2 m ρ c (Proc.devRef .tc main_call0_v22) : S51200x256.Idx → EReal) := by
  dsimp only [V3, W3]
  simp only [hostOps1]
  after_results_simp
  simp only [TRef.ofBuf, TRef.toBuf, cast_cast_self]
  refine (cast_eq _ _).trans ?_
  exact head_slice (by omega) _ _

/-- The neighbour sums of layer 1, over region 0's output. -/
theorem V3_v41 (c : Dev nD) : (V3 m ρ c main_call0_v41 : S5120x256.Idx → EReal)
    = msgArr (Ns := 51200) (Nd := 5120) (by omega) (W2 m ρ c (Proc.devRef .tc main_call0_v22) : S51200x256.Idx → EReal)
        (fun e : Fin 51200 => (wrapRow 51200#32 ((m ((c : Thread nD τ).loc main_arg3)) (ix1 e))).toInt)
        (fun e : Fin 51200 => (wrapRow 5120#32 ((m ((c : Thread nD τ).loc main_arg4)) (ix1 e))).toInt) := by
  dsimp only [V3, W3]
  simp only [hostOps1]
  after_results_simp
  simp only [TRef.ofBuf, TRef.toBuf, cast_cast_self]
  refine (cast_eq _ _).trans ?_
  refine (agg1_msg _ _ _).trans ?_
  rw [W2_main_arg3 m ρ c, W2_main_arg4 m ρ c]
  exact congrArg₂ (msgArr (Ns := 51200) (Nd := 5120) (E := 51200) (by omega) (W2 m ρ c (Proc.devRef .tc main_call0_v22) : S51200x256.Idx → EReal))
    (funext fun e => congrArg BitVec.toInt (idx1_src _ e)) (funext fun e => congrArg BitVec.toInt (idx1_dst _ e))

/-- The neighbour counts of layer 1. -/
theorem V3_v42 (c : Dev nD) : (V3 m ρ c main_call0_v42 : S5120x1.Idx → EReal)
    = degArr (Nd := 5120) (fun e : Fin 51200 => (wrapRow 5120#32 ((m ((c : Thread nD τ).loc main_arg4)) (ix1 e))).toInt) := by
  dsimp only [V3, W3]
  simp only [hostOps1]
  after_results_simp
  simp only [TRef.ofBuf, TRef.toBuf, cast_cast_self]
  refine (cast_eq _ _).trans ?_
  refine (agg1_deg _ _ _).trans ?_
  rw [W2_main_arg4 m ρ c]
  exact congrArg (degArr (Nd := 5120) (E := 51200)) (funext fun e => congrArg BitVec.toInt (idx1_dst _ e))

/-- The own-row weights of layer 1: narrowing to the shorter float format changes nothing over the extended reals. -/
theorem V3_v43 (c : Dev nD) : (V3 m ρ c main_call0_v43 : S256x256.Idx → EReal) = (m ((c : Thread nD τ).loc main_arg10)) := by
  dsimp only [V3, W3]
  simp only [hostOps1]
  after_results_simp
  rw [W2_main_arg10 m ρ c]
  rfl

/-- The neighbour weights of layer 1: likewise unchanged. -/
theorem V3_v44 (c : Dev nD) : (V3 m ρ c main_call0_v44 : S256x256.Idx → EReal) = (m ((c : Thread nD τ).loc main_arg11)) := by
  dsimp only [V3, W3]
  simp only [hostOps1]
  after_results_simp
  rw [W2_main_arg11 m ρ c]
  rfl

/-- The bias of layer 1 is as launched: no host operation of the second stretch writes it. -/
theorem V3_arg12 (c : Dev nD) : (V3 m ρ c main_arg12 : S256.Idx → EReal) = (m ((c : Thread nD τ).loc main_arg12)) := by
  dsimp only [V3, W3]
  exact (StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_main_arg12 m ρ c)

end Cert.Sage.Entry

end
-- ==== Proof.EntryValue2.lean ====
/-
  What the last layer's windows find in their arrays when the layer starts.

  Before the last layer's call the program prepares, from the previous layer's output table O (5120 rows of width 256)
  and the last pair of index columns, the arrays the call reads: the head rows of O (its first 1024 rows), the
  neighbour sums and the neighbour counts of the 1024 destination rows over the 5120 edges (the source rows gathered,
  a ones column appended, the rows scatter-added at the destination row numbers, a negative row number counted from
  the end of its table), and the two weight tables narrowed (the identity over the extended reals).  The index columns,
  the weight tables and the bias are arguments no earlier step writes, so they hold what the program was launched
  with; the previous layer's output is left as it is.
-/
import proofs.«181663_j61572651155594_2_alg».proof.Proof.Gen.KernelIdeal.Frame
import proofs.«181663_j61572651155594_2_alg».proof.Proof.Spec
import proofs.«181663_j61572651155594_2_alg».proof.Proof.AggValue
import proofs.«181663_j61572651155594_2_alg».proof.Proof.EntryLemmas
import Idealize.ShloMosaic.Lib.StableHlo.Run
import Idealize.ShloMosaic.Lib.Pipeline.Value

set_option maxRecDepth 16384

noncomputable section

namespace Cert.Sage.Entry

open Cert.KernelIdeal Cert.KernelIdeal.Gen Cert.Sage Cert.Sage.Agg Idealize.ShloMosaic Idealize.ShloMosaic.TcCoe
  Idealize.ShloMosaic.StableHlo Idealize.ShloMosaic.ValueIdx Idealize.SL Idealize.SL.Sem

variable (m : (ℓ : Loc nD τ sig) → Buf (Elt Ideal) ℓ) (ρ : Dev nD → PrngReg)

attribute [local congr] concatenate_pair_congr

/-! ## The arguments the last layer reads hold what they were launched with -/

/-- Argument 5 is written by no host operation and by no region before the last: it holds what it was launched with. -/
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Argument 6 is written by no host operation and by no region before the last: it holds what it was launched with. -/
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Argument 13 is written by no host operation and by no region before the last: it holds what it was launched with. -/
theorem W4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-- Argument 14 is written by no host operation and by no region before the last: it holds what it was launched with. -/
theorem W4_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

/-- Argument 15 is written by no host operation and by no region before the last: it holds what it was launched with. -/
theorem W4_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

/-! ## The arrays the last layer's windows read -/

/-- The own rows: the first 1024 rows of the previous layer's output. -/
theorem V5_v46 (c : Dev nD) : (V5 m ρ c main_call0_v46 : S1024x256.Idx → EReal)
    = headRows (Ns := 5120) (Nd := 1024) (by omega) (W4 m ρ c (Proc.devRef .tc main_call0_v45) : S5120x256.Idx → EReal) := by
  dsimp only [V5, W5]
  simp only [hostOps2]
  after_results_simp
  exact head_slice (Ns := 5120) (Nd := 1024) (F := 256) (by omega) slices_S5120x256_S1024x256_0_0 _

/-- The neighbour sums over the 5120 edges, the row numbers read from the last pair of index columns. -/
theorem V5_v64 (c : Dev nD) : (V5 m ρ c main_call0_v64 : S1024x256.Idx → EReal)
    = msgArr (Ns := 5120) (Nd := 1024) (by omega) (W4 m ρ c (Proc.devRef .tc main_call0_v45) : S5120x256.Idx → EReal)
        (fun e : Fin 5120 => (wrapRow 5120#32 ((m ((c : Thread nD τ).loc main_arg5)) (ix1 e))).toInt)
        (fun e : Fin 5120 => (wrapRow 1024#32 ((m ((c : Thread nD τ).loc main_arg6)) (ix1 e))).toInt) := by
  dsimp only [V5, W5]
  simp only [hostOps2]
  after_results_simp
  simp only [TRef.ofBuf, TRef.toBuf, cast_cast_self]
  refine (cast_eq _ _).trans ?_
  rw [W4_arg5, W4_arg6]
  refine (agg2_msg _ _ _).trans ?_
  exact congrArg₂ (msgArr (Ns := 5120) (Nd := 1024) (E := 5120) (by omega) (W4 m ρ c (Proc.devRef .tc main_call0_v45) : S5120x256.Idx → EReal))
    (funext fun e => congrArg BitVec.toInt (idx2_src _ e)) (funext fun e => congrArg BitVec.toInt (idx2_dst _ e))

/-- The neighbour counts over the 5120 edges. -/
theorem V5_v65 (c : Dev nD) : (V5 m ρ c main_call0_v65 : S1024x1.Idx → EReal)
    = degArr (Nd := 1024) (fun e : Fin 5120 => (wrapRow 1024#32 ((m ((c : Thread nD τ).loc main_arg6)) (ix1 e))).toInt) := by
  dsimp only [V5, W5]
  simp only [hostOps2]
  after_results_simp
  simp only [TRef.ofBuf, TRef.toBuf, cast_cast_self]
  refine (cast_eq _ _).trans ?_
  rw [W4_arg6]
  refine (agg2_deg _ _ _).trans ?_
  exact congrArg (degArr (Nd := 1024) (E := 5120)) (funext fun e => congrArg BitVec.toInt (idx2_dst _ e))

/-- The own-rows weight table, narrowed: over the extended reals the table itself. -/
theorem V5_v66 (c : Dev nD) : (V5 m ρ c main_call0_v66 : S256x47.Idx → EReal) = (m ((c : Thread nD τ).loc main_arg13)) := by
  dsimp only [V5, W5]
  simp only [hostOps2]
  after_results_simp
  rw [W4_arg13]
  rfl

/-- The neighbour weight table, narrowed: over the extended reals the table itself. -/
theorem V5_v67 (c : Dev nD) : (V5 m ρ c main_call0_v67 : S256x47.Idx → EReal) = (m ((c : Thread nD τ).loc main_arg14)) := by
  dsimp only [V5, W5]
  simp only [hostOps2]
  after_results_simp
  rw [W4_arg14]
  rfl

/-- The bias: the argument as launched. -/
theorem V5_arg15 (c : Dev nD) : (V5 m ρ c main_arg15 : S47.Idx → EReal) = (m ((c : Thread nD τ).loc main_arg15)) := by
  dsimp only [V5, W5]
  simp only [hostOps2]
  after_results_simp
  exact W4_arg15 m ρ c

end Cert.Sage.Entry

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibKeepdims.lean ====
/-
  Reusable lemmas: a row reduction of an [a, b] array kept as a column and broadcast back along the row.

  jnp's `max(s, axis=-1, keepdims=True)` and `sum(…, axis=-1, keepdims=True)` inside a kernel print as a lane reduction
  [a, b] → [a], a shape cast [a] → [a, 1], and a broadcast [a, 1] → [a, b].  Read over the extended reals at (r, j) the
  result is the fold of max (from the accumulator's value) or the sum over row r, whatever j:

      bmax s (r, j) = max_k s (r, k),      bsum s (r, j) = Σ_k s (r, k).

  The two layout steps are read by coordinates: an [a] vector cast to an [a, 1] column reads entry i at (i, 0), and an
  [a, 1] column broadcast to [a, b] reads the column's entry p at (p, c).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- An [a] vector cast to an [a, 1] column reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index r of an [a, b] array reduced along its rows, with the row position k put back, is (r, k). -/
theorem lift_row {a b : ℕ} (hr : (⟨2, ![a, b]⟩ : Shape).Reduces [1] ⟨1, ![a]⟩) (r : Fin a) (k : Fin b) :
    hr.lift (ix1 r) k = ix2 r k :=
  funext fun c => Fin.ext (by
    match c with
    | ⟨0, _⟩ => rfl
    | ⟨1, _⟩ => rfl)

/-- The row maximum kept as a column and broadcast back: at (r, j) the fold of max, from the accumulator's value, over
    row r. -/
theorem rowMax_keepdims {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hsc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ (multiReduction .maximumf [1] ⟨1, ![a]⟩ s acc hr hφ hacc) hsc) hb (ix2 r j)
      = (Finset.univ : Finset (Fin b)).fold max (Ideal.ofBits .f32 acc) (fun k => s (ix2 r k)) := by
  rw [broadcastTo_a1_ab_apply, shapeCast_a_a1_apply, Ideal.multiReduction_maximumf_single]
  refine congrArg (fun f => (Finset.univ : Finset (Fin b)).fold max (Ideal.ofBits .f32 acc) f) ?_
  exact funext fun k => congrArg s (lift_row hr r k)

/-- The row sum kept as a column and broadcast back: at (r, j) the sum over row r. -/
theorem rowSum_keepdims {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hsc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ (multiReduction .add [1] ⟨1, ![a]⟩ s acc hr hφ hacc) hsc) hb (ix2 r j)
      = ∑ k : Fin b, s (ix2 r k) := by
  rw [broadcastTo_a1_ab_apply, shapeCast_a_a1_apply, Ideal.multiReduction_add_single]
  exact Finset.sum_congr rfl fun k _ => congrArg s (lift_row hr r k)

end Cert.Keepdims

end
-- ==== Proof.BodyValue.lean ====
/-
  The dense stage's arithmetic as the kernel body carries it, read at one entry.

  The body of each of the three calls is one pure term over the values it loads: the node's own rows x0 [a, fi], the
  neighbour sums x1 [a, fi], the neighbour counts x2 [a, 1], the two weight tables x3, x4 [fi, fo] and the bias x5 [fo].
  It clamps the counts below by one, spreads the clamped column along the rows, divides the neighbour sums by it,
  multiplies the own rows by x3 and the quotients by x4 (each product accumulated into zeros), adds the two products,
  adds the bias spread over the rows and, in every layer but the last, takes the maximum with zero.  Over the extended
  reals the narrowing of the products' operands is the identity, so at entry (p, q) the term is

      Σ_k x0[p, k] · x3[k, q]  +  Σ_k (x1[p, k] / max(x2[p, 0], 1)) · x4[k, q]  +  x5[q],

  rectified or not: the entry of the dense stage.  One lemma generic in the extents a, fi, fo reads the common chain;
  the three bodies are instances of it.
-/
import proofs.«181663_j61572651155594_2_alg».proof.Proof.Spec
import proofs.«181663_j61572651155594_2_alg».proof.Proof.Gen.KernelIdeal.Skeleton
import proofs.«181663_j61572651155594_2_alg».proof.Proof.LibMatmulNN
import proofs.«181663_j61572651155594_2_alg».proof.Proof.LibKeepdims
import Idealize.ShloMosaic.Lib.ValueLayout

noncomputable section

namespace Cert.Sage.Body

open Cert.KernelIdeal Cert.KernelIdeal.Gen Cert.Sage Idealize.ShloMosaic Idealize.ShloMosaic.ValueIdx

/-- The common chain at entry (p, q): the two inner products and the bias entry. The same-shape casts are the identity,
    the narrowing is the identity over the extended reals, each product into zeros is an inner product, the clamped
    column spread along the rows reads its entry p, and the bias cast to one row and spread over the rows reads its
    entry q. -/
theorem chain_apply {a fi fo : Nat}
    (x0 x1 : FVec Ideal ⟨2, ![a, fi]⟩ .f32) (x2 : FVec Ideal ⟨2, ![a, 1]⟩ .f32)
    (x3 x4 : FVec Ideal ⟨2, ![fi, fo]⟩ .bf16) (x5 : FVec Ideal ⟨1, ![fo]⟩ .f32)
    (hx : (⟨2, ![a, fi]⟩ : Shape).ShapeCasts ⟨2, ![a, fi]⟩)
    (hd : (⟨2, ![a, 1]⟩ : Shape).ShapeCasts ⟨2, ![a, 1]⟩)
    (hw : (⟨2, ![fi, fo]⟩ : Shape).ShapeCasts ⟨2, ![fi, fo]⟩)
    (hb : (⟨2, ![a, 1]⟩ : Shape).Broadcasts ⟨2, ![a, fi]⟩)
    (ht : FTy.bits .bf16 < FTy.bits .f32)
    (D : DotDims ⟨2, ![a, fi]⟩ ⟨2, ![fi, fo]⟩ ⟨2, ![a, fo]⟩) (hD : D = DotDims.plain a fi fo)
    (hc : (⟨1, ![fo]⟩ : Shape).ShapeCasts ⟨2, ![1, fo]⟩)
    (hr : (⟨2, ![1, fo]⟩ : Shape).Broadcasts ⟨2, ![a, fo]⟩)
    (p : Fin a) (q : Fin fo) :
    addf (addf
        (matmul D none (truncf .bf16 (shapeCast ⟨2, ![a, fi]⟩ x0 hx) ht) (shapeCast ⟨2, ![fi, fo]⟩ x3 hw)
          (constant (F := Ideal) ⟨2, ![a, fo]⟩ .f32 0x00000000#32))
        (matmul D none
          (truncf .bf16 (divf (shapeCast ⟨2, ![a, fi]⟩ x1 hx)
            (broadcastTo ⟨2, ![a, fi]⟩ (maximumf (shapeCast ⟨2, ![a, 1]⟩ x2 hd)
              (broadcast ⟨2, ![a, 1]⟩ (Scalar.ofBits (F := Ideal) .f32 0x3F800000#32))) hb)) ht)
          (shapeCast ⟨2, ![fi, fo]⟩ x4 hw) (constant (F := Ideal) ⟨2, ![a, fo]⟩ .f32 0x00000000#32)))
      (broadcastTo ⟨2, ![a, fo]⟩ (shapeCast ⟨2, ![1, fo]⟩ x5 hc) hr) (ix2 p q)
    = (∑ k : Fin fi, x0 (ix2 p k) * x3 (ix2 k q))
      + (∑ k : Fin fi, Ideal.div (x1 (ix2 p k)) (max (x2 (ix2 p (0 : Fin 1))) ONE) * x4 (ix2 k q))
      + x5 (ix1 q) := by
  rw [shapeCast_self x0, shapeCast_self x1, shapeCast_self x2, shapeCast_self x3, shapeCast_self x4]
  refine congrArg₂ (· + ·) (congrArg₂ (· + ·) ?_ ?_) ?_
  · exact Cert.MatmulNN.matmul_zero_apply D hD none (truncf .bf16 x0 ht) x3 p q
  · refine (Cert.MatmulNN.matmul_zero_apply D hD none _ x4 p q).trans (Finset.sum_congr rfl fun k _ => ?_)
    rw [truncf_apply, divf_apply, Cert.Keepdims.broadcastTo_a1_ab_apply, maximumf_apply, broadcast_apply]
    rfl
  · rw [broadcastTo_1b_ab_apply, shapeCast_a_1a_apply]

/-- The first call's body at entry (p, q): the rectified entry of the dense stage, 128 features in, 256 out. -/
theorem pay0_apply (x0 x1 : Vec Ideal S1024x128 .f32) (x2 : Vec Ideal S1024x1 .f32) (x3 x4 : Vec Ideal S128x256 .bf16)
    (x5 : Vec Ideal S256 .f32) (p : Fin 1024) (q : Fin 256) :
    k0_pay1 (F := Ideal) x0 x1 x2 x3 x4 x5 (ix2 p q) = denseAt true x0 x1 x2 x3 x4 x5 p q :=
  congrArg (fun v : EReal => max v ZERO)
    (chain_apply x0 x1 x2 x3 x4 x5 shapeCasts_S1024x128_S1024x128 shapeCasts_S1024x1_S1024x1
      shapeCasts_S128x256_S128x256 broadcasts_S1024x1_S1024x128 bitsLt_bf16_f32
      dot_S1024x128_S128x256_S1024x256_1_0_0_1_n_n rfl shapeCasts_S256_S1x256 broadcasts_S1x256_S1024x256 p q)

/-- The second call's body at entry (p, q): the rectified entry of the dense stage, 256 features in, 256 out. -/
theorem pay1_apply (x0 x1 : Vec Ideal S1024x256 .f32) (x2 : Vec Ideal S1024x1 .f32) (x3 x4 : Vec Ideal S256x256 .bf16)
    (x5 : Vec Ideal S256 .f32) (p : Fin 1024) (q : Fin 256) :
    k1_pay1 (F := Ideal) x0 x1 x2 x3 x4 x5 (ix2 p q) = denseAt true x0 x1 x2 x3 x4 x5 p q :=
  congrArg (fun v : EReal => max v ZERO)
    (chain_apply x0 x1 x2 x3 x4 x5 shapeCasts_S1024x256_S1024x256 shapeCasts_S1024x1_S1024x1
      shapeCasts_S256x256_S256x256 broadcasts_S1024x1_S1024x256 bitsLt_bf16_f32
      dot_S1024x256_S256x256_S1024x256_1_0_0_1_n_n rfl shapeCasts_S256_S1x256 broadcasts_S1x256_S1024x256 p q)

/-- The last call's body at entry (p, q): the entry of the dense stage, not rectified, 256 features in, 47 out. -/
theorem pay2_apply (x0 x1 : Vec Ideal S512x256 .f32) (x2 : Vec Ideal S512x1 .f32) (x3 x4 : Vec Ideal S256x47 .bf16)
    (x5 : Vec Ideal S47 .f32) (p : Fin 512) (q : Fin 47) :
    k2_pay1 (F := Ideal) x0 x1 x2 x3 x4 x5 (ix2 p q) = denseAt false x0 x1 x2 x3 x4 x5 p q :=
  chain_apply x0 x1 x2 x3 x4 x5 shapeCasts_S512x256_S512x256 shapeCasts_S512x1_S512x1
    shapeCasts_S256x47_S256x47 broadcasts_S512x1_S512x256 bitsLt_bf16_f32
    dot_S512x256_S256x47_S512x47_1_0_0_1_n_n rfl shapeCasts_S47_S1x47 broadcasts_S1x47_S512x47 p q

end Cert.Sage.Body

end
-- ==== Proof.Region0.lean ====
/-
  Region 0: the first layer's dense stage, from blocks to the whole array.

  The pipeline walks the 51200 destination rows in 50 blocks of 1024 rows. At block t the body reads rows
  [1024 t, 1024 t + 1024) of the node features, of the neighbour sums and of the neighbour counts, and the whole weight
  matrices and bias, and writes rows [1024 t, 1024 t + 1024) of the output: each entry is the dense stage's entry of the
  WHOLE arrays at that row. The 50 blocks tile the output, so after the run the output array is the dense stage of the
  arrays the region found.
-/
import proofs.«181663_j61572651155594_2_alg».proof.Proof.Gen.KernelIdeal.Frame
import proofs.«181663_j61572651155594_2_alg».proof.Proof.Spec
import proofs.«181663_j61572651155594_2_alg».proof.Proof.BodyValue
import Idealize.ShloMosaic.Lib.Pipeline.Value
import Idealize.ShloMosaic.Lib.ValueIdx

set_option maxRecDepth 16384

noncomputable section

namespace Cert.Sage.Region0

open Cert.KernelIdeal Cert.KernelIdeal.Gen Cert.Sage Cert.Sage.Body
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows move with the point, block column 0; the weights and
    the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The entry of a block's payload is the dense stage's entry of the whole arrays, when the loaded blocks are the
    arrays' rows under a row map ι and the weights and bias are loaded whole. -/
theorem pay_rows (x0 x1 : Vec Ideal S1024x128 .f32) (x2 : Vec Ideal S1024x1 .f32) (x3 x4 : Vec Ideal S128x256 .bf16)
    (x5 : Vec Ideal S256 .f32)
    (A0 A1 : S51200x128.Idx → EReal) (A2 : S51200x1.Idx → EReal) (A3 A4 : S128x256.Idx → EReal) (A5 : S256.Idx → EReal)
    (ι : Fin 1024 → Fin 51200)
    (h0 : ∀ (p : Fin 1024) (k : Fin 128), x0 (ix2 p k) = A0 (ix2 (ι p) k))
    (h1 : ∀ (p : Fin 1024) (k : Fin 128), x1 (ix2 p k) = A1 (ix2 (ι p) k))
    (h2 : ∀ (p : Fin 1024), x2 (ix2 p (0 : Fin 1)) = A2 (ix2 (ι p) (0 : Fin 1)))
    (h3 : x3 = A3) (h4 : x4 = A4) (h5 : x5 = A5) (p : Fin 1024) (q : Fin 256) :
    k0_pay1 (F := Ideal) x0 x1 x2 x3 x4 x5 (ix2 p q) = dense true A0 A1 A2 A3 A4 A5 (ix2 (ι p) q) := by
  subst h3 h4 h5
  rw [pay0_apply, dense_apply]
  unfold denseAt
  simp only [h0, h1, h2]

/-- Row p of block t is row 1024 t + p of the array. -/
def rowOf (t : Fin cfg0.N) (p : Fin 1024) : Fin 51200 :=
  ⟨t.val * 1024 + p.val, by have ht := t.isLt; have hN : cfg0.N = 50 := N_0; omega⟩

/-- The node-feature window's block at t is rows [1024 t, 1024 t + 1024) of its array. -/
theorem blk_0 (c : Dev nD) (t : Fin cfg0.N) (p : Fin 1024) (k : Fin 128) :
    iblk0 V c 0 t (ix2 p k) = V c main_call0_v0 (ix2 (rowOf t p) k) := by
  show V c main_call0_v0 (((cfg0.win 0).blk t).view.emb (ix2 p k)) = _
  refine congrArg (V c main_call0_v0) ?_
  obtain ⟨e0, e1, -⟩ := idx_facts t
  funext a; apply Fin.ext
  match a with
  | ⟨0, _⟩ => show win0_0.index t (0 : Fin 2) * 1024 + 1 * p.val = t.val * 1024 + p.val; omega
  | ⟨1, _⟩ => show win0_0.index t (1 : Fin 2) * 128 + 1 * k.val = k.val; omega

/-- The neighbour-sum window's block at t is rows [1024 t, 1024 t + 1024) of its array. -/
theorem blk_1 (c : Dev nD) (t : Fin cfg0.N) (p : Fin 1024) (k : Fin 128) :
    iblk0 V c 1 t (ix2 p k) = V c main_call0_v18 (ix2 (rowOf t p) k) := by
  show V c main_call0_v18 (((cfg0.win 1).blk t).view.emb (ix2 p k)) = _
  refine congrArg (V c main_call0_v18) ?_
  obtain ⟨-, -, e0, e1, -⟩ := idx_facts t
  funext a; apply Fin.ext
  match a with
  | ⟨0, _⟩ => show win0_1.index t (0 : Fin 2) * 1024 + 1 * p.val = t.val * 1024 + p.val; omega
  | ⟨1, _⟩ => show win0_1.index t (1 : Fin 2) * 128 + 1 * k.val = k.val; omega

/-- The neighbour-count window's block at t is rows [1024 t, 1024 t + 1024) of its one-column array. -/
theorem blk_2 (c : Dev nD) (t : Fin cfg0.N) (p : Fin 1024) :
    iblk0 V c 2 t (ix2 p (0 : Fin 1)) = V c main_call0_v19 (ix2 (rowOf t p) (0 : Fin 1)) := by
  show V c main_call0_v19 (((cfg0.win 2).blk t).view.emb (ix2 p (0 : Fin 1))) = _
  refine congrArg (V c main_call0_v19) ?_
  obtain ⟨-, -, -, -, e0, e1, -⟩ := idx_facts t
  funext a; apply Fin.ext
  match a with
  | ⟨0, _⟩ => show win0_2.index t (0 : Fin 2) * 1024 + 1 * p.val = t.val * 1024 + p.val; omega
  | ⟨1, _⟩ => show win0_2.index t (1 : Fin 2) * 1 + 1 * 0 = 0; omega

/-- The first weight matrix is loaded whole at every point. -/
theorem blk_3 (c : Dev nD) (t : Fin cfg0.N) : iblk0 V c 3 t = V c main_call0_v20 := by
  funext y
  show V c main_call0_v20 (((cfg0.win 3).blk t).view.emb y) = V c main_call0_v20 y
  refine congrArg (V c main_call0_v20) ?_
  obtain ⟨-, -, -, -, -, -, e0, e1, -⟩ := idx_facts t
  funext a; apply Fin.ext
  match a with
  | ⟨0, _⟩ => show win0_3.index t (0 : Fin 2) * 128 + 1 * (y 0).val = (y 0).val; omega
  | ⟨1, _⟩ => show win0_3.index t (1 : Fin 2) * 256 + 1 * (y 1).val = (y 1).val; omega

/-- The second weight matrix is loaded whole at every point. -/
theorem blk_4 (c : Dev nD) (t : Fin cfg0.N) : iblk0 V c 4 t = V c main_call0_v21 := by
  funext y
  show V c main_call0_v21 (((cfg0.win 4).blk t).view.emb y) = V c main_call0_v21 y
  refine congrArg (V c main_call0_v21) ?_
  obtain ⟨-, -, -, -, -, -, -, -, e0, e1, -⟩ := idx_facts t
  funext a; apply Fin.ext
  match a with
  | ⟨0, _⟩ => show win0_4.index t (0 : Fin 2) * 128 + 1 * (y 0).val = (y 0).val; omega
  | ⟨1, _⟩ => show win0_4.index t (1 : Fin 2) * 256 + 1 * (y 1).val = (y 1).val; omega

/-- The bias is loaded whole at every point. -/
theorem blk_5 (c : Dev nD) (t : Fin cfg0.N) : iblk0 V c 5 t = V c main_arg9 := by
  funext y
  show V c main_arg9 (((cfg0.win 5).blk t).view.emb y) = V c main_arg9 y
  refine congrArg (V c main_arg9) ?_
  obtain ⟨-, -, -, -, -, -, -, -, -, -, e0, -⟩ := idx_facts t
  funext a; apply Fin.ext
  match a with
  | ⟨0, _⟩ => show win0_5.index t (0 : Fin 1) * 256 + 1 * (y 0).val = (y 0).val; omega

/-- WHAT POINT t WRITES BACK is block t of the dense stage of the arrays the region found. -/
theorem flushed (c : Dev nD) (t : Fin cfg0.N) :
    (dat0 V c).flushed 6 t = ((cfg0.win 6).blk t).view.read (Elt Ideal)
      (dense true (V c main_call0_v0) (V c main_call0_v18) (V c main_call0_v19) (V c main_call0_v20) (V c main_call0_v21) (V c main_arg9)) := by
  show (cfg0.win 6).cut (grid0.coords t) ((dat0 V c).after 6 t) = _
  rw [after0_6]
  unfold out0_6
  rw [View.canon_unit_zero hz2]
  simp only [View.ld_unit_zero (S := S1024x128) hz2, View.ld_unit_zero (S := S1024x1) hz2,
    View.ld_unit_zero (S := S128x256) hz2, View.ld_unit_zero (S := S256) hz1]
  funext j
  show k0_pay1 (iblk0 V c 0 t) (iblk0 V c 1 t) (iblk0 V c 2 t) (iblk0 V c 3 t) (iblk0 V c 4 t) (iblk0 V c 5 t) j
    = dense true (V c main_call0_v0) (V c main_call0_v18) (V c main_call0_v19) (V c main_call0_v20) (V c main_call0_v21) (V c main_arg9)
        (((cfg0.win 6).blk t).view.emb j)
  have e : k0_pay1 (iblk0 V c 0 t) (iblk0 V c 1 t) (iblk0 V c 2 t) (iblk0 V c 3 t) (iblk0 V c 4 t) (iblk0 V c 5 t) j
      = k0_pay1 (iblk0 V c 0 t) (iblk0 V c 1 t) (iblk0 V c 2 t) (iblk0 V c 3 t) (iblk0 V c 4 t) (iblk0 V c 5 t) (ix2 (j 0) (j 1)) :=
    congrArg _ (eq_ix2 j)
  refine e.trans ((pay_rows (iblk0 V c 0 t) (iblk0 V c 1 t) (iblk0 V c 2 t) (iblk0 V c 3 t) (iblk0 V c 4 t) (iblk0 V c 5 t)
    (V c main_call0_v0) (V c main_call0_v18) (V c main_call0_v19) (V c main_call0_v20) (V c main_call0_v21) (V c main_arg9)
    (rowOf t) (blk_0 V c t) (blk_1 V c t) (blk_2 V c t) (blk_3 V c t) (blk_4 V c t) (blk_5 V c t) (j 0) (j 1)).trans ?_)
  refine congrArg (dense true (V c main_call0_v0) (V c main_call0_v18) (V c main_call0_v19) (V c main_call0_v20) (V c main_call0_v21) (V c main_arg9)) ?_
  obtain ⟨-, -, -, -, -, -, -, -, -, -, -, e0, e1⟩ := idx_facts t
  funext a; apply Fin.ext
  match a with
  | ⟨0, _⟩ => show t.val * 1024 + (j 0).val = win0_6.index t (0 : Fin 2) * 1024 + 1 * (j 0).val; omega
  | ⟨1, _⟩ => show (j 1).val = win0_6.index t (1 : Fin 2) * 256 + 1 * (j 1).val; omega

/-- An index of the output array is in point t's block iff each coordinate is in the block's range. -/
theorem mem_blk (t : Fin cfg0.N) (i : S51200x256.Idx) :
    i ∈ ((cfg0.win 6).blk t).view.set ↔ ∀ a : Fin 2, win0_6.index t a * S1024x256.size a ≤ (i a).val
      ∧ (i a).val < win0_6.index t a * S1024x256.size a + S1024x256.size a := by
  show i ∈ ((View.whole main_call0_v22).slice (win0_6.rect t)).set ↔ _
  rw [View.set_slice_whole, Rect.mem_set_unit]
  exact Iff.rfl

/-- Every output entry is in the block of the point that owns its row: point (row / 1024). -/
theorem cover (i : S51200x256.Idx) :
    ∃ t : Fin cfg0.N, (cfg0.win 6).flush t = true ∧ i ∈ ((cfg0.win 6).blk t).view.set := by
  have hi0 : (i 0).val < 51200 := (i 0).isLt
  have hi1 : (i 1).val < 256 := (i 1).isLt
  have hN : cfg0.N = 50 := N_0
  let t : Fin cfg0.N := ⟨(i 0).val / 1024, by omega⟩
  have ht : t.val = (i 0).val / 1024 := rfl
  obtain ⟨-, -, -, -, -, -, -, -, -, -, -, e0, e1⟩ := idx_facts t
  refine ⟨t, flush0_6 t, ?_⟩
  rw [mem_blk]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 256 ≤ (i 1).val ∧ (i 1).val < win0_6.index t (1 : Fin 2) * 256 + 256
    omega

/-- THE OUTPUT ARRAY after the region: the dense stage of the arrays the region found. -/
theorem arr (c : Dev nD) :
    (dat0 V c).arrAt 6 cfg0.N
      = dense true (V c main_call0_v0) (V c main_call0_v18) (V c main_call0_v19) (V c main_call0_v20) (V c main_call0_v21) (V c main_arg9) :=
  (dat0 V c).arrAt_eq_of_cover 6 _ (fun t _ => flushed V c t) cover

end Cert.Sage.Region0

end
-- ==== Proof.Region1.lean ====
/-
  Region 1: the second layer's dense stage, from blocks to the whole array.

  The pipeline walks the 5120 destination rows in 5 blocks of 1024 rows. At block t the body reads rows
  [1024 t, 1024 t + 1024) of the node features, of the neighbour sums and of the neighbour counts, and the whole weight
  matrices and bias, and writes rows [1024 t, 1024 t + 1024) of the output: each entry is the dense stage's entry of the
  WHOLE arrays at that row. The 5 blocks tile the output, so after the run the output array is the dense stage of the
  arrays the region found.
-/
import proofs.«181663_j61572651155594_2_alg».proof.Proof.Gen.KernelIdeal.Frame
import proofs.«181663_j61572651155594_2_alg».proof.Proof.Spec
import proofs.«181663_j61572651155594_2_alg».proof.Proof.BodyValue
import Idealize.ShloMosaic.Lib.Pipeline.Value
import Idealize.ShloMosaic.Lib.ValueIdx

set_option maxRecDepth 16384

noncomputable section

namespace Cert.Sage.Region1

open Cert.KernelIdeal Cert.KernelIdeal.Gen Cert.Sage Cert.Sage.Body
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows move with the point, block column 0; the weights and
    the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The entry of a block's payload is the dense stage's entry of the whole arrays, when the loaded blocks are the
    arrays' rows under a row map ι and the weights and bias are loaded whole. -/
theorem pay_rows (x0 x1 : Vec Ideal S1024x256 .f32) (x2 : Vec Ideal S1024x1 .f32) (x3 x4 : Vec Ideal S256x256 .bf16)
    (x5 : Vec Ideal S256 .f32)
    (A0 A1 : S5120x256.Idx → EReal) (A2 : S5120x1.Idx → EReal) (A3 A4 : S256x256.Idx → EReal) (A5 : S256.Idx → EReal)
    (ι : Fin 1024 → Fin 5120)
    (h0 : ∀ (p : Fin 1024) (k : Fin 256), x0 (ix2 p k) = A0 (ix2 (ι p) k))
    (h1 : ∀ (p : Fin 1024) (k : Fin 256), x1 (ix2 p k) = A1 (ix2 (ι p) k))
    (h2 : ∀ (p : Fin 1024), x2 (ix2 p (0 : Fin 1)) = A2 (ix2 (ι p) (0 : Fin 1)))
    (h3 : x3 = A3) (h4 : x4 = A4) (h5 : x5 = A5) (p : Fin 1024) (q : Fin 256) :
    k1_pay1 (F := Ideal) x0 x1 x2 x3 x4 x5 (ix2 p q) = dense true A0 A1 A2 A3 A4 A5 (ix2 (ι p) q) := by
  subst h3 h4 h5
  rw [pay1_apply, dense_apply]
  unfold denseAt
  simp only [h0, h1, h2]

/-- Row p of block t is row 1024 t + p of the array. -/
def rowOf (t : Fin cfg1.N) (p : Fin 1024) : Fin 5120 :=
  ⟨t.val * 1024 + p.val, by have ht := t.isLt; have hN : cfg1.N = 5 := N_1; omega⟩

/-- The node-feature window's block at t is rows [1024 t, 1024 t + 1024) of its array. -/
theorem blk_0 (c : Dev nD) (t : Fin cfg1.N) (p : Fin 1024) (k : Fin 256) :
    iblk1 V c 0 t (ix2 p k) = V c main_call0_v23 (ix2 (rowOf t p) k) := by
  show V c main_call0_v23 (((cfg1.win 0).blk t).view.emb (ix2 p k)) = _
  refine congrArg (V c main_call0_v23) ?_
  obtain ⟨e0, e1, -⟩ := idx_facts t
  funext a; apply Fin.ext
  match a with
  | ⟨0, _⟩ => show win1_0.index t (0 : Fin 2) * 1024 + 1 * p.val = t.val * 1024 + p.val; omega
  | ⟨1, _⟩ => show win1_0.index t (1 : Fin 2) * 256 + 1 * k.val = k.val; omega

/-- The neighbour-sum window's block at t is rows [1024 t, 1024 t + 1024) of its array. -/
theorem blk_1 (c : Dev nD) (t : Fin cfg1.N) (p : Fin 1024) (k : Fin 256) :
    iblk1 V c 1 t (ix2 p k) = V c main_call0_v41 (ix2 (rowOf t p) k) := by
  show V c main_call0_v41 (((cfg1.win 1).blk t).view.emb (ix2 p k)) = _
  refine congrArg (V c main_call0_v41) ?_
  obtain ⟨-, -, e0, e1, -⟩ := idx_facts t
  funext a; apply Fin.ext
  match a with
  | ⟨0, _⟩ => show win1_1.index t (0 : Fin 2) * 1024 + 1 * p.val = t.val * 1024 + p.val; omega
  | ⟨1, _⟩ => show win1_1.index t (1 : Fin 2) * 256 + 1 * k.val = k.val; omega

/-- The neighbour-count window's block at t is rows [1024 t, 1024 t + 1024) of its one-column array. -/
theorem blk_2 (c : Dev nD) (t : Fin cfg1.N) (p : Fin 1024) :
    iblk1 V c 2 t (ix2 p (0 : Fin 1)) = V c main_call0_v42 (ix2 (rowOf t p) (0 : Fin 1)) := by
  show V c main_call0_v42 (((cfg1.win 2).blk t).view.emb (ix2 p (0 : Fin 1))) = _
  refine congrArg (V c main_call0_v42) ?_
  obtain ⟨-, -, -, -, e0, e1, -⟩ := idx_facts t
  funext a; apply Fin.ext
  match a with
  | ⟨0, _⟩ => show win1_2.index t (0 : Fin 2) * 1024 + 1 * p.val = t.val * 1024 + p.val; omega
  | ⟨1, _⟩ => show win1_2.index t (1 : Fin 2) * 1 + 1 * 0 = 0; omega

/-- The first weight matrix is loaded whole at every point. -/
theorem blk_3 (c : Dev nD) (t : Fin cfg1.N) : iblk1 V c 3 t = V c main_call0_v43 := by
  funext y
  show V c main_call0_v43 (((cfg1.win 3).blk t).view.emb y) = V c main_call0_v43 y
  refine congrArg (V c main_call0_v43) ?_
  obtain ⟨-, -, -, -, -, -, e0, e1, -⟩ := idx_facts t
  funext a; apply Fin.ext
  match a with
  | ⟨0, _⟩ => show win1_3.index t (0 : Fin 2) * 256 + 1 * (y 0).val = (y 0).val; omega
  | ⟨1, _⟩ => show win1_3.index t (1 : Fin 2) * 256 + 1 * (y 1).val = (y 1).val; omega

/-- The second weight matrix is loaded whole at every point. -/
theorem blk_4 (c : Dev nD) (t : Fin cfg1.N) : iblk1 V c 4 t = V c main_call0_v44 := by
  funext y
  show V c main_call0_v44 (((cfg1.win 4).blk t).view.emb y) = V c main_call0_v44 y
  refine congrArg (V c main_call0_v44) ?_
  obtain ⟨-, -, -, -, -, -, -, -, e0, e1, -⟩ := idx_facts t
  funext a; apply Fin.ext
  match a with
  | ⟨0, _⟩ => show win1_4.index t (0 : Fin 2) * 256 + 1 * (y 0).val = (y 0).val; omega
  | ⟨1, _⟩ => show win1_4.index t (1 : Fin 2) * 256 + 1 * (y 1).val = (y 1).val; omega

/-- The bias is loaded whole at every point. -/
theorem blk_5 (c : Dev nD) (t : Fin cfg1.N) : iblk1 V c 5 t = V c main_arg12 := by
  funext y
  show V c main_arg12 (((cfg1.win 5).blk t).view.emb y) = V c main_arg12 y
  refine congrArg (V c main_arg12) ?_
  obtain ⟨-, -, -, -, -, -, -, -, -, -, e0, -⟩ := idx_facts t
  funext a; apply Fin.ext
  match a with
  | ⟨0, _⟩ => show win1_5.index t (0 : Fin 1) * 256 + 1 * (y 0).val = (y 0).val; omega

/-- WHAT POINT t WRITES BACK is block t of the dense stage of the arrays the region found. -/
theorem flushed (c : Dev nD) (t : Fin cfg1.N) :
    (dat1 V c).flushed 6 t = ((cfg1.win 6).blk t).view.read (Elt Ideal)
      (dense true (V c main_call0_v23) (V c main_call0_v41) (V c main_call0_v42) (V c main_call0_v43) (V c main_call0_v44) (V c main_arg12)) := by
  show (cfg1.win 6).cut (grid1.coords t) ((dat1 V c).after 6 t) = _
  rw [after1_6]
  unfold out1_6
  rw [View.canon_unit_zero hz2]
  simp only [View.ld_unit_zero (S := S1024x256) hz2, View.ld_unit_zero (S := S1024x1) hz2,
    View.ld_unit_zero (S := S256x256) hz2, View.ld_unit_zero (S := S256) hz1]
  funext j
  show k1_pay1 (iblk1 V c 0 t) (iblk1 V c 1 t) (iblk1 V c 2 t) (iblk1 V c 3 t) (iblk1 V c 4 t) (iblk1 V c 5 t) j
    = dense true (V c main_call0_v23) (V c main_call0_v41) (V c main_call0_v42) (V c main_call0_v43) (V c main_call0_v44) (V c main_arg12)
        (((cfg1.win 6).blk t).view.emb j)
  have e : k1_pay1 (iblk1 V c 0 t) (iblk1 V c 1 t) (iblk1 V c 2 t) (iblk1 V c 3 t) (iblk1 V c 4 t) (iblk1 V c 5 t) j
      = k1_pay1 (iblk1 V c 0 t) (iblk1 V c 1 t) (iblk1 V c 2 t) (iblk1 V c 3 t) (iblk1 V c 4 t) (iblk1 V c 5 t) (ix2 (j 0) (j 1)) :=
    congrArg _ (eq_ix2 j)
  refine e.trans ((pay_rows (iblk1 V c 0 t) (iblk1 V c 1 t) (iblk1 V c 2 t) (iblk1 V c 3 t) (iblk1 V c 4 t) (iblk1 V c 5 t)
    (V c main_call0_v23) (V c main_call0_v41) (V c main_call0_v42) (V c main_call0_v43) (V c main_call0_v44) (V c main_arg12)
    (rowOf t) (blk_0 V c t) (blk_1 V c t) (blk_2 V c t) (blk_3 V c t) (blk_4 V c t) (blk_5 V c t) (j 0) (j 1)).trans ?_)
  refine congrArg (dense true (V c main_call0_v23) (V c main_call0_v41) (V c main_call0_v42) (V c main_call0_v43) (V c main_call0_v44) (V c main_arg12)) ?_
  obtain ⟨-, -, -, -, -, -, -, -, -, -, -, e0, e1⟩ := idx_facts t
  funext a; apply Fin.ext
  match a with
  | ⟨0, _⟩ => show t.val * 1024 + (j 0).val = win1_6.index t (0 : Fin 2) * 1024 + 1 * (j 0).val; omega
  | ⟨1, _⟩ => show (j 1).val = win1_6.index t (1 : Fin 2) * 256 + 1 * (j 1).val; omega

/-- An index of the output array is in point t's block iff each coordinate is in the block's range. -/
theorem mem_blk (t : Fin cfg1.N) (i : S5120x256.Idx) :
    i ∈ ((cfg1.win 6).blk t).view.set ↔ ∀ a : Fin 2, win1_6.index t a * S1024x256.size a ≤ (i a).val
      ∧ (i a).val < win1_6.index t a * S1024x256.size a + S1024x256.size a := by
  show i ∈ ((View.whole main_call0_v45).slice (win1_6.rect t)).set ↔ _
  rw [View.set_slice_whole, Rect.mem_set_unit]
  exact Iff.rfl

/-- Every output entry is in the block of the point that owns its row: point (row / 1024). -/
theorem cover (i : S5120x256.Idx) :
    ∃ t : Fin cfg1.N, (cfg1.win 6).flush t = true ∧ i ∈ ((cfg1.win 6).blk t).view.set := by
  have hi0 : (i 0).val < 5120 := (i 0).isLt
  have hi1 : (i 1).val < 256 := (i 1).isLt
  have hN : cfg1.N = 5 := N_1
  let t : Fin cfg1.N := ⟨(i 0).val / 1024, by omega⟩
  have ht : t.val = (i 0).val / 1024 := rfl
  obtain ⟨-, -, -, -, -, -, -, -, -, -, -, e0, e1⟩ := idx_facts t
  refine ⟨t, flush1_6 t, ?_⟩
  rw [mem_blk]
  intro a
  match a with
  | ⟨0, _⟩ =>
    show win1_6.index t (0 : Fin 2) * 1024 ≤ (i 0).val ∧ (i 0).val < win1_6.index t (0 : Fin 2) * 1024 + 1024
    omega
  | ⟨1, _⟩ =>
    show win1_6.index t (1 : Fin 2) * 256 ≤ (i 1).val ∧ (i 1).val < win1_6.index t (1 : Fin 2) * 256 + 256
    omega

/-- THE OUTPUT ARRAY after the region: the dense stage of the arrays the region found. -/
theorem arr (c : Dev nD) :
    (dat1 V c).arrAt 6 cfg1.N
      = dense true (V c main_call0_v23) (V c main_call0_v41) (V c main_call0_v42) (V c main_call0_v43) (V c main_call0_v44) (V c main_arg12) :=
  (dat1 V c).arrAt_eq_of_cover 6 _ (fun t _ => flushed V c t) cover

end Cert.Sage.Region1

end
-- ==== Proof.Region2.lean ====
/-
  Region 2: the last layer's dense stage, from blocks to the whole array.

  The pipeline walks the 1024 destination rows in 2 blocks of 512 rows. At block t the body reads rows
  [512 t, 512 t + 512) of the node features, of the neighbour sums and of the neighbour counts, and the whole weight
  matrices and bias, and writes rows [512 t, 512 t + 512) of the output: each entry is the dense stage's entry of the
  WHOLE arrays at that row. The 2 blocks tile the output, so after the run the output array is the dense stage of the
  arrays the region found.
-/
import proofs.«181663_j61572651155594_2_alg».proof.Proof.Gen.KernelIdeal.Frame
import proofs.«181663_j61572651155594_2_alg».proof.Proof.Spec
import proofs.«181663_j61572651155594_2_alg».proof.Proof.BodyValue
import Idealize.ShloMosaic.Lib.Pipeline.Value
import Idealize.ShloMosaic.Lib.ValueIdx

set_option maxRecDepth 16384

noncomputable section

namespace Cert.Sage.Region2

open Cert.KernelIdeal Cert.KernelIdeal.Gen Cert.Sage Cert.Sage.Body
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows move with the point, block column 0; the weights and
    the bias stay at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- The entry of a block's payload is the dense stage's entry of the whole arrays, when the loaded blocks are the
    arrays' rows under a row map ι and the weights and bias are loaded whole. -/
theorem pay_rows (x0 x1 : Vec Ideal S512x256 .f32) (x2 : Vec Ideal S512x1 .f32) (x3 x4 : Vec Ideal S256x47 .bf16)
    (x5 : Vec Ideal S47 .f32)
    (A0 A1 : S1024x256.Idx → EReal) (A2 : S1024x1.Idx → EReal) (A3 A4 : S256x47.Idx → EReal) (A5 : S47.Idx → EReal)
    (ι : Fin 512 → Fin 1024)
    (h0 : ∀ (p : Fin 512) (k : Fin 256), x0 (ix2 p k) = A0 (ix2 (ι p) k))
    (h1 : ∀ (p : Fin 512) (k : Fin 256), x1 (ix2 p k) = A1 (ix2 (ι p) k))
    (h2 : ∀ (p : Fin 512), x2 (ix2 p (0 : Fin 1)) = A2 (ix2 (ι p) (0 : Fin 1)))
    (h3 : x3 = A3) (h4 : x4 = A4) (h5 : x5 = A5) (p : Fin 512) (q : Fin 47) :
    k2_pay1 (F := Ideal) x0 x1 x2 x3 x4 x5 (ix2 p q) = dense false A0 A1 A2 A3 A4 A5 (ix2 (ι p) q) := by
  subst h3 h4 h5
  rw [pay2_apply, dense_apply]
  unfold denseAt
  simp only [h0, h1, h2]

/-- Row p of block t is row 512 t + p of the array. -/
def rowOf (t : Fin cfg2.N) (p : Fin 512) : Fin 1024 :=
  ⟨t.val * 512 + p.val, by have ht := t.isLt; have hN : cfg2.N = 2 := N_2; omega⟩

/-- The node-feature window's block at t is rows [512 t, 512 t + 512) of its array. -/
theorem blk_0 (c : Dev nD) (t : Fin cfg2.N) (p : Fin 512) (k : Fin 256) :
    iblk2 V c 0 t (ix2 p k) = V c main_call0_v46 (ix2 (rowOf t p) k) := by
  show V c main_call0_v46 (((cfg2.win 0).blk t).view.emb (ix2 p k)) = _
  refine congrArg (V c main_call0_v46) ?_
  obtain ⟨e0, e1, -⟩ := idx_facts t
  funext a; apply Fin.ext
  match a with
  | ⟨0, _⟩ => show win2_0.index t (0 : Fin 2) * 512 + 1 * p.val = t.val * 512 + p.val; omega
  | ⟨1, _⟩ => show win2_0.index t (1 : Fin 2) * 256 + 1 * k.val = k.val; omega

/-- The neighbour-sum window's block at t is rows [512 t, 512 t + 512) of its array. -/
theorem blk_1 (c : Dev nD) (t : Fin cfg2.N) (p : Fin 512) (k : Fin 256) :
    iblk2 V c 1 t (ix2 p k) = V c main_call0_v64 (ix2 (rowOf t p) k) := by
  show V c main_call0_v64 (((cfg2.win 1).blk t).view.emb (ix2 p k)) = _
  refine congrArg (V c main_call0_v64) ?_
  obtain ⟨-, -, e0, e1, -⟩ := idx_facts t
  funext a; apply Fin.ext
  match a with
  | ⟨0, _⟩ => show win2_1.index t (0 : Fin 2) * 512 + 1 * p.val = t.val * 512 + p.val; omega
  | ⟨1, _⟩ => show win2_1.index t (1 : Fin 2) * 256 + 1 * k.val = k.val; omega

/-- The neighbour-count window's block at t is rows [512 t, 512 t + 512) of its one-column array. -/
theorem blk_2 (c : Dev nD) (t : Fin cfg2.N) (p : Fin 512) :
    iblk2 V c 2 t (ix2 p (0 : Fin 1)) = V c main_call0_v65 (ix2 (rowOf t p) (0 : Fin 1)) := by
  show V c main_call0_v65 (((cfg2.win 2).blk t).view.emb (ix2 p (0 : Fin 1))) = _
  refine congrArg (V c main_call0_v65) ?_
  obtain ⟨-, -, -, -, e0, e1, -⟩ := idx_facts t
  funext a; apply Fin.ext
  match a with
  | ⟨0, _⟩ => show win2_2.index t (0 : Fin 2) * 512 + 1 * p.val = t.val * 512 + p.val; omega
  | ⟨1, _⟩ => show win2_2.index t (1 : Fin 2) * 1 + 1 * 0 = 0; omega

/-- The first weight matrix is loaded whole at every point. -/
theorem blk_3 (c : Dev nD) (t : Fin cfg2.N) : iblk2 V c 3 t = V c main_call0_v66 := by
  funext y
  show V c main_call0_v66 (((cfg2.win 3).blk t).view.emb y) = V c main_call0_v66 y
  refine congrArg (V c main_call0_v66) ?_
  obtain ⟨-, -, -, -, -, -, e0, e1, -⟩ := idx_facts t
  funext a; apply Fin.ext
  match a with
  | ⟨0, _⟩ => show win2_3.index t (0 : Fin 2) * 256 + 1 * (y 0).val = (y 0).val; omega
  | ⟨1, _⟩ => show win2_3.index t (1 : Fin 2) * 47 + 1 * (y 1).val = (y 1).val; omega

/-- The second weight matrix is loaded whole at every point. -/
theorem blk_4 (c : Dev nD) (t : Fin cfg2.N) : iblk2 V c 4 t = V c main_call0_v67 := by
  funext y
  show V c main_call0_v67 (((cfg2.win 4).blk t).view.emb y) = V c main_call0_v67 y
  refine congrArg (V c main_call0_v67) ?_
  obtain ⟨-, -, -, -, -, -, -, -, e0, e1, -⟩ := idx_facts t
  funext a; apply Fin.ext
  match a with
  | ⟨0, _⟩ => show win2_4.index t (0 : Fin 2) * 256 + 1 * (y 0).val = (y 0).val; omega
  | ⟨1, _⟩ => show win2_4.index t (1 : Fin 2) * 47 + 1 * (y 1).val = (y 1).val; omega

/-- The bias is loaded whole at every point. -/
theorem blk_5 (c : Dev nD) (t : Fin cfg2.N) : iblk2 V c 5 t = V c main_arg15 := by
  funext y
  show V c main_arg15 (((cfg2.win 5).blk t).view.emb y) = V c main_arg15 y
  refine congrArg (V c main_arg15) ?_
  obtain ⟨-, -, -, -, -, -, -, -, -, -, e0, -⟩ := idx_facts t
  funext a; apply Fin.ext
  match a with
  | ⟨0, _⟩ => show win2_5.index t (0 : Fin 1) * 47 + 1 * (y 0).val = (y 0).val; omega

/-- WHAT POINT t WRITES BACK is block t of the dense stage of the arrays the region found. -/
theorem flushed (c : Dev nD) (t : Fin cfg2.N) :
    (dat2 V c).flushed 6 t = ((cfg2.win 6).blk t).view.read (Elt Ideal)
      (dense false (V c main_call0_v46) (V c main_call0_v64) (V c main_call0_v65) (V c main_call0_v66) (V c main_call0_v67) (V c main_arg15)) := by
  show (cfg2.win 6).cut (grid2.coords t) ((dat2 V c).after 6 t) = _
  rw [after2_6]
  unfold out2_6
  rw [View.canon_unit_zero hz2]
  simp only [View.ld_unit_zero (S := S512x256) hz2, View.ld_unit_zero (S := S512x1) hz2,
    View.ld_unit_zero (S := S256x47) hz2, View.ld_unit_zero (S := S47) hz1]
  funext j
  show k2_pay1 (iblk2 V c 0 t) (iblk2 V c 1 t) (iblk2 V c 2 t) (iblk2 V c 3 t) (iblk2 V c 4 t) (iblk2 V c 5 t) j
    = dense false (V c main_call0_v46) (V c main_call0_v64) (V c main_call0_v65) (V c main_call0_v66) (V c main_call0_v67) (V c main_arg15)
        (((cfg2.win 6).blk t).view.emb j)
  have e : k2_pay1 (iblk2 V c 0 t) (iblk2 V c 1 t) (iblk2 V c 2 t) (iblk2 V c 3 t) (iblk2 V c 4 t) (iblk2 V c 5 t) j
      = k2_pay1 (iblk2 V c 0 t) (iblk2 V c 1 t) (iblk2 V c 2 t) (iblk2 V c 3 t) (iblk2 V c 4 t) (iblk2 V c 5 t) (ix2 (j 0) (j 1)) :=
    congrArg _ (eq_ix2 j)
  refine e.trans ((pay_rows (iblk2 V c 0 t) (iblk2 V c 1 t) (iblk2 V c 2 t) (iblk2 V c 3 t) (iblk2 V c 4 t) (iblk2 V c 5 t)
    (V c main_call0_v46) (V c main_call0_v64) (V c main_call0_v65) (V c main_call0_v66) (V c main_call0_v67) (V c main_arg15)
    (rowOf t) (blk_0 V c t) (blk_1 V c t) (blk_2 V c t) (blk_3 V c t) (blk_4 V c t) (blk_5 V c t) (j 0) (j 1)).trans ?_)
  refine congrArg (dense false (V c main_call0_v46) (V c main_call0_v64) (V c main_call0_v65) (V c main_call0_v66) (V c main_call0_v67) (V c main_arg15)) ?_
  obtain ⟨-, -, -, -, -, -, -, -, -, -, -, e0, e1⟩ := idx_facts t
  funext a; apply Fin.ext
  match a with
  | ⟨0, _⟩ => show t.val * 512 + (j 0).val = win2_6.index t (0 : Fin 2) * 512 + 1 * (j 0).val; omega
  | ⟨1, _⟩ => show (j 1).val = win2_6.index t (1 : Fin 2) * 47 + 1 * (j 1).val; omega

/-- An index of the output array is in point t's block iff each coordinate is in the block's range. -/
theorem mem_blk (t : Fin cfg2.N) (i : S1024x47.Idx) :
    i ∈ ((cfg2.win 6).blk t).view.set ↔ ∀ a : Fin 2, win2_6.index t a * S512x47.size a ≤ (i a).val
      ∧ (i a).val < win2_6.index t a * S512x47.size a + S512x47.size a := by
  show i ∈ ((View.whole main_v0).slice (win2_6.rect t)).set ↔ _
  rw [View.set_slice_whole, Rect.mem_set_unit]
  exact Iff.rfl

/-- Every output entry is in the block of the point that owns its row: point (row / 512). -/
theorem cover (i : S1024x47.Idx) :
    ∃ t : Fin cfg2.N, (cfg2.win 6).flush t = true ∧ i ∈ ((cfg2.win 6).blk t).view.set := by
  have hi0 : (i 0).val < 1024 := (i 0).isLt
  have hi1 : (i 1).val < 47 := (i 1).isLt
  have hN : cfg2.N = 2 := N_2
  let t : Fin cfg2.N := ⟨(i 0).val / 512, by omega⟩
  have ht : t.val = (i 0).val / 512 := rfl
  obtain ⟨-, -, -, -, -, -, -, -, -, -, -, e0, e1⟩ := idx_facts t
  refine ⟨t, flush2_6 t, ?_⟩
  rw [mem_blk]
  intro a
  match a with
  | ⟨0, _⟩ =>
    show win2_6.index t (0 : Fin 2) * 512 ≤ (i 0).val ∧ (i 0).val < win2_6.index t (0 : Fin 2) * 512 + 512
    omega
  | ⟨1, _⟩ =>
    show win2_6.index t (1 : Fin 2) * 47 ≤ (i 1).val ∧ (i 1).val < win2_6.index t (1 : Fin 2) * 47 + 47
    omega

/-- THE OUTPUT ARRAY after the region: the dense stage of the arrays the region found. -/
theorem arr (c : Dev nD) :
    (dat2 V c).arrAt 6 cfg2.N
      = dense false (V c main_call0_v46) (V c main_call0_v64) (V c main_call0_v65) (V c main_call0_v66) (V c main_call0_v67) (V c main_arg15) :=
  (dat2 V c).arrAt_eq_of_cover 6 _ (fun t _ => flushed V c t) cover

end Cert.Sage.Region2

end
-- ==== Proof.KernelValue.lean ====
/-
  The kernel program's result as one function of its arguments.

  After the last region the result array is the last region's output: the dense stage of what that region found in its
  windows' arrays. Those are the head rows, the neighbour sums and the neighbour counts of the previous region's output,
  and so on down to the arguments: the result is the three layers composed. The kernel program wraps negative
  destination row numbers before its scatter-add; where every destination row number is non-negative the wrapped number
  is the number itself, and the result is the network's.
-/
import proofs.«181663_j61572651155594_2_alg».proof.Proof.Gen.KernelIdeal.Frame
import proofs.«181663_j61572651155594_2_alg».proof.Proof.Net
import proofs.«181663_j61572651155594_2_alg».proof.Proof.AggValue
import proofs.«181663_j61572651155594_2_alg».proof.Proof.EntryValue0
import proofs.«181663_j61572651155594_2_alg».proof.Proof.EntryValue1
import proofs.«181663_j61572651155594_2_alg».proof.Proof.EntryValue2
import proofs.«181663_j61572651155594_2_alg».proof.Proof.Region0
import proofs.«181663_j61572651155594_2_alg».proof.Proof.Region1
import proofs.«181663_j61572651155594_2_alg».proof.Proof.Region2

set_option maxRecDepth 16384

noncomputable section

namespace Cert.Sage.KernelValue

open Cert.KernelIdeal Cert.KernelIdeal.Gen Cert.Sage Cert.Sage.Agg Cert.Sage.Entry
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- Region 0's output array: the first layer of the arguments. -/
theorem out0 (c : Dev nD)
    (hd0 : ∀ e : Fin 768000, 0 ≤ ((m ((c : Thread nD τ).loc main_arg2) : IVec S768000 32) (ix1 e)).toInt) :
    (W2 m ρ c (Proc.devRef .tc main_call0_v22) : S51200x256.Idx → EReal)
      = layer true (Ns := 700000) (Nd := 51200) (by omega) (by omega) (m ((c : Thread nD τ).loc main_arg0))
          (fun e : Fin 768000 => (wrapRow 700000#32 (((m ((c : Thread nD τ).loc main_arg1)) : IVec S768000 32) (ix1 e))).toInt)
          (fun e : Fin 768000 => (((m ((c : Thread nD τ).loc main_arg2)) : IVec S768000 32) (ix1 e)).toInt)
          (m ((c : Thread nD τ).loc main_arg7)) (m ((c : Thread nD τ).loc main_arg8)) (m ((c : Thread nD τ).loc main_arg9)) := by
  have h0 : W2 m ρ c (Proc.devRef .tc main_call0_v22) = (dat0 (V1 m ρ) c).arrAt 6 cfg0.N := W2_arr m ρ c 6
  have e0 : (fun e : Fin 768000 => (wrapRow 51200#32 (((m ((c : Thread nD τ).loc main_arg2)) : IVec S768000 32) (ix1 e))).toInt)
      = fun e : Fin 768000 => (((m ((c : Thread nD τ).loc main_arg2)) : IVec S768000 32) (ix1 e)).toInt :=
    funext fun e => by rw [wrap_of_nonneg _ _ (hd0 e)]
  rw [h0, Region0.arr, V1_v0, V1_v18, V1_v19, V1_v20, V1_v21, V1_arg9, e0]
  rfl

/-- Region 1's output array: the second layer of region 0's output array. -/
theorem out1 (c : Dev nD)
    (hd1 : ∀ e : Fin 51200, 0 ≤ ((m ((c : Thread nD τ).loc main_arg4) : IVec S51200 32) (ix1 e)).toInt) :
    (W4 m ρ c (Proc.devRef .tc main_call0_v45) : S5120x256.Idx → EReal)
      = layer true (Ns := 51200) (Nd := 5120) (by omega) (by omega)
          (W2 m ρ c (Proc.devRef .tc main_call0_v22) : S51200x256.Idx → EReal)
          (fun e : Fin 51200 => (wrapRow 51200#32 (((m ((c : Thread nD τ).loc main_arg3)) : IVec S51200 32) (ix1 e))).toInt)
          (fun e : Fin 51200 => (((m ((c : Thread nD τ).loc main_arg4)) : IVec S51200 32) (ix1 e)).toInt)
          (m ((c : Thread nD τ).loc main_arg10)) (m ((c : Thread nD τ).loc main_arg11)) (m ((c : Thread nD τ).loc main_arg12)) := by
  have h1 : W4 m ρ c (Proc.devRef .tc main_call0_v45) = (dat1 (V3 m ρ) c).arrAt 6 cfg1.N := W4_arr m ρ c 6
  have e1 : (fun e : Fin 51200 => (wrapRow 5120#32 (((m ((c : Thread nD τ).loc main_arg4)) : IVec S51200 32) (ix1 e))).toInt)
      = fun e : Fin 51200 => (((m ((c : Thread nD τ).loc main_arg4)) : IVec S51200 32) (ix1 e)).toInt :=
    funext fun e => by rw [wrap_of_nonneg _ _ (hd1 e)]
  rw [h1, Region1.arr, V3_v23, V3_v41, V3_v42, V3_v43, V3_v44, V3_arg12, e1]
  rfl

/-- Region 2's output array, the program's result: the last layer of region 1's output array. -/
theorem out2 (c : Dev nD)
    (hd2 : ∀ e : Fin 5120, 0 ≤ ((m ((c : Thread nD τ).loc main_arg6) : IVec S5120 32) (ix1 e)).toInt) :
    (W6 m ρ c (Proc.devRef .tc main_v0) : S1024x47.Idx → EReal)
      = layer false (Ns := 5120) (Nd := 1024) (by omega) (by omega)
          (W4 m ρ c (Proc.devRef .tc main_call0_v45) : S5120x256.Idx → EReal)
          (fun e : Fin 5120 => (wrapRow 5120#32 (((m ((c : Thread nD τ).loc main_arg5)) : IVec S5120 32) (ix1 e))).toInt)
          (fun e : Fin 5120 => (((m ((c : Thread nD τ).loc main_arg6)) : IVec S5120 32) (ix1 e)).toInt)
          (m ((c : Thread nD τ).loc main_arg13)) (m ((c : Thread nD τ).loc main_arg14)) (m ((c : Thread nD τ).loc main_arg15)) := by
  have h2 : W6 m ρ c (Proc.devRef .tc main_v0) = (dat2 (V5 m ρ) c).arrAt 6 cfg2.N := W6_arr m ρ c 6
  have e2 : (fun e : Fin 5120 => (wrapRow 1024#32 (((m ((c : Thread nD τ).loc main_arg6)) : IVec S5120 32) (ix1 e))).toInt)
      = fun e : Fin 5120 => (((m ((c : Thread nD τ).loc main_arg6)) : IVec S5120 32) (ix1 e)).toInt :=
    funext fun e => by rw [wrap_of_nonneg _ _ (hd2 e)]
  rw [h2, Region2.arr, V5_v46, V5_v64, V5_v65, V5_v66, V5_v67, V5_arg15, e2]
  rfl

/-- The result buffer after the last region, under non-negative destination row numbers: the network of the
    arguments. -/
theorem kernel_value (c : Dev nD)
    (hd0 : ∀ e : Fin 768000, 0 ≤ ((m ((c : Thread nD τ).loc main_arg2) : IVec S768000 32) (ix1 e)).toInt)
    (hd1 : ∀ e : Fin 51200, 0 ≤ ((m ((c : Thread nD τ).loc main_arg4) : IVec S51200 32) (ix1 e)).toInt)
    (hd2 : ∀ e : Fin 5120, 0 ≤ ((m ((c : Thread nD τ).loc main_arg6) : IVec S5120 32) (ix1 e)).toInt) :
    (W6 m ρ c (Proc.devRef .tc main_v0) : S1024x47.Idx → EReal)
      = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [out2 m ρ c hd2, out1 m ρ c hd1, out0 m ρ c hd0]
  rfl

end Cert.Sage.KernelValue

end
-- ==== Proof.RefGeneric.lean ====
/-
  One layer of the reference, over general extents.

  A layer gathers the source rows of its input table (Ns rows of width Fi) for its E edges, adds them up per
  destination row (a scatter-add of the gathered rows into an array of zeros, Nd rows), counts the edges per
  destination (a scatter-add of a column of ones into a column of zeros), and combines the destination's own row, the
  mean of its neighbours and the bias into the dense stage. The three statements below say, over general extents, that
  these are the neighbour sums, the neighbour counts and the layer of the shared specification. The edge lists enter
  through what the two index columns read at (e, 0).
-/
import proofs.«181663_j61572651155594_2_alg».proof.Proof.Spec
import proofs.«181663_j61572651155594_2_alg».proof.Proof.LibGatherRows
import proofs.«181663_j61572651155594_2_alg».proof.Proof.LibSegmentSum
import Idealize.ShloMosaic.Lib.Pipeline.Value

noncomputable section

namespace Cert.Sage.Ref

open Cert.Sage Idealize.ShloMosaic Idealize.ShloMosaic.ValueIdx
open Cert.Lib.GatherRows Cert.Lib.SegmentSum

variable {Ns Nd E Fi Fo : Nat}

/-- Edges filtered by what the index column reads are the edges filtered by the destination list. -/
theorem filter_dst (S : IVec ⟨2, ![E, 1]⟩ 32) (s : Fin E → Int)
    (hs : ∀ e, (S (ix2 e (0 : Fin 1))).toInt = s e) (n : Int) :
    Finset.univ.filter (fun e : Fin E => (S (ix2 e (0 : Fin 1))).toInt = n)
      = Finset.univ.filter (fun e : Fin E => s e = n) :=
  Finset.filter_congr (fun e _ => by rw [hs e])

/-- THE NEIGHBOUR SUMS: the scatter-add of the gathered rows into an array of zeros. -/
theorem gen_msg (hNs : 0 < Ns)
    (wfG : GatherDims.WF ⟨2, ![Ns, Fi]⟩ ⟨2, ![E, 1]⟩ ⟨2, ![E, Fi]⟩ [1] [0] [] [0] [] 1 ![1, Fi])
    (wfS : ScatterDims.WF ⟨2, ![Nd, Fi]⟩ ⟨2, ![E, 1]⟩ ⟨2, ![E, Fi]⟩ [1] [0] [0] 1)
    (dG : GatherDims ⟨2, ![Ns, Fi]⟩ ⟨2, ![E, 1]⟩ ⟨2, ![E, Fi]⟩) (hG : dG = rowsDims Ns E Fi wfG)
    (dS : ScatterDims ⟨2, ![Nd, Fi]⟩ ⟨2, ![E, 1]⟩ ⟨2, ![E, Fi]⟩) (hS : dS = rowDims Nd E Fi wfS)
    (x : FVec Ideal ⟨2, ![Ns, Fi]⟩ .f32) (z : FVec Ideal ⟨2, ![Nd, Fi]⟩ .f32) (hz : ∀ i, z i = ZERO)
    (G S : IVec ⟨2, ![E, 1]⟩ 32) (g s : Fin E → Int)
    (hg : ∀ e, (G (ix2 e (0 : Fin 1))).toInt = g e) (hs : ∀ e, (S (ix2 e (0 : Fin 1))).toInt = s e) :
    Host.scatterAdd dS z S (Host.gather dG x G) = msgArr (Nd := Nd) hNs x g s := by
  subst hG hS
  funext i
  obtain ⟨n, c, rfl⟩ : ∃ (n : Fin Nd) (c : Fin Fi), i = ix2 n c :=
    ⟨⟨(i 0).val, idx2_lt0 i⟩, ⟨(i 1).val, idx2_lt1 i⟩, eq_ix2 i⟩
  refine (scatterAdd_apply wfS z S _ n c).trans ?_
  rw [hz, filter_dst S s hs]
  show ZERO + _ = ZERO + _
  congr 1
  refine Finset.sum_congr rfl (fun e _ => ?_)
  refine (gather_rows_apply wfG hNs x G e c).trans ?_
  have key : ∀ (a b : Int) (_ : a = b) (ha : min a.toNat (Ns - 1) < Ns) (hb : min b.toNat (Ns - 1) < Ns),
      x (ix2 ⟨min a.toNat (Ns - 1), ha⟩ c) = x (ix2 ⟨min b.toNat (Ns - 1), hb⟩ c) := by
    intro a b h ha hb; subst h; rfl
  exact key _ _ (hg e) _ _

/-- THE NEIGHBOUR COUNTS: the scatter-add of a column of ones into a column of zeros. -/
theorem gen_deg
    (wfS : ScatterDims.WF ⟨2, ![Nd, 1]⟩ ⟨2, ![E, 1]⟩ ⟨2, ![E, 1]⟩ [1] [0] [0] 1)
    (dS : ScatterDims ⟨2, ![Nd, 1]⟩ ⟨2, ![E, 1]⟩ ⟨2, ![E, 1]⟩) (hS : dS = rowDims Nd E 1 wfS)
    (z : FVec Ideal ⟨2, ![Nd, 1]⟩ .f32) (hz : ∀ i, z i = ZERO)
    (o : FVec Ideal ⟨2, ![E, 1]⟩ .f32) (ho : ∀ i, o i = ONE)
    (S : IVec ⟨2, ![E, 1]⟩ 32) (s : Fin E → Int) (hs : ∀ e, (S (ix2 e (0 : Fin 1))).toInt = s e) :
    Host.scatterAdd dS z S o = degArr (Nd := Nd) s := by
  subst hS
  funext i
  obtain ⟨n, c, rfl⟩ : ∃ (n : Fin Nd) (c : Fin 1), i = ix2 n c :=
    ⟨⟨(i 0).val, idx2_lt0 i⟩, ⟨(i 1).val, idx2_lt1 i⟩, eq_ix2 i⟩
  refine (scatterAdd_apply wfS z S o n c).trans ?_
  rw [hz, filter_dst S s hs]
  show ZERO + _ = ZERO + _
  congr 1
  exact Finset.sum_congr rfl (fun e _ => ho _)

/-- THE LAYER: an array whose entry (p, q) is the dense stage of the head rows, of the neighbour sums over the
    neighbour counts (at least one) and of the bias is the specification's layer. -/
theorem gen_layer (relu : Bool) (hle : Nd ≤ Ns) (hNs : 0 < Ns)
    (x : (⟨2, ![Ns, Fi]⟩ : Shape).Idx → EReal) (g s : Fin E → Int)
    (ws wn : (⟨2, ![Fi, Fo]⟩ : Shape).Idx → EReal) (b : (⟨1, ![Fo]⟩ : Shape).Idx → EReal)
    (out : (⟨2, ![Nd, Fo]⟩ : Shape).Idx → EReal)
    (hd nb : (⟨2, ![Nd, Fi]⟩ : Shape).Idx → EReal)
    (hhd : ∀ (p : Fin Nd) (k : Fin Fi), hd (ix2 p k) = headRows hle x (ix2 p k))
    (hnb : ∀ (p : Fin Nd) (k : Fin Fi), nb (ix2 p k)
      = Ideal.div (msgArr (Nd := Nd) hNs x g s (ix2 p k)) (max (degArr (Nd := Nd) s (ix2 p (0 : Fin 1))) ONE))
    (hout : ∀ (p : Fin Nd) (q : Fin Fo), out (ix2 p q)
      = act relu ((∑ k : Fin Fi, hd (ix2 p k) * ws (ix2 k q)) + (∑ k : Fin Fi, nb (ix2 p k) * wn (ix2 k q)) + b (ix1 q))) :
    out = layer relu hle hNs x g s ws wn b := by
  funext i
  obtain ⟨p, q, rfl⟩ : ∃ (p : Fin Nd) (q : Fin Fo), i = ix2 p q :=
    ⟨⟨(i 0).val, idx2_lt0 i⟩, ⟨(i 1).val, idx2_lt1 i⟩, eq_ix2 i⟩
  rw [hout p q]
  show _ = denseAt relu (headRows hle x) (msgArr hNs x g s) (degArr s) ws wn b p q
  unfold denseAt
  simp only [hhd, hnb]

end Cert.Sage.Ref

end
-- ==== Proof.RefLayer0.lean ====
/-
  Layer 0 of the reference, read entry by entry.

  The layer's input is a table of 700000 rows of width 128 (the input table). Its 768000 edges carry a source row number
  and a destination row number; a negative source row number counts from the end of the table. The destination
  nodes are the first 51200 rows. The reference gathers the source rows, adds them up per destination (a segment
  sum into a zero array), counts the edges per destination (a segment sum of ones), divides the row sums by the
  count (at least one), and adds the two matrix products and the bias, rectified. Entry by entry that is the
  layer of the shared specification: each stage is read at an index and handed to the statements over general extents.
-/
import proofs.«181663_j61572651155594_2_alg».proof.Proof.Spec
import proofs.«181663_j61572651155594_2_alg».proof.Proof.Gen.ReferenceIdeal.Read
import proofs.«181663_j61572651155594_2_alg».proof.Proof.RefGeneric

noncomputable section

namespace Cert.Sage.Ref

open Cert.ReferenceIdeal Cert.ReferenceIdeal.Read Cert.Sage Idealize.ShloMosaic Idealize.ShloMosaic.ValueIdx

/-- The gather's index column at (e, 0): the e-th source row number, wrapped. -/
theorem l0_gcol (x1 : (⟨S768000, .i32⟩ : BufTy).Contents (Elt Ideal)) (e : Fin 768000) :
    (val_main_v6 (F := Ideal) x1) (ix2 e (0 : Fin 1)) = wrapRow 700000#32 (x1 (ix1 e)) := by
  rw [val_main_v6_apply, val_main_v5_apply, val_main_v2_apply, val_main_v4_apply, val_main_v1_apply,
    val_main_v3_apply, val_main_c_apply, val_main_c_0_apply]
  have h : idx_main_v6 (ix2 e (0 : Fin 1)) = ix1 e := by funext a; match a with | ⟨0, _⟩ => rfl
  rw [h]; rfl

/-- The row scatter's index column at (e, 0): the e-th destination row number. -/
theorem l0_scol (x2 : (⟨S768000, .i32⟩ : BufTy).Contents (Elt Ideal)) (e : Fin 768000) :
    (val_main_v9 (F := Ideal) x2) (ix2 e (0 : Fin 1)) = x2 (ix1 e) := by
  rw [val_main_v9_apply]
  have h : idx_main_v9 (ix2 e (0 : Fin 1)) = ix1 e := by funext a; match a with | ⟨0, _⟩ => rfl
  rw [h]

/-- The count scatter's index column at (e, 0): the e-th destination row number. -/
theorem l0_scol1 (x2 : (⟨S768000, .i32⟩ : BufTy).Contents (Elt Ideal)) (e : Fin 768000) :
    (val_main_v13 (F := Ideal) x2) (ix2 e (0 : Fin 1)) = x2 (ix1 e) := by
  rw [val_main_v13_apply]
  have h : idx_main_v13 (ix2 e (0 : Fin 1)) = ix1 e := by funext a; match a with | ⟨0, _⟩ => rfl
  rw [h]

/-- The array scattered into is zero everywhere. -/
theorem l0_z2 (i : S51200x128.Idx) : (val_main_v8 (F := Ideal)) i = ZERO := by
  rw [val_main_v8_apply, val_main_cst_apply]; rfl

/-- The column scattered into is zero everywhere. -/
theorem l0_z1 (i : S51200x1.Idx) : (val_main_v12 (F := Ideal)) i = ZERO := by
  rw [val_main_v12_apply, val_main_cst_2_apply]; rfl

/-- The column scattered is one everywhere. -/
theorem l0_ones (i : S768000x1.Idx) : (val_main_v11 (F := Ideal)) i = ONE := by
  rw [val_main_v11_apply, val_main_cst_1_apply]; rfl

/-- The neighbour sums are the specification's. -/
theorem l0_msg (x0 : (⟨S700000x128, .f32⟩ : BufTy).Contents (Elt Ideal)) (x1 x2 : (⟨S768000, .i32⟩ : BufTy).Contents (Elt Ideal)) :
    (val_main_v10 (F := Ideal) x0 x1 x2) = (msgArr (Nd := 51200) (by omega : 0 < 700000) x0 (fun e : Fin 768000 => (wrapRow 700000#32 (x1 (ix1 e))).toInt) (fun e : Fin 768000 => (x2 (ix1 e)).toInt)) := by
  unfold val_main_v10 val_main_v7
  exact gen_msg (by omega) Facts₀.gather_S700000x128_S768000x1_S768000x128_1_0_n_n_0_1_1128_wf Facts₀.scatter_S51200x128_S768000x1_S768000x128_1_0_0_1_wf
    gather_S700000x128_S768000x1_S768000x128_1_0_n_n_0_1_1128 rfl scatter_S51200x128_S768000x1_S768000x128_1_0_0_1 rfl
    x0 (val_main_v8 (F := Ideal)) l0_z2 (val_main_v6 (F := Ideal) x1) (val_main_v9 (F := Ideal) x2) _ _
    (fun e => congrArg BitVec.toInt (l0_gcol x1 e)) (fun e => congrArg BitVec.toInt (l0_scol x2 e))

/-- The neighbour counts are the specification's. -/
theorem l0_deg (x2 : (⟨S768000, .i32⟩ : BufTy).Contents (Elt Ideal)) :
    (val_main_v14 (F := Ideal) x2) = (degArr (Nd := 51200) (fun e : Fin 768000 => (x2 (ix1 e)).toInt)) := by
  unfold val_main_v14
  exact gen_deg Facts₀.scatter_S51200x1_S768000x1_S768000x1_1_0_0_1_wf scatter_S51200x1_S768000x1_S768000x1_1_0_0_1 rfl
    (val_main_v12 (F := Ideal)) l0_z1 (val_main_v11 (F := Ideal)) l0_ones (val_main_v13 (F := Ideal) x2) _
    (fun e => congrArg BitVec.toInt (l0_scol1 x2 e))

/-- The mean of the neighbours at (p, k): the neighbour sum over the count, the count at least one. -/
theorem l0_neigh (x0 : (⟨S700000x128, .f32⟩ : BufTy).Contents (Elt Ideal)) (x1 x2 : (⟨S768000, .i32⟩ : BufTy).Contents (Elt Ideal)) (p : Fin 51200) (k : Fin 128) :
    (val_main_v18 (F := Ideal) x0 x1 x2) (ix2 p k)
      = Ideal.div ((msgArr (Nd := 51200) (by omega : 0 < 700000) x0 (fun e : Fin 768000 => (wrapRow 700000#32 (x1 (ix1 e))).toInt) (fun e : Fin 768000 => (x2 (ix1 e)).toInt)) (ix2 p k)) (max ((degArr (Nd := 51200) (fun e : Fin 768000 => (x2 (ix1 e)).toInt)) (ix2 p (0 : Fin 1))) ONE) := by
  rw [val_main_v18_apply, val_main_v17_apply, val_main_v16_apply, val_main_v15_apply, val_main_cst_3_apply,
    l0_msg, l0_deg]
  have h : idx_main_v17 (ix2 p k) = ix2 p (0 : Fin 1) := by funext a; match a with | ⟨0, _⟩ => rfl | ⟨1, _⟩ => rfl
  rw [h]; rfl

/-- The destination's own row at (p, k): the head of the input table. -/
theorem l0_head (x0 : (⟨S700000x128, .f32⟩ : BufTy).Contents (Elt Ideal)) (p : Fin 51200) (k : Fin 128) :
    (val_main_v0 (F := Ideal) x0) (ix2 p k) = headRows (Nd := 51200) (by omega : 51200 ≤ 700000) x0 (ix2 p k) := by
  rw [val_main_v0_apply]
  have h : idx_main_v0 (ix2 p k) = ix2 (⟨p.val, lt_of_lt_of_le p.isLt (by omega)⟩ : Fin 700000) k := by funext a; match a with | ⟨0, _⟩ => rfl | ⟨1, _⟩ => rfl
  rw [h]; rfl

/-- The layer's last array at (p, q): the two products and the bias, rectified. -/
theorem l0_out (x0 : (⟨S700000x128, .f32⟩ : BufTy).Contents (Elt Ideal)) (x1 x2 : (⟨S768000, .i32⟩ : BufTy).Contents (Elt Ideal)) (x7 x8 : (⟨S128x256, .f32⟩ : BufTy).Contents (Elt Ideal)) (x9 : (⟨S256, .f32⟩ : BufTy).Contents (Elt Ideal)) (p : Fin 51200) (q : Fin 256) :
    (val_main_v25 (F := Ideal) x0 x1 x2 x7 x8 x9) (ix2 p q)
      = act true ((∑ k : Fin 128, (val_main_v0 (F := Ideal) x0) (ix2 p k) * x7 (ix2 k q))
          + (∑ k : Fin 128, (val_main_v18 (F := Ideal) x0 x1 x2) (ix2 p k) * x8 (ix2 k q)) + x9 (ix1 q)) := by
  rw [val_main_v25_apply, val_main_call0_v0_apply, val_main_call0_cst_apply, val_main_v24_apply, val_main_v21_apply, val_main_v19_apply, val_main_v20_apply,
    val_main_v23_apply, val_main_v22_apply]
  have hl1 : ∀ k : Fin 128, lidx_main_v19 (ix2 p q) k = ix2 p k := fun k => by funext a; match a with | ⟨0, _⟩ => rfl | ⟨1, _⟩ => rfl
  have hr1 : ∀ k : Fin 128, ridx_main_v19 (ix2 p q) k = ix2 k q := fun k => by funext a; match a with | ⟨0, _⟩ => rfl | ⟨1, _⟩ => rfl
  have hl2 : ∀ k : Fin 128, lidx_main_v20 (ix2 p q) k = ix2 p k := fun k => by funext a; match a with | ⟨0, _⟩ => rfl | ⟨1, _⟩ => rfl
  have hr2 : ∀ k : Fin 128, ridx_main_v20 (ix2 p q) k = ix2 k q := fun k => by funext a; match a with | ⟨0, _⟩ => rfl | ⟨1, _⟩ => rfl
  have hb : idx_main_v22 (idx_main_v23 (ix2 p q)) = ix1 q := by funext a; match a with | ⟨0, _⟩ => rfl
  simp only [hl1, hr1, hl2, hr2, hb]
  rfl

/-- LAYER 0: the reference's value after the layer is the specification's layer of the layer's input. -/
theorem layer0_eq (x0 : (⟨S700000x128, .f32⟩ : BufTy).Contents (Elt Ideal)) (x1 x2 : (⟨S768000, .i32⟩ : BufTy).Contents (Elt Ideal)) (x7 x8 : (⟨S128x256, .f32⟩ : BufTy).Contents (Elt Ideal)) (x9 : (⟨S256, .f32⟩ : BufTy).Contents (Elt Ideal)) :
    (val_main_v25 (F := Ideal) x0 x1 x2 x7 x8 x9)
      = layer true (Ns := 700000) (Nd := 51200) (by omega) (by omega) x0
          (fun e : Fin 768000 => (wrapRow 700000#32 (x1 (ix1 e))).toInt) (fun e : Fin 768000 => (x2 (ix1 e)).toInt) x7 x8 x9 :=
  gen_layer true (by omega) (by omega) x0 _ _ x7 x8 x9 (val_main_v25 (F := Ideal) x0 x1 x2 x7 x8 x9) (val_main_v0 (F := Ideal) x0) (val_main_v18 (F := Ideal) x0 x1 x2)
    (l0_head x0) (l0_neigh x0 x1 x2) (l0_out x0 x1 x2 x7 x8 x9)

end Cert.Sage.Ref

end
-- ==== Proof.RefLayer1.lean ====
/-
  Layer 1 of the reference, read entry by entry.

  The layer's input is a table of 51200 rows of width 256 (the layer before it). Its 51200 edges carry a source row number
  and a destination row number; a negative source row number counts from the end of the table. The destination
  nodes are the first 5120 rows. The reference gathers the source rows, adds them up per destination (a segment
  sum into a zero array), counts the edges per destination (a segment sum of ones), divides the row sums by the
  count (at least one), and adds the two matrix products and the bias, rectified. Entry by entry that is the
  layer of the shared specification: each stage is read at an index and handed to the statements over general extents.
-/
import proofs.«181663_j61572651155594_2_alg».proof.Proof.Spec
import proofs.«181663_j61572651155594_2_alg».proof.Proof.Gen.ReferenceIdeal.Read
import proofs.«181663_j61572651155594_2_alg».proof.Proof.RefGeneric

noncomputable section

namespace Cert.Sage.Ref

open Cert.ReferenceIdeal Cert.ReferenceIdeal.Read Cert.Sage Idealize.ShloMosaic Idealize.ShloMosaic.ValueIdx

/-- The gather's index column at (e, 0): the e-th source row number, wrapped. -/
theorem l1_gcol (x3 : (⟨S51200, .i32⟩ : BufTy).Contents (Elt Ideal)) (e : Fin 51200) :
    (val_main_v32 (F := Ideal) x3) (ix2 e (0 : Fin 1)) = wrapRow 51200#32 (x3 (ix1 e)) := by
  rw [val_main_v32_apply, val_main_v31_apply, val_main_v28_apply, val_main_v30_apply, val_main_v27_apply,
    val_main_v29_apply, val_main_c_4_apply, val_main_c_5_apply]
  have h : idx_main_v32 (ix2 e (0 : Fin 1)) = ix1 e := by funext a; match a with | ⟨0, _⟩ => rfl
  rw [h]; rfl

/-- The row scatter's index column at (e, 0): the e-th destination row number. -/
theorem l1_scol (x4 : (⟨S51200, .i32⟩ : BufTy).Contents (Elt Ideal)) (e : Fin 51200) :
    (val_main_v35 (F := Ideal) x4) (ix2 e (0 : Fin 1)) = x4 (ix1 e) := by
  rw [val_main_v35_apply]
  have h : idx_main_v35 (ix2 e (0 : Fin 1)) = ix1 e := by funext a; match a with | ⟨0, _⟩ => rfl
  rw [h]

/-- The count scatter's index column at (e, 0): the e-th destination row number. -/
theorem l1_scol1 (x4 : (⟨S51200, .i32⟩ : BufTy).Contents (Elt Ideal)) (e : Fin 51200) :
    (val_main_v39 (F := Ideal) x4) (ix2 e (0 : Fin 1)) = x4 (ix1 e) := by
  rw [val_main_v39_apply]
  have h : idx_main_v39 (ix2 e (0 : Fin 1)) = ix1 e := by funext a; match a with | ⟨0, _⟩ => rfl
  rw [h]

/-- The array scattered into is zero everywhere. -/
theorem l1_z2 (i : S5120x256.Idx) : (val_main_v34 (F := Ideal)) i = ZERO := by
  rw [val_main_v34_apply, val_main_cst_6_apply]; rfl

/-- The column scattered into is zero everywhere. -/
theorem l1_z1 (i : S5120x1.Idx) : (val_main_v38 (F := Ideal)) i = ZERO := by
  rw [val_main_v38_apply, val_main_cst_8_apply]; rfl

/-- The column scattered is one everywhere. -/
theorem l1_ones (i : S51200x1.Idx) : (val_main_v37 (F := Ideal)) i = ONE := by
  rw [val_main_v37_apply, val_main_cst_7_apply]; rfl

/-- The neighbour sums are the specification's. -/
theorem l1_msg (x0 : (⟨S700000x128, .f32⟩ : BufTy).Contents (Elt Ideal)) (x1 x2 : (⟨S768000, .i32⟩ : BufTy).Contents (Elt Ideal)) (x3 x4 : (⟨S51200, .i32⟩ : BufTy).Contents (Elt Ideal)) (x7 x8 : (⟨S128x256, .f32⟩ : BufTy).Contents (Elt Ideal)) (x9 : (⟨S256, .f32⟩ : BufTy).Contents (Elt Ideal)) :
    (val_main_v36 (F := Ideal) x0 x1 x2 x3 x4 x7 x8 x9) = (msgArr (Nd := 5120) (by omega : 0 < 51200) (val_main_v25 (F := Ideal) x0 x1 x2 x7 x8 x9) (fun e : Fin 51200 => (wrapRow 51200#32 (x3 (ix1 e))).toInt) (fun e : Fin 51200 => (x4 (ix1 e)).toInt)) := by
  unfold val_main_v36 val_main_v33
  exact gen_msg (by omega) Facts₀.gather_S51200x256_S51200x1_S51200x256_1_0_n_n_0_1_1256_wf Facts₀.scatter_S5120x256_S51200x1_S51200x256_1_0_0_1_wf
    gather_S51200x256_S51200x1_S51200x256_1_0_n_n_0_1_1256 rfl scatter_S5120x256_S51200x1_S51200x256_1_0_0_1 rfl
    (val_main_v25 (F := Ideal) x0 x1 x2 x7 x8 x9) (val_main_v34 (F := Ideal)) l1_z2 (val_main_v32 (F := Ideal) x3) (val_main_v35 (F := Ideal) x4) _ _
    (fun e => congrArg BitVec.toInt (l1_gcol x3 e)) (fun e => congrArg BitVec.toInt (l1_scol x4 e))

/-- The neighbour counts are the specification's. -/
theorem l1_deg (x4 : (⟨S51200, .i32⟩ : BufTy).Contents (Elt Ideal)) :
    (val_main_v40 (F := Ideal) x4) = (degArr (Nd := 5120) (fun e : Fin 51200 => (x4 (ix1 e)).toInt)) := by
  unfold val_main_v40
  exact gen_deg Facts₀.scatter_S5120x1_S51200x1_S51200x1_1_0_0_1_wf scatter_S5120x1_S51200x1_S51200x1_1_0_0_1 rfl
    (val_main_v38 (F := Ideal)) l1_z1 (val_main_v37 (F := Ideal)) l1_ones (val_main_v39 (F := Ideal) x4) _
    (fun e => congrArg BitVec.toInt (l1_scol1 x4 e))

/-- The mean of the neighbours at (p, k): the neighbour sum over the count, the count at least one. -/
theorem l1_neigh (x0 : (⟨S700000x128, .f32⟩ : BufTy).Contents (Elt Ideal)) (x1 x2 : (⟨S768000, .i32⟩ : BufTy).Contents (Elt Ideal)) (x3 x4 : (⟨S51200, .i32⟩ : BufTy).Contents (Elt Ideal)) (x7 x8 : (⟨S128x256, .f32⟩ : BufTy).Contents (Elt Ideal)) (x9 : (⟨S256, .f32⟩ : BufTy).Contents (Elt Ideal)) (p : Fin 5120) (k : Fin 256) :
    (val_main_v44 (F := Ideal) x0 x1 x2 x3 x4 x7 x8 x9) (ix2 p k)
      = Ideal.div ((msgArr (Nd := 5120) (by omega : 0 < 51200) (val_main_v25 (F := Ideal) x0 x1 x2 x7 x8 x9) (fun e : Fin 51200 => (wrapRow 51200#32 (x3 (ix1 e))).toInt) (fun e : Fin 51200 => (x4 (ix1 e)).toInt)) (ix2 p k)) (max ((degArr (Nd := 5120) (fun e : Fin 51200 => (x4 (ix1 e)).toInt)) (ix2 p (0 : Fin 1))) ONE) := by
  rw [val_main_v44_apply, val_main_v43_apply, val_main_v42_apply, val_main_v41_apply, val_main_cst_9_apply,
    l1_msg, l1_deg]
  have h : idx_main_v43 (ix2 p k) = ix2 p (0 : Fin 1) := by funext a; match a with | ⟨0, _⟩ => rfl | ⟨1, _⟩ => rfl
  rw [h]; rfl

/-- The destination's own row at (p, k): the head of the input table. -/
theorem l1_head (x0 : (⟨S700000x128, .f32⟩ : BufTy).Contents (Elt Ideal)) (x1 x2 : (⟨S768000, .i32⟩ : BufTy).Contents (Elt Ideal)) (x7 x8 : (⟨S128x256, .f32⟩ : BufTy).Contents (Elt Ideal)) (x9 : (⟨S256, .f32⟩ : BufTy).Contents (Elt Ideal)) (p : Fin 5120) (k : Fin 256) :
    (val_main_v26 (F := Ideal) x0 x1 x2 x7 x8 x9) (ix2 p k) = headRows (Nd := 5120) (by omega : 5120 ≤ 51200) (val_main_v25 (F := Ideal) x0 x1 x2 x7 x8 x9) (ix2 p k) := by
  rw [val_main_v26_apply]
  have h : idx_main_v26 (ix2 p k) = ix2 (⟨p.val, lt_of_lt_of_le p.isLt (by omega)⟩ : Fin 51200) k := by funext a; match a with | ⟨0, _⟩ => rfl | ⟨1, _⟩ => rfl
  rw [h]; rfl

/-- The layer's last array at (p, q): the two products and the bias, rectified. -/
theorem l1_out (x0 : (⟨S700000x128, .f32⟩ : BufTy).Contents (Elt Ideal)) (x1 x2 : (⟨S768000, .i32⟩ : BufTy).Contents (Elt Ideal)) (x3 x4 : (⟨S51200, .i32⟩ : BufTy).Contents (Elt Ideal)) (x7 x8 : (⟨S128x256, .f32⟩ : BufTy).Contents (Elt Ideal)) (x9 : (⟨S256, .f32⟩ : BufTy).Contents (Elt Ideal)) (x10 x11 : (⟨S256x256, .f32⟩ : BufTy).Contents (Elt Ideal)) (x12 : (⟨S256, .f32⟩ : BufTy).Contents (Elt Ideal)) (p : Fin 5120) (q : Fin 256) :
    (val_main_v51 (F := Ideal) x0 x1 x2 x3 x4 x7 x8 x9 x10 x11 x12) (ix2 p q)
      = act true ((∑ k : Fin 256, (val_main_v26 (F := Ideal) x0 x1 x2 x7 x8 x9) (ix2 p k) * x10 (ix2 k q))
          + (∑ k : Fin 256, (val_main_v44 (F := Ideal) x0 x1 x2 x3 x4 x7 x8 x9) (ix2 p k) * x11 (ix2 k q)) + x12 (ix1 q)) := by
  rw [val_main_v51_apply, val_main_call1_v0_apply, val_main_call1_cst_apply, val_main_v50_apply, val_main_v47_apply, val_main_v45_apply, val_main_v46_apply,
    val_main_v49_apply, val_main_v48_apply]
  have hl1 : ∀ k : Fin 256, lidx_main_v45 (ix2 p q) k = ix2 p k := fun k => by funext a; match a with | ⟨0, _⟩ => rfl | ⟨1, _⟩ => rfl
  have hr1 : ∀ k : Fin 256, ridx_main_v45 (ix2 p q) k = ix2 k q := fun k => by funext a; match a with | ⟨0, _⟩ => rfl | ⟨1, _⟩ => rfl
  have hl2 : ∀ k : Fin 256, lidx_main_v46 (ix2 p q) k = ix2 p k := fun k => by funext a; match a with | ⟨0, _⟩ => rfl | ⟨1, _⟩ => rfl
  have hr2 : ∀ k : Fin 256, ridx_main_v46 (ix2 p q) k = ix2 k q := fun k => by funext a; match a with | ⟨0, _⟩ => rfl | ⟨1, _⟩ => rfl
  have hb : idx_main_v48 (idx_main_v49 (ix2 p q)) = ix1 q := by funext a; match a with | ⟨0, _⟩ => rfl
  simp only [hl1, hr1, hl2, hr2, hb]
  rfl

/-- LAYER 1: the reference's value after the layer is the specification's layer of the layer's input. -/
theorem layer1_eq (x0 : (⟨S700000x128, .f32⟩ : BufTy).Contents (Elt Ideal)) (x1 x2 : (⟨S768000, .i32⟩ : BufTy).Contents (Elt Ideal)) (x3 x4 : (⟨S51200, .i32⟩ : BufTy).Contents (Elt Ideal)) (x7 x8 : (⟨S128x256, .f32⟩ : BufTy).Contents (Elt Ideal)) (x9 : (⟨S256, .f32⟩ : BufTy).Contents (Elt Ideal)) (x10 x11 : (⟨S256x256, .f32⟩ : BufTy).Contents (Elt Ideal)) (x12 : (⟨S256, .f32⟩ : BufTy).Contents (Elt Ideal)) :
    (val_main_v51 (F := Ideal) x0 x1 x2 x3 x4 x7 x8 x9 x10 x11 x12)
      = layer true (Ns := 51200) (Nd := 5120) (by omega) (by omega) (val_main_v25 (F := Ideal) x0 x1 x2 x7 x8 x9)
          (fun e : Fin 51200 => (wrapRow 51200#32 (x3 (ix1 e))).toInt) (fun e : Fin 51200 => (x4 (ix1 e)).toInt) x10 x11 x12 :=
  gen_layer true (by omega) (by omega) (val_main_v25 (F := Ideal) x0 x1 x2 x7 x8 x9) _ _ x10 x11 x12 (val_main_v51 (F := Ideal) x0 x1 x2 x3 x4 x7 x8 x9 x10 x11 x12) (val_main_v26 (F := Ideal) x0 x1 x2 x7 x8 x9) (val_main_v44 (F := Ideal) x0 x1 x2 x3 x4 x7 x8 x9)
    (l1_head x0 x1 x2 x7 x8 x9) (l1_neigh x0 x1 x2 x3 x4 x7 x8 x9) (l1_out x0 x1 x2 x3 x4 x7 x8 x9 x10 x11 x12)

end Cert.Sage.Ref

end
-- ==== Proof.RefLayer2.lean ====
/-
  Layer 2 of the reference, read entry by entry.

  The layer's input is a table of 5120 rows of width 256 (the layer before it). Its 5120 edges carry a source row number
  and a destination row number; a negative source row number counts from the end of the table. The destination
  nodes are the first 1024 rows. The reference gathers the source rows, adds them up per destination (a segment
  sum into a zero array), counts the edges per destination (a segment sum of ones), divides the row sums by the
  count (at least one), and adds the two matrix products and the bias. Entry by entry that is the
  layer of the shared specification: each stage is read at an index and handed to the statements over general extents.
-/
import proofs.«181663_j61572651155594_2_alg».proof.Proof.Spec
import proofs.«181663_j61572651155594_2_alg».proof.Proof.Gen.ReferenceIdeal.Read
import proofs.«181663_j61572651155594_2_alg».proof.Proof.RefGeneric

noncomputable section

namespace Cert.Sage.Ref

open Cert.ReferenceIdeal Cert.ReferenceIdeal.Read Cert.Sage Idealize.ShloMosaic Idealize.ShloMosaic.ValueIdx

/-- The gather's index column at (e, 0): the e-th source row number, wrapped. -/
theorem l2_gcol (x5 : (⟨S5120, .i32⟩ : BufTy).Contents (Elt Ideal)) (e : Fin 5120) :
    (val_main_v58 (F := Ideal) x5) (ix2 e (0 : Fin 1)) = wrapRow 5120#32 (x5 (ix1 e)) := by
  rw [val_main_v58_apply, val_main_v57_apply, val_main_v54_apply, val_main_v56_apply, val_main_v53_apply,
    val_main_v55_apply, val_main_c_10_apply, val_main_c_11_apply]
  have h : idx_main_v58 (ix2 e (0 : Fin 1)) = ix1 e := by funext a; match a with | ⟨0, _⟩ => rfl
  rw [h]; rfl

/-- The row scatter's index column at (e, 0): the e-th destination row number. -/
theorem l2_scol (x6 : (⟨S5120, .i32⟩ : BufTy).Contents (Elt Ideal)) (e : Fin 5120) :
    (val_main_v61 (F := Ideal) x6) (ix2 e (0 : Fin 1)) = x6 (ix1 e) := by
  rw [val_main_v61_apply]
  have h : idx_main_v61 (ix2 e (0 : Fin 1)) = ix1 e := by funext a; match a with | ⟨0, _⟩ => rfl
  rw [h]

/-- The count scatter's index column at (e, 0): the e-th destination row number. -/
theorem l2_scol1 (x6 : (⟨S5120, .i32⟩ : BufTy).Contents (Elt Ideal)) (e : Fin 5120) :
    (val_main_v65 (F := Ideal) x6) (ix2 e (0 : Fin 1)) = x6 (ix1 e) := by
  rw [val_main_v65_apply]
  have h : idx_main_v65 (ix2 e (0 : Fin 1)) = ix1 e := by funext a; match a with | ⟨0, _⟩ => rfl
  rw [h]

/-- The array scattered into is zero everywhere. -/
theorem l2_z2 (i : S1024x256.Idx) : (val_main_v60 (F := Ideal)) i = ZERO := by
  rw [val_main_v60_apply, val_main_cst_12_apply]; rfl

/-- The column scattered into is zero everywhere. -/
theorem l2_z1 (i : S1024x1.Idx) : (val_main_v64 (F := Ideal)) i = ZERO := by
  rw [val_main_v64_apply, val_main_cst_14_apply]; rfl

/-- The column scattered is one everywhere. -/
theorem l2_ones (i : S5120x1.Idx) : (val_main_v63 (F := Ideal)) i = ONE := by
  rw [val_main_v63_apply, val_main_cst_13_apply]; rfl

/-- The neighbour sums are the specification's. -/
theorem l2_msg (x0 : (⟨S700000x128, .f32⟩ : BufTy).Contents (Elt Ideal)) (x1 x2 : (⟨S768000, .i32⟩ : BufTy).Contents (Elt Ideal)) (x3 x4 : (⟨S51200, .i32⟩ : BufTy).Contents (Elt Ideal)) (x5 x6 : (⟨S5120, .i32⟩ : BufTy).Contents (Elt Ideal)) (x7 x8 : (⟨S128x256, .f32⟩ : BufTy).Contents (Elt Ideal)) (x9 : (⟨S256, .f32⟩ : BufTy).Contents (Elt Ideal)) (x10 x11 : (⟨S256x256, .f32⟩ : BufTy).Contents (Elt Ideal)) (x12 : (⟨S256, .f32⟩ : BufTy).Contents (Elt Ideal)) :
    (val_main_v62 (F := Ideal) x0 x1 x2 x3 x4 x5 x6 x7 x8 x9 x10 x11 x12) = (msgArr (Nd := 1024) (by omega : 0 < 5120) (val_main_v51 (F := Ideal) x0 x1 x2 x3 x4 x7 x8 x9 x10 x11 x12) (fun e : Fin 5120 => (wrapRow 5120#32 (x5 (ix1 e))).toInt) (fun e : Fin 5120 => (x6 (ix1 e)).toInt)) := by
  unfold val_main_v62 val_main_v59
  exact gen_msg (by omega) Facts₀.gather_S5120x256_S5120x1_S5120x256_1_0_n_n_0_1_1256_wf Facts₀.scatter_S1024x256_S5120x1_S5120x256_1_0_0_1_wf
    gather_S5120x256_S5120x1_S5120x256_1_0_n_n_0_1_1256 rfl scatter_S1024x256_S5120x1_S5120x256_1_0_0_1 rfl
    (val_main_v51 (F := Ideal) x0 x1 x2 x3 x4 x7 x8 x9 x10 x11 x12) (val_main_v60 (F := Ideal)) l2_z2 (val_main_v58 (F := Ideal) x5) (val_main_v61 (F := Ideal) x6) _ _
    (fun e => congrArg BitVec.toInt (l2_gcol x5 e)) (fun e => congrArg BitVec.toInt (l2_scol x6 e))

/-- The neighbour counts are the specification's. -/
theorem l2_deg (x6 : (⟨S5120, .i32⟩ : BufTy).Contents (Elt Ideal)) :
    (val_main_v66 (F := Ideal) x6) = (degArr (Nd := 1024) (fun e : Fin 5120 => (x6 (ix1 e)).toInt)) := by
  unfold val_main_v66
  exact gen_deg Facts₀.scatter_S1024x1_S5120x1_S5120x1_1_0_0_1_wf scatter_S1024x1_S5120x1_S5120x1_1_0_0_1 rfl
    (val_main_v64 (F := Ideal)) l2_z1 (val_main_v63 (F := Ideal)) l2_ones (val_main_v65 (F := Ideal) x6) _
    (fun e => congrArg BitVec.toInt (l2_scol1 x6 e))

/-- The mean of the neighbours at (p, k): the neighbour sum over the count, the count at least one. -/
theorem l2_neigh (x0 : (⟨S700000x128, .f32⟩ : BufTy).Contents (Elt Ideal)) (x1 x2 : (⟨S768000, .i32⟩ : BufTy).Contents (Elt Ideal)) (x3 x4 : (⟨S51200, .i32⟩ : BufTy).Contents (Elt Ideal)) (x5 x6 : (⟨S5120, .i32⟩ : BufTy).Contents (Elt Ideal)) (x7 x8 : (⟨S128x256, .f32⟩ : BufTy).Contents (Elt Ideal)) (x9 : (⟨S256, .f32⟩ : BufTy).Contents (Elt Ideal)) (x10 x11 : (⟨S256x256, .f32⟩ : BufTy).Contents (Elt Ideal)) (x12 : (⟨S256, .f32⟩ : BufTy).Contents (Elt Ideal)) (p : Fin 1024) (k : Fin 256) :
    (val_main_v70 (F := Ideal) x0 x1 x2 x3 x4 x5 x6 x7 x8 x9 x10 x11 x12) (ix2 p k)
      = Ideal.div ((msgArr (Nd := 1024) (by omega : 0 < 5120) (val_main_v51 (F := Ideal) x0 x1 x2 x3 x4 x7 x8 x9 x10 x11 x12) (fun e : Fin 5120 => (wrapRow 5120#32 (x5 (ix1 e))).toInt) (fun e : Fin 5120 => (x6 (ix1 e)).toInt)) (ix2 p k)) (max ((degArr (Nd := 1024) (fun e : Fin 5120 => (x6 (ix1 e)).toInt)) (ix2 p (0 : Fin 1))) ONE) := by
  rw [val_main_v70_apply, val_main_v69_apply, val_main_v68_apply, val_main_v67_apply, val_main_cst_15_apply,
    l2_msg, l2_deg]
  have h : idx_main_v69 (ix2 p k) = ix2 p (0 : Fin 1) := by funext a; match a with | ⟨0, _⟩ => rfl | ⟨1, _⟩ => rfl
  rw [h]; rfl

/-- The destination's own row at (p, k): the head of the input table. -/
theorem l2_head (x0 : (⟨S700000x128, .f32⟩ : BufTy).Contents (Elt Ideal)) (x1 x2 : (⟨S768000, .i32⟩ : BufTy).Contents (Elt Ideal)) (x3 x4 : (⟨S51200, .i32⟩ : BufTy).Contents (Elt Ideal)) (x7 x8 : (⟨S128x256, .f32⟩ : BufTy).Contents (Elt Ideal)) (x9 : (⟨S256, .f32⟩ : BufTy).Contents (Elt Ideal)) (x10 x11 : (⟨S256x256, .f32⟩ : BufTy).Contents (Elt Ideal)) (x12 : (⟨S256, .f32⟩ : BufTy).Contents (Elt Ideal)) (p : Fin 1024) (k : Fin 256) :
    (val_main_v52 (F := Ideal) x0 x1 x2 x3 x4 x7 x8 x9 x10 x11 x12) (ix2 p k) = headRows (Nd := 1024) (by omega : 1024 ≤ 5120) (val_main_v51 (F := Ideal) x0 x1 x2 x3 x4 x7 x8 x9 x10 x11 x12) (ix2 p k) := by
  rw [val_main_v52_apply]
  have h : idx_main_v52 (ix2 p k) = ix2 (⟨p.val, lt_of_lt_of_le p.isLt (by omega)⟩ : Fin 5120) k := by funext a; match a with | ⟨0, _⟩ => rfl | ⟨1, _⟩ => rfl
  rw [h]; rfl

/-- The layer's last array at (p, q): the two products and the bias. -/
theorem l2_out (x0 : (⟨S700000x128, .f32⟩ : BufTy).Contents (Elt Ideal)) (x1 x2 : (⟨S768000, .i32⟩ : BufTy).Contents (Elt Ideal)) (x3 x4 : (⟨S51200, .i32⟩ : BufTy).Contents (Elt Ideal)) (x5 x6 : (⟨S5120, .i32⟩ : BufTy).Contents (Elt Ideal)) (x7 x8 : (⟨S128x256, .f32⟩ : BufTy).Contents (Elt Ideal)) (x9 : (⟨S256, .f32⟩ : BufTy).Contents (Elt Ideal)) (x10 x11 : (⟨S256x256, .f32⟩ : BufTy).Contents (Elt Ideal)) (x12 : (⟨S256, .f32⟩ : BufTy).Contents (Elt Ideal)) (x13 x14 : (⟨S256x47, .f32⟩ : BufTy).Contents (Elt Ideal)) (x15 : (⟨S47, .f32⟩ : BufTy).Contents (Elt Ideal)) (p : Fin 1024) (q : Fin 47) :
    (val_main_v76 (F := Ideal) x0 x1 x2 x3 x4 x5 x6 x7 x8 x9 x10 x11 x12 x13 x14 x15) (ix2 p q)
      = act false ((∑ k : Fin 256, (val_main_v52 (F := Ideal) x0 x1 x2 x3 x4 x7 x8 x9 x10 x11 x12) (ix2 p k) * x13 (ix2 k q))
          + (∑ k : Fin 256, (val_main_v70 (F := Ideal) x0 x1 x2 x3 x4 x5 x6 x7 x8 x9 x10 x11 x12) (ix2 p k) * x14 (ix2 k q)) + x15 (ix1 q)) := by
  rw [val_main_v76_apply, val_main_v73_apply, val_main_v71_apply, val_main_v72_apply,
    val_main_v75_apply, val_main_v74_apply]
  have hl1 : ∀ k : Fin 256, lidx_main_v71 (ix2 p q) k = ix2 p k := fun k => by funext a; match a with | ⟨0, _⟩ => rfl | ⟨1, _⟩ => rfl
  have hr1 : ∀ k : Fin 256, ridx_main_v71 (ix2 p q) k = ix2 k q := fun k => by funext a; match a with | ⟨0, _⟩ => rfl | ⟨1, _⟩ => rfl
  have hl2 : ∀ k : Fin 256, lidx_main_v72 (ix2 p q) k = ix2 p k := fun k => by funext a; match a with | ⟨0, _⟩ => rfl | ⟨1, _⟩ => rfl
  have hr2 : ∀ k : Fin 256, ridx_main_v72 (ix2 p q) k = ix2 k q := fun k => by funext a; match a with | ⟨0, _⟩ => rfl | ⟨1, _⟩ => rfl
  have hb : idx_main_v74 (idx_main_v75 (ix2 p q)) = ix1 q := by funext a; match a with | ⟨0, _⟩ => rfl
  simp only [hl1, hr1, hl2, hr2, hb]
  rfl

/-- LAYER 2: the reference's value after the layer is the specification's layer of the layer's input. -/
theorem layer2_eq (x0 : (⟨S700000x128, .f32⟩ : BufTy).Contents (Elt Ideal)) (x1 x2 : (⟨S768000, .i32⟩ : BufTy).Contents (Elt Ideal)) (x3 x4 : (⟨S51200, .i32⟩ : BufTy).Contents (Elt Ideal)) (x5 x6 : (⟨S5120, .i32⟩ : BufTy).Contents (Elt Ideal)) (x7 x8 : (⟨S128x256, .f32⟩ : BufTy).Contents (Elt Ideal)) (x9 : (⟨S256, .f32⟩ : BufTy).Contents (Elt Ideal)) (x10 x11 : (⟨S256x256, .f32⟩ : BufTy).Contents (Elt Ideal)) (x12 : (⟨S256, .f32⟩ : BufTy).Contents (Elt Ideal)) (x13 x14 : (⟨S256x47, .f32⟩ : BufTy).Contents (Elt Ideal)) (x15 : (⟨S47, .f32⟩ : BufTy).Contents (Elt Ideal)) :
    (val_main_v76 (F := Ideal) x0 x1 x2 x3 x4 x5 x6 x7 x8 x9 x10 x11 x12 x13 x14 x15)
      = layer false (Ns := 5120) (Nd := 1024) (by omega) (by omega) (val_main_v51 (F := Ideal) x0 x1 x2 x3 x4 x7 x8 x9 x10 x11 x12)
          (fun e : Fin 5120 => (wrapRow 5120#32 (x5 (ix1 e))).toInt) (fun e : Fin 5120 => (x6 (ix1 e)).toInt) x13 x14 x15 :=
  gen_layer false (by omega) (by omega) (val_main_v51 (F := Ideal) x0 x1 x2 x3 x4 x7 x8 x9 x10 x11 x12) _ _ x13 x14 x15 (val_main_v76 (F := Ideal) x0 x1 x2 x3 x4 x5 x6 x7 x8 x9 x10 x11 x12 x13 x14 x15) (val_main_v52 (F := Ideal) x0 x1 x2 x3 x4 x7 x8 x9 x10 x11 x12) (val_main_v70 (F := Ideal) x0 x1 x2 x3 x4 x5 x6 x7 x8 x9 x10 x11 x12)
    (l2_head x0 x1 x2 x3 x4 x7 x8 x9 x10 x11 x12) (l2_neigh x0 x1 x2 x3 x4 x5 x6 x7 x8 x9 x10 x11 x12) (l2_out x0 x1 x2 x3 x4 x5 x6 x7 x8 x9 x10 x11 x12 x13 x14 x15)

end Cert.Sage.Ref

end
-- ==== Proof.RefValue.lean ====
/-
  The reference's value.

  The reference runs three layers in a row: the first on the input table, each later one on the rectified output of
  the layer before it, the last one not rectified. Each layer is the specification's layer of its input, so the
  reference's result is the three specification layers nested.
-/
import proofs.«181663_j61572651155594_2_alg».proof.Proof.Spec
import proofs.«181663_j61572651155594_2_alg».proof.Proof.Gen.ReferenceIdeal.Read
import proofs.«181663_j61572651155594_2_alg».proof.Proof.RefLayer0
import proofs.«181663_j61572651155594_2_alg».proof.Proof.RefLayer1
import proofs.«181663_j61572651155594_2_alg».proof.Proof.RefLayer2

noncomputable section

namespace Cert.Sage.Ref

open Cert.ReferenceIdeal Cert.Sage Idealize.ShloMosaic Idealize.ShloMosaic.ValueIdx

/-- THE REFERENCE'S VALUE: the three layers of the specification, nested. -/
theorem ref_value (x0 : (⟨S700000x128, .f32⟩ : BufTy).Contents (Elt Ideal)) (x1 x2 : (⟨S768000, .i32⟩ : BufTy).Contents (Elt Ideal)) (x3 x4 : (⟨S51200, .i32⟩ : BufTy).Contents (Elt Ideal)) (x5 x6 : (⟨S5120, .i32⟩ : BufTy).Contents (Elt Ideal)) (x7 x8 : (⟨S128x256, .f32⟩ : BufTy).Contents (Elt Ideal)) (x9 : (⟨S256, .f32⟩ : BufTy).Contents (Elt Ideal)) (x10 x11 : (⟨S256x256, .f32⟩ : BufTy).Contents (Elt Ideal)) (x12 : (⟨S256, .f32⟩ : BufTy).Contents (Elt Ideal)) (x13 x14 : (⟨S256x47, .f32⟩ : BufTy).Contents (Elt Ideal)) (x15 : (⟨S47, .f32⟩ : BufTy).Contents (Elt Ideal)) :
    Cert.ReferenceIdeal.Read.val_main_v76 (F := Ideal) x0 x1 x2 x3 x4 x5 x6 x7 x8 x9 x10 x11 x12 x13 x14 x15
      = layer false (Ns := 5120) (Nd := 1024) (by omega) (by omega)
          (layer true (Ns := 51200) (Nd := 5120) (by omega) (by omega)
            (layer true (Ns := 700000) (Nd := 51200) (by omega) (by omega) x0
              (fun e : Fin 768000 => (wrapRow 700000#32 (x1 (ix1 e))).toInt) (fun e : Fin 768000 => (x2 (ix1 e)).toInt) x7 x8 x9)
            (fun e : Fin 51200 => (wrapRow 51200#32 (x3 (ix1 e))).toInt) (fun e : Fin 51200 => (x4 (ix1 e)).toInt) x10 x11 x12)
          (fun e : Fin 5120 => (wrapRow 5120#32 (x5 (ix1 e))).toInt) (fun e : Fin 5120 => (x6 (ix1 e)).toInt) x13 x14 x15 := by
  rw [layer2_eq, layer1_eq, layer0_eq]

end Cert.Sage.Ref

end
-- ==== Proof.PreValue.lean ====
/-
  The precondition read at an entry: the three destination columns hold nonnegative row numbers.

  The precondition is one flag, the "and" of a chain of flags; the last three say that every word of the three
  destination columns (768000, 51200 and 5120 words), read signed, is at least zero.  Each is the "and" over a column of
  the words' comparisons with a zero column, started from the flag one.  A chain of "and"s that is one has every flag
  one; an "and" over a column that is one has every comparison one; and the comparison "at least zero, signed" being one
  says the word read signed is nonnegative.
-/
import proofs.«181663_j61572651155594_2_alg».proof.Defs
import Idealize.ShloMosaic.Lib.ReduceAll
import Idealize.ShloMosaic.Lib.ValueIdx

noncomputable section

namespace Cert.Sage.Pre

open Idealize.ShloMosaic Idealize.ShloMosaic.ValueIdx

/-- The scalar shape has one index. -/
instance : Subsingleton Cert.Pre_finite_inputs.S_.Idx := ⟨fun a b => funext fun d => d.elim0⟩

/-- One flag "every word of the column is at least zero, signed", being one, gives each word nonnegative. -/
theorem all_sge_zero {n : Nat} (x : IVec ⟨1, ![n]⟩ 32)
    (hb : Cert.Pre_finite_inputs.S_.BroadcastsInDim ⟨1, ![n]⟩ (![] : Fin 0 → Fin 1))
    (hr : (⟨1, ![n]⟩ : Shape).ReducesTo [0] Cert.Pre_finite_inputs.S_) (hu : 0 < Cert.Pre_finite_inputs.S_.numel)
    (j : Cert.Pre_finite_inputs.S_.Idx)
    (h : Host.reduce IntOp.andi
        (cmpi .sge x (broadcastInDim ⟨1, ![n]⟩ ![] hb (constantI Cert.Pre_finite_inputs.S_ 32 0#32)))
        (constantI Cert.Pre_finite_inputs.S_ 1 1#1) hr hu j = 1#1)
    (e : Fin n) : 0 ≤ (x (ix1 e)).toInt := by
  have h1 : IntOp.cmpi .sge (x (ix1 e)) (0#32) = 1#1 := Host.reduce_andi_all _ _ hr hu j h (ix1 e)
  exact IntOp.cmpi_sge.1 h1

/-- The last window of the flag chain: when its result is one, the comparison column it was handed is all ones and the
    two shorter destination columns are nonnegative. -/
theorem part3_facts [Cert.Pre_finite_inputs.Facts] (a4 : IVec Cert.Pre_finite_inputs.S51200 32)
    (a6 : IVec Cert.Pre_finite_inputs.S5120 32) (v48 : IVec Cert.Pre_finite_inputs.S_ 1)
    (v50 : IVec Cert.Pre_finite_inputs.S768000 1) (j : Cert.Pre_finite_inputs.S_.Idx)
    (h : Cert.Pre_finite_inputs.fn_part3 (F := Ideal) a4 a6 v48 v50 j = 1#1) :
    (Host.reduce IntOp.andi v50 (constantI Cert.Pre_finite_inputs.S_ 1 1#1)
        Cert.Pre_finite_inputs.Facts.reducesTo_S768000_S_d0 Cert.Pre_finite_inputs.Facts.h_S_ j = 1#1)
    ∧ (∀ e : Fin 51200, 0 ≤ (a4 (ix1 e)).toInt) ∧ (∀ e : Fin 5120, 0 ≤ (a6 (ix1 e)).toInt) := by
  obtain ⟨h56, h59⟩ := IntOp.andi_eq_one.1 h
  obtain ⟨h52, h55⟩ := IntOp.andi_eq_one.1 h56
  obtain ⟨_, h51⟩ := IntOp.andi_eq_one.1 h52
  exact ⟨h51, fun e => all_sge_zero a4 _ _ _ j h55 e, fun e => all_sge_zero a6 _ _ _ j h59 e⟩

/-- Under the precondition every word of the three destination columns, read signed, is nonnegative. -/
theorem dst_nonneg [hPre_finite_inputs : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ e : Fin 768000, 0 ≤ ((m ((c.tc : Thread Cert.KernelIdeal.nD Cert.KernelIdeal.τ).loc Cert.KernelIdeal.main_arg2) : IVec Cert.KernelIdeal.S768000 32) (ix1 e)).toInt)
    ∧ (∀ e : Fin 51200, 0 ≤ ((m ((c.tc : Thread Cert.KernelIdeal.nD Cert.KernelIdeal.τ).loc Cert.KernelIdeal.main_arg4) : IVec Cert.KernelIdeal.S51200 32) (ix1 e)).toInt)
    ∧ (∀ e : Fin 5120, 0 ≤ ((m ((c.tc : Thread Cert.KernelIdeal.nD Cert.KernelIdeal.τ).loc Cert.KernelIdeal.main_arg6) : IVec Cert.KernelIdeal.S5120 32) (ix1 e)).toInt) := by
  have h0 : Cert.Pre_finite_inputs.fn_part3 (F := Ideal)
      (m ((c.tc : Thread Cert.KernelIdeal.nD Cert.KernelIdeal.τ).loc Cert.KernelIdeal.main_arg4))
      (m ((c.tc : Thread Cert.KernelIdeal.nD Cert.KernelIdeal.τ).loc Cert.KernelIdeal.main_arg6)) _
      (cmpi .sge (m ((c.tc : Thread Cert.KernelIdeal.nD Cert.KernelIdeal.τ).loc Cert.KernelIdeal.main_arg2))
        (broadcastInDim Cert.Pre_finite_inputs.S768000 ![] Cert.Pre_finite_inputs.Facts.bcast_S_S768000
          (constantI Cert.Pre_finite_inputs.S_ 32 0#32))) ix0 = 1#1 := congrFun (h c) ix0
  obtain ⟨h51, h4, h6⟩ := part3_facts _ _ _ _ ix0 h0
  exact ⟨fun e => all_sge_zero _ _ _ _ ix0 h51 e, h4, h6⟩

end Cert.Sage.Pre

end
-- ==== Proof.lean ====
/-
  Three neighbourhood-mean graph layers: a Pallas kernel program against its jnp reference, over the extended reals.

  Each layer takes the node features h, an edge list (src, dst) and two weight matrices and a bias, and returns
      out[p, ·] = h[p, ·] · Ws + (Σ_{e : dst e = p} h[src e, ·]) / max(#{e : dst e = p}, 1) · Wn + b,
  rectified in the first two layers; the destination nodes of a layer are the first rows of its input.
  The reference writes the neighbour sum and the neighbour count as two segment sums. The kernel program computes both
  in one scatter-add of the gathered rows with a column of ones appended, slices the two apart, and runs the quotient,
  the two matrix products, the bias and the rectifier inside a kernel over blocks of destination rows; that is one
  region per layer. Read over the extended reals the two programs compute the same function entry by entry: sums are
  taken in any order, the change of float format before the matrix products is the identity, and the appended column
  only adds a column to the scatter-add. The one difference is in the row numbers: the kernel program's scatter-add
  wraps a negative destination row number (it counts from the end), the reference's segment sum drops it. The claim is
  therefore stated for non-negative destination row numbers, where the wrapped number is the number itself.

  The frames of the two kernel programs are their generated frame certificates; the reference's frame is its generated
  run with the result dropped. The kernel program's value is read off its run region by region (KernelRun, Region0-2,
  EntryValue, KernelValue), the reference's off its generated read-back (RefValue); both are the function `net`.
-/
import proofs.«181663_j61572651155594_2_alg».proof.Defs
import proofs.«181663_j61572651155594_2_alg».proof.Proof.Gen.Kernel
import proofs.«181663_j61572651155594_2_alg».proof.Proof.Gen.Kernel.Frame
import proofs.«181663_j61572651155594_2_alg».proof.Proof.Gen.KernelIdeal
import proofs.«181663_j61572651155594_2_alg».proof.Proof.Gen.KernelIdeal.Frame
import proofs.«181663_j61572651155594_2_alg».proof.Proof.Gen.ReferenceIdeal
import proofs.«181663_j61572651155594_2_alg».proof.Proof.Gen.Pre_finite_inputs
import proofs.«181663_j61572651155594_2_alg».proof.Proof.Gen.ReferenceIdeal.Run
import proofs.«181663_j61572651155594_2_alg».proof.Proof.Gen.ReferenceIdeal.Read
import proofs.«181663_j61572651155594_2_alg».proof.Proof.Net
import proofs.«181663_j61572651155594_2_alg».proof.Proof.KernelRun
import proofs.«181663_j61572651155594_2_alg».proof.Proof.KernelValue
import proofs.«181663_j61572651155594_2_alg».proof.Proof.RefValue
import proofs.«181663_j61572651155594_2_alg».proof.Proof.PreValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the network of the arguments in their result arrays. -/
theorem algebraic : Cert.algebraic_KernelIdeal_ReferenceIdeal := by
  intro m ρ m' ρ' hpre hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ⟨(h c).1.trans ?_, (h c).2⟩)
      (Cert.KernelIdeal.RunResult.run_result (F := Ideal) m ρ)
    obtain ⟨hd0, hd1, hd2⟩ := Cert.Sage.Pre.dst_nonneg m hpre c
    exact Cert.Sage.KernelValue.kernel_value m ρ c hd0 hd1 hd2
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.ReferenceIdeal.Read.val_main_v76_eq, Cert.Sage.Ref.ref_value,
      e0, e1, e2, e3, e4, e5, e6, e7, e8, e9, e10, e11, e12, e13, e14, e15]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
